-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S512x128 : Shape := ⟨2, ![512, 128]⟩
abbrev S128 : Shape := ⟨1, ![128]⟩
abbrev S512x40 : Shape := ⟨2, ![512, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S512x40 1) : IVec S_ 1 :=
  let main_c_5 : IVec S_ 1 := constantI S_ 1 1#1
  let main_v17 : IVec S_ 1 := (fun x v => Host.reduce IntOp.andi x v reducesTo_S512x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S512x128 .f32) (main_arg3 : FVec F S128 .f32) (main_arg4 : FVec F S512x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S512x40 .f32 := Host.absf main_arg4
  let main_cst_4 : FVec F S_ .f32 := constant S_ .f32 0x7F800000#32
  let main_v15 : FVec F S512x40 .f32 := broadcastInDim S512x40 ![] bcast_S_S512x40 main_cst_4
  let main_v16 : IVec S512x40 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S512x128 : Shape := ⟨2, ![512, 128]⟩
abbrev S128 : Shape := ⟨1, ![128]⟩
abbrev S512x40 : Shape := ⟨2, ![512, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S128x128 : Shape := ⟨2, ![128, 128]⟩
abbrev S1 : Shape := ⟨1, ![1]⟩
abbrev S5000 : Shape := ⟨1, ![5000]⟩
abbrev S5000x1 : Shape := ⟨2, ![5000, 1]⟩
abbrev S50000x40 : Shape := ⟨2, ![50000, 40]⟩

abbrev nBuf : Space → Nat
  | .hbm => 167
  | .vmem => 24
  | .smem => 0
  | _ => 0

abbrev hbmTy0_0 (i : Nat) : BufTy := match i % 128 with
  | 0 => ⟨S50000x128, .f32⟩
  | 1 => ⟨S2x800000, .i32⟩
  | 2 => ⟨S512x128, .f32⟩
  | 3 => ⟨S128, .f32⟩
  | 4 => ⟨S512x40, .f32⟩
  | 5 => ⟨S40, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .i1⟩
  | 19 => ⟨S_, .f32⟩
  | 20 => ⟨S50000, .f32⟩
  | 21 => ⟨S50000, .f32⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S50000x128, .bf16⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x1, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S50000x128, .bf16⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S800000x1, .f32⟩
  | 74 => ⟨S800000x128, .f32⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S50000x128, .bf16⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x128, .f32⟩
  | 90 => ⟨S800000x1, .f32⟩
  | 91 => ⟨S800000x128, .f32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S50000x128, .bf16⟩
  | 98 => ⟨S512x128, .bf16⟩
  | 99 => ⟨S1x128, .f32⟩
  | 100 => ⟨S50000x128, .f32⟩
  | 101 => ⟨S50000x128, .bf16⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S800000x1, .f32⟩
  | 112 => ⟨S800000x128, .f32⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S50000x128, .bf16⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x128, .f32⟩
  | _ => ⟨S50000x128, .f32⟩

abbrev hbmTy0_1 (i : Nat) : BufTy := match i % 128 with
  | 0 => ⟨S800000x1, .f32⟩
  | 1 => ⟨S800000x128, .f32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S50000x128, .bf16⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x128, .f32⟩
  | 17 => ⟨S800000x1, .f32⟩
  | 18 => ⟨S800000x128, .f32⟩
  | 19 => ⟨S800000x128, .f32⟩
  | 20 => ⟨S_, .f32⟩
  | 21 => ⟨S50000x128, .f32⟩
  | 22 => ⟨S800000x1, .i32⟩
  | 23 => ⟨S50000x128, .f32⟩
  | 24 => ⟨S50000x128, .bf16⟩
  | 25 => ⟨S_, .f32⟩
  | 26 => ⟨S512x128, .f32⟩
  | 27 => ⟨S_, .i32⟩
  | 28 => ⟨S1, .i32⟩
  | 29 => ⟨S512x128, .f32⟩
  | 30 => ⟨S_, .f32⟩
  | 31 => ⟨S128, .f32⟩
  | 32 => ⟨S_, .i32⟩
  | 33 => ⟨S1, .i32⟩
  | 34 => ⟨S128, .f32⟩
  | 35 => ⟨S512x128, .bf16⟩
  | 36 => ⟨S1x128, .f32⟩
  | 37 => ⟨S50000x128, .f32⟩
  | 38 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .bf16⟩
  | .local _ .vmem, ⟨1, _⟩ => ⟨S5000x128, .bf16⟩
  | .local _ .vmem, ⟨2, _⟩ => ⟨S5000x128, .bf16⟩
  | .local _ .vmem, ⟨3, _⟩ => ⟨S5000x128, .bf16⟩
  | .local _ .vmem, ⟨4, _⟩ => ⟨S5000x128, .bf16⟩
  | .local _ .vmem, ⟨5, _⟩ => ⟨S5000x128, .bf16⟩
  | .local _ .vmem, ⟨6, _⟩ => ⟨S5000x128, .bf16⟩
  | .local _ .vmem, ⟨7, _⟩ => ⟨S5000x128, .bf16⟩
  | .local _ .vmem, ⟨8, _⟩ => ⟨S512x128, .bf16⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .bf16⟩
  | .local _ .vmem, ⟨13, _⟩ => ⟨S5000x128, .bf16⟩
  | .local _ .vmem, ⟨14, _⟩ => ⟨S5000x128, .bf16⟩
  | .local _ .vmem, ⟨15, _⟩ => ⟨S5000x128, .bf16⟩
  | .local _ .vmem, ⟨16, _⟩ => ⟨S5000x128, .bf16⟩
  | .local _ .vmem, ⟨17, _⟩ => ⟨S5000x128, .bf16⟩
  | .local _ .vmem, ⟨18, _⟩ => ⟨S5000x128, .bf16⟩
  | .local _ .vmem, ⟨19, _⟩ => ⟨S5000x128, .bf16⟩
  | .local _ .vmem, ⟨20, _⟩ => ⟨S512x128, .bf16⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_c_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_13 : Ref sig .tc := ⟨.hbm, 81, rfl⟩
abbrev main_v58 : Ref sig .tc := ⟨.hbm, 82, rfl⟩
abbrev main_v59 : Ref sig .tc := ⟨.hbm, 83, rfl⟩
abbrev main_c_14 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_16 : Ref sig .tc := ⟨.hbm, 102, rfl⟩
abbrev main_v76 : Ref sig .tc := ⟨.hbm, 103, rfl⟩
abbrev main_v77 : Ref sig .tc := ⟨.hbm, 104, rfl⟩
abbrev main_c_17 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_18 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_19 : Ref sig .tc := ⟨.hbm, 119, rfl⟩
abbrev main_v90 : Ref sig .tc := ⟨.hbm, 120, rfl⟩
abbrev main_v91 : Ref sig .tc := ⟨.hbm, 121, rfl⟩
abbrev main_c_20 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_21 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_c_22 : Ref sig .tc := ⟨.hbm, 136, rfl⟩
abbrev main_v104 : Ref sig .tc := ⟨.hbm, 137, rfl⟩
abbrev main_v105 : Ref sig .tc := ⟨.hbm, 138, rfl⟩
abbrev main_c_23 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_24 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_25 : Ref sig .tc := ⟨.hbm, 153, rfl⟩
abbrev main_v118 : Ref sig .tc := ⟨.hbm, 154, rfl⟩
abbrev main_c_26 : Ref sig .tc := ⟨.hbm, 155, rfl⟩
abbrev main_v119 : Ref sig .tc := ⟨.hbm, 156, rfl⟩
abbrev main_v120 : Ref sig .tc := ⟨.hbm, 157, rfl⟩
abbrev main_cst_27 : Ref sig .tc := ⟨.hbm, 158, rfl⟩
abbrev main_v121 : Ref sig .tc := ⟨.hbm, 159, rfl⟩
abbrev main_c_28 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S512x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bitsLt_bf16_f32 : FTy.bits .bf16 < FTy.bits .f32
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S512x128_o0_0_S128x128 : S512x128.Slices ![0, 0] S128x128
  slices_S512x128_o128_0_S128x128 : S512x128.Slices ![128, 0] S128x128
  slices_S512x128_o256_0_S128x128 : S512x128.Slices ![256, 0] S128x128
  slices_S512x128_o384_0_S128x128 : S512x128.Slices ![384, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S_S1 : S_.BroadcastsInDim S1 (![] : Fin 0 → Fin S1.rank)
  bcast_S_S128 : S_.BroadcastsInDim S128 (![] : Fin 0 → Fin S128.rank)
  iota_S5000x128_d1_w32 : S5000x128.Iotas .tc 32 [1]
  reduces_S5000x128_S5000 : S5000x128.Reduces [1] S5000
  shapeCasts_S5000_S5000x1 : S5000.ShapeCasts S5000x1
  broadcasts_S5000x1_S5000x128 : S5000x1.Broadcasts S5000x128
  slices_S50000x128_S50000x40_0_0 : S50000x128.Slices ![0, 0] S50000x40
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S512x128_S1_S512x40_01_n_1_0_wf : ScatterDims.WF S512x128 S1 S512x40 [0, 1] [] [1] 0
  scatter_S128_S1_S40_0_n_0_0_wf : ScatterDims.WF S128 S1 S40 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .bf16 = 32 ∨ (Rect.block (s := S50000x128) S5000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .bf16 = 32 ∨ (Rect.block (s := S512x128) S512x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .bf16 = 32 ∨ (Rect.block (s := S50000x128) S5000x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .bf16 = 32 ∨ (Rect.block (s := S50000x128) S5000x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S512x128.size a
  hwx1_4 : ∀ i : grid1.Coords, EltTy.bits .bf16 = 32 ∨ (Rect.block (s := S512x128) S512x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S1_S512x40_01_n_1_0 : ScatterDims S512x128 S1 S512x40 where
  updateWindowDims := [0, 1]
  insertedWindowDims := []
  scatterDimsToOperandDims := [1]
  indexVectorDim := 0
  wf := scatter_S512x128_S1_S512x40_01_n_1_0_wf
def scatter_S128_S1_S40_0_n_0_0 : ScatterDims S128 S1 S40 where
  updateWindowDims := [0]
  insertedWindowDims := []
  scatterDimsToOperandDims := [0]
  indexVectorDim := 0
  wf := scatter_S128_S1_S40_0_n_0_0_wf

abbrev win0_0 : Pipeline.Window sig grid0 :=
  Pipeline.Window.ofSpec (Memref.whole main_v29) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v71) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v72) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v73) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v74) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v75) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v89) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v103) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v117) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v124) S512x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v125) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v126) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S512x128 : Shape := ⟨2, ![512, 128]⟩
abbrev S128 : Shape := ⟨1, ![128]⟩
abbrev S512x40 : Shape := ⟨2, ![512, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x512 : Shape := ⟨2, ![50000, 512]⟩
abbrev S1x128 : Shape := ⟨2, ![1, 128]⟩
abbrev S50000x40 : Shape := ⟨2, ![50000, 40]⟩
abbrev S1x40 : Shape := ⟨2, ![1, 40]⟩
abbrev S50000x1 : Shape := ⟨2, ![50000, 1]⟩

abbrev nBuf : Space → Nat
  | .hbm => 170
  | .vmem => 0
  | .smem => 0
  | _ => 0

abbrev hbmTy0_0 (i : Nat) : BufTy := match i % 128 with
  | 0 => ⟨S50000x128, .f32⟩
  | 1 => ⟨S2x800000, .i32⟩
  | 2 => ⟨S512x128, .f32⟩
  | 3 => ⟨S128, .f32⟩
  | 4 => ⟨S512x40, .f32⟩
  | 5 => ⟨S40, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .i1⟩
  | 19 => ⟨S_, .f32⟩
  | 20 => ⟨S50000, .f32⟩
  | 21 => ⟨S50000, .f32⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x1, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S800000x1, .f32⟩
  | 72 => ⟨S800000x128, .f32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S800000x1, .f32⟩
  | 88 => ⟨S800000x128, .f32⟩
  | 89 => ⟨S800000x128, .f32⟩
  | 90 => ⟨S_, .f32⟩
  | 91 => ⟨S50000x128, .f32⟩
  | 92 => ⟨S800000x1, .i32⟩
  | 93 => ⟨S50000x128, .f32⟩
  | 94 => ⟨S50000x512, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S800000x1, .f32⟩
  | 112 => ⟨S800000x128, .f32⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .f32⟩
  | 127 => ⟨S800000x1, .f32⟩
  | _ => ⟨S50000x128, .f32⟩

abbrev hbmTy0_1 (i : Nat) : BufTy := match i % 128 with
  | 0 => ⟨S800000x128, .f32⟩
  | 1 => ⟨S800000x128, .f32⟩
  | 2 => ⟨S_, .f32⟩
  | 3 => ⟨S50000x128, .f32⟩
  | 4 => ⟨S800000x1, .i32⟩
  | 5 => ⟨S50000x128, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x128, .f32⟩
  | 15 => ⟨S800000x1, .f32⟩
  | 16 => ⟨S800000x128, .f32⟩
  | 17 => ⟨S800000x128, .f32⟩
  | 18 => ⟨S_, .f32⟩
  | 19 => ⟨S50000x128, .f32⟩
  | 20 => ⟨S800000x1, .i32⟩
  | 21 => ⟨S50000x128, .f32⟩
  | 22 => ⟨S50000x512, .f32⟩
  | 23 => ⟨S50000x40, .f32⟩
  | 24 => ⟨S1x40, .f32⟩
  | 25 => ⟨S50000x40, .f32⟩
  | 26 => ⟨S50000x40, .f32⟩
  | 27 => ⟨S_, .f32⟩
  | 28 => ⟨S50000, .f32⟩
  | 29 => ⟨S_, .f32⟩
  | 30 => ⟨S50000, .f32⟩
  | 31 => ⟨S50000, .f32⟩
  | 32 => ⟨S50000x1, .f32⟩
  | 33 => ⟨S50000x40, .f32⟩
  | 34 => ⟨S50000x40, .f32⟩
  | 35 => ⟨S50000x40, .f32⟩
  | 36 => ⟨S_, .f32⟩
  | 37 => ⟨S50000, .f32⟩
  | 38 => ⟨S50000x1, .f32⟩
  | 39 => ⟨S50000x1, .f32⟩
  | 40 => ⟨S50000x40, .f32⟩
  | 41 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_10 : Ref sig .tc := ⟨.hbm, 62, rfl⟩
abbrev main_v42 : Ref sig .tc := ⟨.hbm, 63, rfl⟩
abbrev main_v43 : Ref sig .tc := ⟨.hbm, 64, rfl⟩
abbrev main_c_11 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_13 : Ref sig .tc := ⟨.hbm, 78, rfl⟩
abbrev main_v55 : Ref sig .tc := ⟨.hbm, 79, rfl⟩
abbrev main_v56 : Ref sig .tc := ⟨.hbm, 80, rfl⟩
abbrev main_c_14 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_call1_cst : Ref sig .tc := ⟨.hbm, 99, rfl⟩
abbrev main_call1_v0 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_c_17 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_18 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_19 : Ref sig .tc := ⟨.hbm, 118, rfl⟩
abbrev main_v87 : Ref sig .tc := ⟨.hbm, 119, rfl⟩
abbrev main_v88 : Ref sig .tc := ⟨.hbm, 120, rfl⟩
abbrev main_c_20 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_21 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_c_22 : Ref sig .tc := ⟨.hbm, 134, rfl⟩
abbrev main_v100 : Ref sig .tc := ⟨.hbm, 135, rfl⟩
abbrev main_v101 : Ref sig .tc := ⟨.hbm, 136, rfl⟩
abbrev main_c_23 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_24 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_call2_cst : Ref sig .tc := ⟨.hbm, 155, rfl⟩
abbrev main_call2_v0 : Ref sig .tc := ⟨.hbm, 156, rfl⟩
abbrev main_call2_cst_0 : Ref sig .tc := ⟨.hbm, 157, rfl⟩
abbrev main_call2_v1 : Ref sig .tc := ⟨.hbm, 158, rfl⟩
abbrev main_call2_v2 : Ref sig .tc := ⟨.hbm, 159, rfl⟩
abbrev main_call2_v3 : Ref sig .tc := ⟨.hbm, 160, rfl⟩
abbrev main_call2_v4 : Ref sig .tc := ⟨.hbm, 161, rfl⟩
abbrev main_call2_v5 : Ref sig .tc := ⟨.hbm, 162, rfl⟩
abbrev main_call2_v6 : Ref sig .tc := ⟨.hbm, 163, rfl⟩
abbrev main_call2_cst_1 : Ref sig .tc := ⟨.hbm, 164, rfl⟩
abbrev main_call2_v7 : Ref sig .tc := ⟨.hbm, 165, rfl⟩
abbrev main_call2_v8 : Ref sig .tc := ⟨.hbm, 166, rfl⟩
abbrev main_call2_v9 : Ref sig .tc := ⟨.hbm, 167, rfl⟩
abbrev main_call2_v10 : Ref sig .tc := ⟨.hbm, 168, rfl⟩
abbrev main_v118 : Ref sig .tc := ⟨.hbm, 169, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S50000x128_S50000x128_S50000x512_d1 : Shape.Concatenates [S50000x128, S50000x128, S50000x128, S50000x128] S50000x512 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x512_S512x128_S50000x128_1_0_0_1_n_n_wf : DotDims.WF S50000x512 S512x128 S50000x128 [1] [0] [0] [1] [] []
  dot_S50000x512_S512x40_S50000x40_1_0_0_1_n_n_wf : DotDims.WF S50000x512 S512x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S50000x512_S512x40_S50000x40_1_0_0_1_n_n : DotDims S50000x512 S512x40 S50000x40 where
  lhsContracting := [1]
  rhsContracting := [0]
  lhsNonContracting := [0]
  rhsNonContracting := [1]
  lhsBatch := []
  rhsBatch := []
  wf := dot_S50000x512_S512x40_S50000x40_1_0_0_1_n_n_wf

class Facts : Prop extends Facts₀ where

variable [Facts]
-- ==== Proof.KRun.lean ====
/-
  The idealized kernel program's run with its result named.

  The program is two kernel regions among stretches of host operations. Its run is a chain of segments, each
  entered from the buffer contents the previous one leaves; the contents at the last boundary are `W7`: the
  launch memory folded through the host operations and, at each region, through what the region's write-backs
  leave in its arrays. Every weakly fair execution terminates, nothing faulting, with every unscoped buffer at
  `W7`; read at the result buffer and at the six arguments this is the statement below.
-/
import proofs.«181505_j16286515986691_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer then holds the last
    boundary's contents and the six argument arrays are as launched. -/
theorem run : θ_run defs (onTc (τ := τ) (main (F := F))) ⟨m, fun _ => 0, ρ⟩ (fun r => ∀ c : Dev nD,
      r.2.mem ((c.tc : Thread nD τ).loc main_v127) = W7 m ρ c (Proc.devRef .tc main_v127)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v127 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.ValueRun

end
-- ==== Proof.RefSpec.lean ====
/-
  The reference's two dense steps as functions of arbitrary arrays, spelt with the reference program's own host
  operations.

  `layer1`: the four feature arrays joined along the columns to 50000×512, times the 512×128 weights, plus the bias
  broadcast down the rows, then the maximum with zero. `logits2`: the same product with the 512×40 weights plus the
  bias. `logSoftmaxRows`: jax's log-softmax over the 40 columns — the row maximum (a max-reduce from -∞, and the
  maximum of that with -∞ once more), the shifted array, and the shifted array minus the logarithm of the row sums of
  its exponentials. Then the host chain both programs share: the edge list's two rows, the degrees and the edge weights
  `deg^(-1/2)[src] · deg^(-1/2)[dst]`, one propagation step (gather the source rows, scale by the edge weight, scatter-add
  at the destination rows), and the two layers composed.
-/
import proofs.«181505_j16286515986691_2_alg».proof.Proof.Gen.ReferenceIdeal
import Idealize.ShloMosaic.PureOps.Ideal

noncomputable section

namespace Cert.ReferenceIdeal.Layer

open Idealize.ShloMosaic Cert.ReferenceIdeal Cert.ReferenceIdeal.Gen

/-- The first layer's dense step: `max ([a0 | a1 | a2 | a3] · w + b, 0)`. -/
def layer1 (a0 a1 a2 a3 : FVec Ideal S50000x128 .f32) (w : FVec Ideal S512x128 .f32) (b : FVec Ideal S128 .f32) :
    FVec Ideal S50000x128 .f32 :=
  maximumf
    (addf (Host.dotGeneral dot_S50000x512_S512x128_S50000x128_1_0_0_1_n_n none (concatenate S50000x512 1 [⟨S50000x128, a0⟩, ⟨S50000x128, a1⟩, ⟨S50000x128, a2⟩, ⟨S50000x128, a3⟩] concatenates_S50000x128_S50000x128_S50000x128_S50000x128_S50000x512_d1) w)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The second layer's linear step: `[a0 | a1 | a2 | a3] · w + b` with 40 output columns. -/
def logits2 (a0 a1 a2 a3 : FVec Ideal S50000x128 .f32) (w : FVec Ideal S512x40 .f32) (b : FVec Ideal S40 .f32) :
    FVec Ideal S50000x40 .f32 :=
  addf (Host.dotGeneral dot_S50000x512_S512x40_S50000x40_1_0_0_1_n_n none (concatenate S50000x512 1 [⟨S50000x128, a0⟩, ⟨S50000x128, a1⟩, ⟨S50000x128, a2⟩, ⟨S50000x128, a3⟩] concatenates_S50000x128_S50000x128_S50000x128_S50000x128_S50000x512_d1) w)
    (broadcastInDim S50000x40 ![0, 1] bcast_S1x40_S50000x40_0_1 (broadcastInDim S1x40 ![1] bcast_S40_S1x40_1 b))

/-- The logarithm of the softmax of every row of a 50000×40 array, as the reference computes it. -/
def logSoftmaxRows (z : FVec Ideal S50000x40 .f32) : FVec Ideal S50000x40 .f32 :=
  subf (subf z (broadcastInDim S50000x40 ![0, 1] bcast_S50000x1_S50000x40_0_1 (broadcastInDim S50000x1 ![0] bcast_S50000_S50000x1_0 (maximumf (broadcastInDim S50000 ![] bcast_S_S50000 (constant S_ .f32 0xFF800000#32)) (Host.reduce FloatOps.maximumf z (constant S_ .f32 0xFF800000#32) reducesTo_S50000x40_S50000_d1 h_S_)))))
    (broadcastInDim S50000x40 ![0, 1] bcast_S50000x1_S50000x40_0_1
      (Host.log (broadcastInDim S50000x1 ![0] bcast_S50000_S50000x1_0
        (Host.reduceAdd (Host.exp (subf z (broadcastInDim S50000x40 ![0, 1] bcast_S50000x1_S50000x40_0_1 (broadcastInDim S50000x1 ![0] bcast_S50000_S50000x1_0 (maximumf (broadcastInDim S50000 ![] bcast_S_S50000 (constant S_ .f32 0xFF800000#32)) (Host.reduce FloatOps.maximumf z (constant S_ .f32 0xFF800000#32) reducesTo_S50000x40_S50000_d1 h_S_)))))) (constant S_ .f32 0x00000000#32) reducesTo_S50000x40_S50000_d1 h_S_))))

/-! ## The shared host chain: edge weights and one propagation step -/

/-- The edges' source rows: row 0 of the 2×800000 edge list. -/
def src (e : IVec S2x800000 32) : IVec S800000 32 :=
  shapeCast S800000 (extractStridedSlice S1x800000 ![0, 0] e slices_S2x800000_S1x800000_0_0) shapeCasts_S1x800000_S800000

/-- The edges' destination rows: row 1 of the edge list. -/
def dst (e : IVec S2x800000 32) : IVec S800000 32 :=
  shapeCast S800000 (extractStridedSlice S1x800000 ![1, 0] e slices_S2x800000_S1x800000_1_0) shapeCasts_S1x800000_S800000

/-- The in-degree of every node: ones scattered and added at the destination rows. -/
def deg (e : IVec S2x800000 32) : FVec Ideal S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 (dst e))
    (broadcastInDim S800000 ![] bcast_S_S800000 (constant S_ .f32 0x3F800000#32))

/-- `deg^(-1/2)` where the degree is positive, `0` elsewhere. -/
def dis (e : IVec S2x800000 32) : FVec Ideal S50000 .f32 :=
  select (cmpf (F := Ideal) .ogt (deg e) (broadcastInDim S50000 ![] bcast_S_S50000 (constant S_ .f32 0x00000000#32)))
    (Host.rsqrt (maximumf (deg e) (broadcastInDim S50000 ![] bcast_S_S50000 (constant S_ .f32 0x3F800000#32))))
    (broadcastInDim S50000 ![] bcast_S_S50000 (constant S_ .f32 0x00000000#32))

/-- A column of row numbers for a gather: a negative number has 50000 added (numpy's wrap-around), as an 800000×1 array. -/
def wrap (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The edge weights `dis[src] · dis[dst]`. -/
def nrm (e : IVec S2x800000 32) : FVec Ideal S800000 .f32 :=
  mulf (Host.gather gather_S50000_S800000x1_S800000_n_0_n_n_0_1_1 (dis e) (wrap (src e)))
    (Host.gather gather_S50000_S800000x1_S800000_n_0_n_n_0_1_1 (dis e) (wrap (dst e)))

/-- One propagation step: every edge carries its source node's feature row times the edge weight to its destination
    node, where the rows are added up. -/
def hop (e : IVec S2x800000 32) (h : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dst e))
    (mulf (Host.gather gather_S50000x128_S800000x1_S800000x128_1_0_n_n_0_1_1128 h (wrap (src e)))
      (broadcastInDim S800000x128 ![0, 1] bcast_S800000x1_S800000x128_0_1
        (broadcastInDim S800000x1 ![0] bcast_S800000_S800000x1_0 (nrm e))))

/-- The hidden features: the first dense step of the node features and their three propagated copies. -/
def hidden (x : FVec Ideal S50000x128 .f32) (e : IVec S2x800000 32) (w : FVec Ideal S512x128 .f32) (b : FVec Ideal S128 .f32) :
    FVec Ideal S50000x128 .f32 :=
  layer1 x (hop e x) (hop e (hop e x)) (hop e (hop e (hop e x))) w b

/-- The network's output: the log-softmax of the second dense step of the hidden features and their three propagated
    copies. -/
def out (x : FVec Ideal S50000x128 .f32) (e : IVec S2x800000 32) (w1 : FVec Ideal S512x128 .f32) (b1 : FVec Ideal S128 .f32)
    (w2 : FVec Ideal S512x40 .f32) (b2 : FVec Ideal S40 .f32) : FVec Ideal S50000x40 .f32 :=
  logSoftmaxRows (logits2 (hidden x e w1 b1) (hop e (hidden x e w1 b1)) (hop e (hop e (hidden x e w1 b1)))
    (hop e (hop e (hop e (hidden x e w1 b1)))) w2 b2)

end Cert.ReferenceIdeal.Layer

end
-- ==== Proof.LibFoldStretch.lean ====
/-
  Two general facts about a straight line of host operations read as a fold over buffer contents, for any program
  signature and any values.

  * The fold over a concatenation of two lines is the fold over the first, then over the second — so a long line can
    be read stretch by stretch, each stretch for ARBITRARY earlier contents (a variable keeps every term small).
  * A typed reference carries its buffer's contents to the value's type and back along one equation of types; the two
    transports undo each other. After the results of a stretch of operations over typed references are rewritten out,
    every intermediate buffer appears as "back ∘ forth" around the operation's value, and these pairs cancel
    syntactically; what is left sits on the stretch's input buffers only, where it is a cast of a variable.
  With both, a stretch of operations outlined from a called function (spelt over typed references) is read as one
  plain function of the few buffers it reads, by: rewrite the results, cancel the pairs, generalize the input
  buffers' contents, and compare.
-/
import Idealize.ShloMosaic.Lib.StableHlo.Run

noncomputable section

namespace Cert.LibFoldStretch

open Idealize.ShloMosaic Idealize.ShloMosaic.StableHlo

variable {τ : Topo} {sig : RefSig} {Val : EltTy → Type}

/-- Folding the operations' results over a concatenation is folding over the first list, then over the second. -/
theorem after_append (xs ys : List (HloOp τ sig Val)) (V : Valuation τ sig Val) :
    after (xs ++ ys) V = after ys (after xs V) := by
  induction xs generalizing V with
  | nil => rfl
  | cons op xs ih => rw [List.cons_append, after_cons, after_cons, ih]

/-- A typed reference's transport to its buffer's type and back is the identity. -/
theorem ofBuf_toBuf {T : BufTy} (x : TRef sig T) (v : T.Contents Val) : x.ofBuf (x.toBuf v) = v := by
  obtain ⟨r, h, h2, h3⟩ := x
  subst h
  rfl

/-- A typed reference's transport from its buffer's type and back is the identity. -/
theorem toBuf_ofBuf {T : BufTy} (x : TRef sig T) (v : x.ref.ty.Contents Val) : x.toBuf (x.ofBuf v) = v := by
  obtain ⟨r, h, h2, h3⟩ := x
  subst h
  rfl

end Cert.LibFoldStretch

end
-- ==== Proof.HostA.lean ====
/-
  The kernel program's host operations before its first region, read stretch by stretch.

  Before the first region the program slices the edge list into its source and destination rows, counts the
  degrees, forms the edge weights, propagates the node features three times along the edges, and makes the
  reduced-precision copies the region stages. The buffer contents when the region is entered are the launch memory
  folded through three stretches of operations. Each stretch is read for ARBITRARY earlier contents, and what it
  reads of them is then named by the shared host chain's functions (the edge rows, the degree weights, the edge
  weights, a propagation step) of the argument arrays — the two programs spell these operations identically. The
  copies at a narrower float format are kept as the operation that makes them. The transports a typed reference puts
  around the inlined call's intermediate values are the identity.
-/
import proofs.«181505_j16286515986691_2_alg».proof.Proof.Gen.KernelIdeal.Frame
import proofs.«181505_j16286515986691_2_alg».proof.Proof.RefSpec
import proofs.«181505_j16286515986691_2_alg».proof.Proof.LibFoldStretch

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen
open Cert.LibFoldStretch (ofBuf_toBuf toBuf_ofBuf)

variable (m : (ℓ : Loc nD τ sig) → Buf (Elt Ideal) ℓ) (ρ : Dev nD → PrngReg)

/-- The six argument arrays on core `c`, as launched. -/
abbrev X0 (c : Dev nD) := m ((c : Thread nD τ).loc main_arg0)
abbrev X1 (c : Dev nD) := m ((c : Thread nD τ).loc main_arg1)
abbrev X2 (c : Dev nD) := m ((c : Thread nD τ).loc main_arg2)
abbrev X3 (c : Dev nD) := m ((c : Thread nD τ).loc main_arg3)
abbrev X4 (c : Dev nD) := m ((c : Thread nD τ).loc main_arg4)
abbrev X5 (c : Dev nD) := m ((c : Thread nD τ).loc main_arg5)

/-! ## The inlined `where`: three operations over typed references, for arbitrary earlier contents -/

set_option maxHeartbeats 4000000 in
/-- The call's result is the select of its operands; the transports around its intermediate values cancel. -/
theorem where_read (V : Valuation τ sig (Elt Ideal)) :
    StableHlo.after (hostOps0_1 (F := Ideal)) V (Proc.devRef .tc main_v13)
      = select (V (Proc.devRef .tc main_v9)) (V (Proc.devRef .tc main_v12))
          (broadcastInDim S50000 ![] bcast_S_S50000 (V (Proc.devRef .tc main_cst_3))) := by
  after_results_simp
  simp only [ofBuf_toBuf, toBuf_ofBuf]
  generalize V (Proc.devRef .tc main_v9) = a
  generalize V (Proc.devRef .tc main_v12) = b
  generalize V (Proc.devRef .tc main_cst_3) = z
  rfl

/-! ## After the first two stretches -/

set_option maxHeartbeats 4000000 in
theorem W2_v1 (c : Dev nD) : W2 (F := Ideal) m ρ c (Proc.devRef .tc main_v1) = Cert.ReferenceIdeal.Layer.src (X1 m c) := by
  show StableHlo.after hostOps0_1 (StableHlo.after hostOps0 (W0 (F := Ideal) m ρ c)) (Proc.devRef .tc main_v1) = _
  after_results_simp <;> rfl

set_option maxHeartbeats 4000000 in
theorem W2_v3 (c : Dev nD) : W2 (F := Ideal) m ρ c (Proc.devRef .tc main_v3) = Cert.ReferenceIdeal.Layer.dst (X1 m c) := by
  show StableHlo.after hostOps0_1 (StableHlo.after hostOps0 (W0 (F := Ideal) m ρ c)) (Proc.devRef .tc main_v3) = _
  after_results_simp <;> rfl

set_option maxHeartbeats 4000000 in
theorem W2_v13 (c : Dev nD) : W2 (F := Ideal) m ρ c (Proc.devRef .tc main_v13) = Cert.ReferenceIdeal.Layer.dis (X1 m c) := by
  refine (where_read (W1 (F := Ideal) m ρ c)).trans ?_
  show select (StableHlo.after hostOps0 (W0 (F := Ideal) m ρ c) (Proc.devRef .tc main_v9))
      (StableHlo.after hostOps0 (W0 (F := Ideal) m ρ c) (Proc.devRef .tc main_v12))
      (broadcastInDim S50000 ![] bcast_S_S50000 (StableHlo.after hostOps0 (W0 (F := Ideal) m ρ c) (Proc.devRef .tc main_cst_3))) = _
  after_results_simp
  rfl

set_option maxHeartbeats 4000000 in
theorem W2_arg0 (c : Dev nD) : W2 (F := Ideal) m ρ c (Proc.devRef .tc main_arg0) = X0 m c := by
  show StableHlo.after hostOps0_1 (StableHlo.after hostOps0 (W0 (F := Ideal) m ρ c)) (Proc.devRef .tc main_arg0) = _
  after_results_simp <;> rfl

set_option maxHeartbeats 4000000 in
theorem W2_arg2 (c : Dev nD) : W2 (F := Ideal) m ρ c (Proc.devRef .tc main_arg2) = X2 m c := by
  show StableHlo.after hostOps0_1 (StableHlo.after hostOps0 (W0 (F := Ideal) m ρ c)) (Proc.devRef .tc main_arg2) = _
  after_results_simp <;> rfl

set_option maxHeartbeats 4000000 in
theorem W2_arg3 (c : Dev nD) : W2 (F := Ideal) m ρ c (Proc.devRef .tc main_arg3) = X3 m c := by
  show StableHlo.after hostOps0_1 (StableHlo.after hostOps0 (W0 (F := Ideal) m ρ c)) (Proc.devRef .tc main_arg3) = _
  after_results_simp <;> rfl

set_option maxHeartbeats 4000000 in
theorem W2_arg4 (c : Dev nD) : W2 (F := Ideal) m ρ c (Proc.devRef .tc main_arg4) = X4 m c := by
  show StableHlo.after hostOps0_1 (StableHlo.after hostOps0 (W0 (F := Ideal) m ρ c)) (Proc.devRef .tc main_arg4) = _
  after_results_simp <;> rfl

set_option maxHeartbeats 4000000 in
theorem W2_arg5 (c : Dev nD) : W2 (F := Ideal) m ρ c (Proc.devRef .tc main_arg5) = X5 m c := by
  show StableHlo.after hostOps0_1 (StableHlo.after hostOps0 (W0 (F := Ideal) m ρ c)) (Proc.devRef .tc main_arg5) = _
  after_results_simp <;> rfl

/-! ## The third stretch: edge weights, propagation, narrow copies -/

set_option maxHeartbeats 8000000 in
/-- The edge weights. -/
theorem W3_v28 (c : Dev nD) : W3 (F := Ideal) m ρ c (Proc.devRef .tc main_v28) = Cert.ReferenceIdeal.Layer.nrm (X1 m c) := by
  show StableHlo.after hostOps0_2 (W2 (F := Ideal) m ρ c) (Proc.devRef .tc main_v28) = _
  generalize hV : W2 (F := Ideal) m ρ c = V
  after_results_simp
  subst hV
  rw [W2_v1 m ρ c, W2_v3 m ρ c, W2_v13 m ρ c]
  rfl

set_option maxHeartbeats 4000000 in
theorem W3_v1 (c : Dev nD) : W3 (F := Ideal) m ρ c (Proc.devRef .tc main_v1) = Cert.ReferenceIdeal.Layer.src (X1 m c) := by
  show StableHlo.after hostOps0_2 (W2 (F := Ideal) m ρ c) (Proc.devRef .tc main_v1) = _
  generalize hV : W2 (F := Ideal) m ρ c = V
  after_results_simp
  subst hV
  exact W2_v1 m ρ c

set_option maxHeartbeats 4000000 in
theorem W3_v3 (c : Dev nD) : W3 (F := Ideal) m ρ c (Proc.devRef .tc main_v3) = Cert.ReferenceIdeal.Layer.dst (X1 m c) := by
  show StableHlo.after hostOps0_2 (W2 (F := Ideal) m ρ c) (Proc.devRef .tc main_v3) = _
  generalize hV : W2 (F := Ideal) m ρ c = V
  after_results_simp
  subst hV
  exact W2_v3 m ρ c

set_option maxHeartbeats 4000000 in
/-- The node features' narrow copy. -/
theorem W3_v29 (c : Dev nD) : W3 (F := Ideal) m ρ c (Proc.devRef .tc main_v29) = truncf (F := Ideal) (s := S50000x128) (φ := .f32) .bf16 (X0 m c) bitsLt_bf16_f32 := by
  show StableHlo.after hostOps0_2 (W2 (F := Ideal) m ρ c) (Proc.devRef .tc main_v29) = _
  generalize hV : W2 (F := Ideal) m ρ c = V
  after_results_simp
  subst hV
  rw [W2_arg0 m ρ c]

set_option maxHeartbeats 8000000 in
/-- The once-propagated features' narrow copy. -/
theorem W3_v43 (c : Dev nD) : W3 (F := Ideal) m ρ c (Proc.devRef .tc main_v43)
    = truncf (F := Ideal) (s := S50000x128) (φ := .f32) .bf16 (Cert.ReferenceIdeal.Layer.hop (X1 m c) (X0 m c)) bitsLt_bf16_f32 := by
  show StableHlo.after hostOps0_2 (W2 (F := Ideal) m ρ c) (Proc.devRef .tc main_v43) = _
  generalize hV : W2 (F := Ideal) m ρ c = V
  after_results_simp
  subst hV
  rw [W2_v1 m ρ c, W2_v3 m ρ c, W2_v13 m ρ c, W2_arg0 m ρ c]
  rfl

set_option maxHeartbeats 16000000 in
/-- The twice-propagated features' narrow copy. -/
theorem W3_v57 (c : Dev nD) : W3 (F := Ideal) m ρ c (Proc.devRef .tc main_v57)
    = truncf (F := Ideal) (s := S50000x128) (φ := .f32) .bf16 (Cert.ReferenceIdeal.Layer.hop (X1 m c) (Cert.ReferenceIdeal.Layer.hop (X1 m c) (X0 m c))) bitsLt_bf16_f32 := by
  show StableHlo.after hostOps0_2 (W2 (F := Ideal) m ρ c) (Proc.devRef .tc main_v57) = _
  generalize hV : W2 (F := Ideal) m ρ c = V
  after_results_simp
  subst hV
  rw [W2_v1 m ρ c, W2_v3 m ρ c, W2_v13 m ρ c, W2_arg0 m ρ c]
  rfl

set_option maxHeartbeats 16000000 in
/-- The thrice-propagated features' narrow copy. -/
theorem W3_v71 (c : Dev nD) : W3 (F := Ideal) m ρ c (Proc.devRef .tc main_v71)
    = truncf (F := Ideal) (s := S50000x128) (φ := .f32) .bf16 (Cert.ReferenceIdeal.Layer.hop (X1 m c) (Cert.ReferenceIdeal.Layer.hop (X1 m c) (Cert.ReferenceIdeal.Layer.hop (X1 m c) (X0 m c)))) bitsLt_bf16_f32 := by
  show StableHlo.after hostOps0_2 (W2 (F := Ideal) m ρ c) (Proc.devRef .tc main_v71) = _
  generalize hV : W2 (F := Ideal) m ρ c = V
  after_results_simp
  subst hV
  rw [W2_v1 m ρ c, W2_v3 m ρ c, W2_v13 m ρ c, W2_arg0 m ρ c]
  rfl

set_option maxHeartbeats 4000000 in
/-- The first layer's weights' narrow copy. -/
theorem W3_v72 (c : Dev nD) : W3 (F := Ideal) m ρ c (Proc.devRef .tc main_v72) = truncf (F := Ideal) (s := S512x128) (φ := .f32) .bf16 (X2 m c) bitsLt_bf16_f32 := by
  show StableHlo.after hostOps0_2 (W2 (F := Ideal) m ρ c) (Proc.devRef .tc main_v72) = _
  generalize hV : W2 (F := Ideal) m ρ c = V
  after_results_simp
  subst hV
  rw [W2_arg2 m ρ c]

set_option maxHeartbeats 4000000 in
/-- The first layer's bias as a 1×128 row. -/
theorem W3_v73 (c : Dev nD) : W3 (F := Ideal) m ρ c (Proc.devRef .tc main_v73)
    = shapeCast S1x128 (X3 m c) shapeCasts_S128_S1x128 := by
  show StableHlo.after hostOps0_2 (W2 (F := Ideal) m ρ c) (Proc.devRef .tc main_v73) = _
  generalize hV : W2 (F := Ideal) m ρ c = V
  after_results_simp
  subst hV
  rw [W2_arg3 m ρ c]
  rfl

set_option maxHeartbeats 4000000 in
theorem W3_arg4 (c : Dev nD) : W3 (F := Ideal) m ρ c (Proc.devRef .tc main_arg4) = X4 m c := by
  show StableHlo.after hostOps0_2 (W2 (F := Ideal) m ρ c) (Proc.devRef .tc main_arg4) = _
  generalize hV : W2 (F := Ideal) m ρ c = V
  after_results_simp
  subst hV
  exact W2_arg4 m ρ c

set_option maxHeartbeats 4000000 in
theorem W3_arg5 (c : Dev nD) : W3 (F := Ideal) m ρ c (Proc.devRef .tc main_arg5) = X5 m c := by
  show StableHlo.after hostOps0_2 (W2 (F := Ideal) m ρ c) (Proc.devRef .tc main_arg5) = _
  generalize hV : W2 (F := Ideal) m ρ c = V
  after_results_simp
  subst hV
  exact W2_arg5 m ρ c

end Cert.KernelIdeal.HostRead

end
-- ==== Proof.BlockFun.lean ====
/-
  What each kernel region leaves in its output array, as a function of the six arrays it reads.

  A region's grid has ten points; point `T` works on rows `5000·T … 5000·T + 4999` of the four feature arrays and on
  the whole weight matrix and bias row, and writes the body's 5000×128 result to the same rows of the output. So the
  output array holds at row `i` the body's result at row `i mod 5000` of the row blocks cut at `i / 5000`.
-/
import proofs.«181505_j16286515986691_2_alg».proof.Proof.Gen.KernelIdeal.Skeleton
import Idealize.ShloMosaic.Lib.ValueIdx

noncomputable section

namespace Cert.KernelIdeal.BlockFun

open Idealize.ShloMosaic Idealize.ShloMosaic.ValueIdx Cert.KernelIdeal Cert.KernelIdeal.Gen

/-- Rows `5000·T … 5000·T + 4999` of a 50000×128 array (the row number taken modulo 50000, so that the block is
    defined for every `T`; for `T < 10` nothing wraps). -/
def rowBlock (a : FVec Ideal S50000x128 .bf16) (T : ℕ) : FVec Ideal S5000x128 .bf16 := fun y =>
  a (ix2 (⟨(T * 5000 + (y 0).val) % 50000, Nat.mod_lt _ (by norm_num)⟩ : Fin 50000) (⟨(y 1).val, (y 1).isLt⟩ : Fin 128))

/-- The first region's output array: at row `i`, the first body's result at row `i mod 5000` of the blocks cut at
    `i / 5000`. -/
def G0 (a0 a1 a2 a3 : FVec Ideal S50000x128 .bf16) (w : FVec Ideal S512x128 .bf16) (b : FVec Ideal S1x128 .f32) :
    FVec Ideal S50000x128 .f32 := fun i =>
  k0_pay1 (F := Ideal) w (rowBlock a0 ((i 0).val / 5000)) (rowBlock a1 ((i 0).val / 5000)) (rowBlock a2 ((i 0).val / 5000))
      (rowBlock a3 ((i 0).val / 5000)) b
    (ix2 (⟨(i 0).val % 5000, Nat.mod_lt _ (by norm_num)⟩ : Fin 5000) (⟨(i 1).val, (i 1).isLt⟩ : Fin 128))

/-- The second region's output array, likewise with the second body. -/
def G1 (a0 a1 a2 a3 : FVec Ideal S50000x128 .bf16) (w : FVec Ideal S512x128 .bf16) (b : FVec Ideal S1x128 .f32) :
    FVec Ideal S50000x128 .f32 := fun i =>
  k1_pay1 (F := Ideal)
      (k1_pay2 (F := Ideal) w (rowBlock a0 ((i 0).val / 5000)) (rowBlock a1 ((i 0).val / 5000)) (rowBlock a2 ((i 0).val / 5000))
        (rowBlock a3 ((i 0).val / 5000)) b)
      (k1_pay3 (F := Ideal) w (rowBlock a0 ((i 0).val / 5000)) (rowBlock a1 ((i 0).val / 5000)) (rowBlock a2 ((i 0).val / 5000))
        (rowBlock a3 ((i 0).val / 5000)) b)
    (ix2 (⟨(i 0).val % 5000, Nat.mod_lt _ (by norm_num)⟩ : Fin 5000) (⟨(i 1).val, (i 1).isLt⟩ : Fin 128))

end Cert.KernelIdeal.BlockFun

end
-- ==== Proof.Blocks0.lean ====
/-
  Region 0 of the idealized kernel program, from blocks to the whole array.

  The region's grid has ten points. At point `t` the pipeline stages rows `5000·t … 5000·t + 4999` of each of the
  four feature arrays (all 128 columns), the whole weight matrix and the whole bias row, runs the body on them,
  and writes the body's 5000×128 result back to the same rows of the output array. So the output array, once all
  ten points have written, holds at row `i` the body's result at row `i mod 5000` of the row block `i / 5000`:
  one function `G` of the six arrays as the region finds them. The ten blocks are disjoint and cover the array.
-/
import proofs.«181505_j16286515986691_2_alg».proof.Proof.Gen.KernelIdeal.Frame
import Idealize.ShloMosaic.Lib.Pipeline.Value
import Idealize.ShloMosaic.Lib.ValueIdx
import proofs.«181505_j16286515986691_2_alg».proof.Proof.BlockFun

set_option maxRecDepth 16384

noncomputable section

namespace Cert.KernelIdeal.Blocks0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.BlockFun

theorem hz : (![0, 0] : Fin 2 → Nat) = fun _ => 0 := funext fun a => by fin_cases a <;> rfl

/-- The printed index maps, decided over the grid: the four feature windows and the output window sit at block row
    `t`, block column 0; the weight and bias windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

section
variable (V : (c : Dev nD) → (b : Ref sig .tc) → Buf (Elt Ideal) ((c : Thread nD τ).loc b))

/-- A feature window's block at point `t` is the row block `t` of its array. -/
theorem iblk_0 (c : Dev nD) (t : Fin cfg0.N) : iblk0 V c 0 t = rowBlock (V c main_v29) t.val := by
  funext y
  show V c main_v29 (((cfg0.win 0).blk t).view.emb y) = V c main_v29 _
  obtain ⟨e0, e1, -⟩ := idx_facts t
  have ht : t.val < 10 := t.isLt
  refine congrArg _ (funext fun a => Fin.ext ?_)
  match a with
  | ⟨0, _⟩ =>
    show win0_0.index t (0 : Fin 2) * 5000 + 1 * (y 0).val = (t.val * 5000 + (y 0).val) % 50000
    have hy : (y 0).val < 5000 := (y 0).isLt
    rw [e0]; omega
  | ⟨1, _⟩ =>
    show win0_0.index t (1 : Fin 2) * 128 + 1 * (y 1).val = (y 1).val
    rw [e1]; omega

theorem iblk_1 (c : Dev nD) (t : Fin cfg0.N) : iblk0 V c 1 t = rowBlock (V c main_v43) t.val := by
  funext y
  show V c main_v43 (((cfg0.win 1).blk t).view.emb y) = V c main_v43 _
  obtain ⟨-, -, e0, e1, -⟩ := idx_facts t
  have ht : t.val < 10 := t.isLt
  refine congrArg _ (funext fun a => Fin.ext ?_)
  match a with
  | ⟨0, _⟩ =>
    show win0_1.index t (0 : Fin 2) * 5000 + 1 * (y 0).val = (t.val * 5000 + (y 0).val) % 50000
    have hy : (y 0).val < 5000 := (y 0).isLt
    rw [e0]; omega
  | ⟨1, _⟩ =>
    show win0_1.index t (1 : Fin 2) * 128 + 1 * (y 1).val = (y 1).val
    rw [e1]; omega

theorem iblk_2 (c : Dev nD) (t : Fin cfg0.N) : iblk0 V c 2 t = rowBlock (V c main_v57) t.val := by
  funext y
  show V c main_v57 (((cfg0.win 2).blk t).view.emb y) = V c main_v57 _
  obtain ⟨-, -, -, -, e0, e1, -⟩ := idx_facts t
  have ht : t.val < 10 := t.isLt
  refine congrArg _ (funext fun a => Fin.ext ?_)
  match a with
  | ⟨0, _⟩ =>
    show win0_2.index t (0 : Fin 2) * 5000 + 1 * (y 0).val = (t.val * 5000 + (y 0).val) % 50000
    have hy : (y 0).val < 5000 := (y 0).isLt
    rw [e0]; omega
  | ⟨1, _⟩ =>
    show win0_2.index t (1 : Fin 2) * 128 + 1 * (y 1).val = (y 1).val
    rw [e1]; omega

theorem iblk_3 (c : Dev nD) (t : Fin cfg0.N) : iblk0 V c 3 t = rowBlock (V c main_v71) t.val := by
  funext y
  show V c main_v71 (((cfg0.win 3).blk t).view.emb y) = V c main_v71 _
  obtain ⟨-, -, -, -, -, -, e0, e1, -⟩ := idx_facts t
  have ht : t.val < 10 := t.isLt
  refine congrArg _ (funext fun a => Fin.ext ?_)
  match a with
  | ⟨0, _⟩ =>
    show win0_3.index t (0 : Fin 2) * 5000 + 1 * (y 0).val = (t.val * 5000 + (y 0).val) % 50000
    have hy : (y 0).val < 5000 := (y 0).isLt
    rw [e0]; omega
  | ⟨1, _⟩ =>
    show win0_3.index t (1 : Fin 2) * 128 + 1 * (y 1).val = (y 1).val
    rw [e1]; omega

/-- The weight window's block is the whole weight array, at every point. -/
theorem iblk_4 (c : Dev nD) (t : Fin cfg0.N) : iblk0 V c 4 t = V c main_v72 := by
  funext y
  show V c main_v72 (((cfg0.win 4).blk t).view.emb y) = V c main_v72 y
  obtain ⟨-, -, -, -, -, -, -, -, e0, e1, -⟩ := idx_facts t
  refine congrArg _ (funext fun a => Fin.ext ?_)
  match a with
  | ⟨0, _⟩ =>
    show win0_4.index t (0 : Fin 2) * 512 + 1 * (y 0).val = (y 0).val
    rw [e0]; omega
  | ⟨1, _⟩ =>
    show win0_4.index t (1 : Fin 2) * 128 + 1 * (y 1).val = (y 1).val
    rw [e1]; omega

/-- The bias window's block is the whole bias row, at every point. -/
theorem iblk_5 (c : Dev nD) (t : Fin cfg0.N) : iblk0 V c 5 t = V c main_v73 := by
  funext y
  show V c main_v73 (((cfg0.win 5).blk t).view.emb y) = V c main_v73 y
  obtain ⟨-, -, -, -, -, -, -, -, -, -, e0, e1, -⟩ := idx_facts t
  refine congrArg _ (funext fun a => Fin.ext ?_)
  match a with
  | ⟨0, _⟩ =>
    show win0_5.index t (0 : Fin 2) * 1 + 1 * (y 0).val = (y 0).val
    rw [e0]; omega
  | ⟨1, _⟩ =>
    show win0_5.index t (1 : Fin 2) * 128 + 1 * (y 1).val = (y 1).val
    rw [e1]; omega

/-- WHAT POINT `t` WRITES BACK is block `t` of `G` of the six arrays as the region finds them. -/
theorem flushed_eq (c : Dev nD) (t : Fin cfg0.N) :
    (dat0 V c).flushed 6 t = ((cfg0.win 6).blk t).view.read (Elt Ideal)
      (G0 (V c main_v29) (V c main_v43) (V c main_v57) (V c main_v71) (V c main_v72) (V c main_v73)) := by
  show (cfg0.win 6).cut (grid0.coords t) ((dat0 V c).after 6 t) = _
  rw [after0_6]
  unfold out0_6
  rw [View.canon_unit_zero hz]
  simp only [View.ld_unit_zero (S := S512x128) hz, View.ld_unit_zero (S := S5000x128) hz, View.ld_unit_zero (S := S1x128) hz]
  rw [iblk_0 V c t, iblk_1 V c t, iblk_2 V c t, iblk_3 V c t, iblk_4 V c t, iblk_5 V c t]
  obtain ⟨-, -, -, -, -, -, -, -, -, -, -, -, e0, e1⟩ := idx_facts t
  have ht : t.val < 10 := t.isLt
  funext j
  have hj0 : (j 0).val < 5000 := (j 0).isLt
  have hj1 : (j 1).val < 128 := (j 1).isLt
  have hr : ((((cfg0.win 6).blk t).view.emb j) 0).val = t.val * 5000 + (j 0).val := by
    show win0_6.index t (0 : Fin 2) * 5000 + 1 * (j 0).val = _
    rw [e0]; omega
  have hc : ((((cfg0.win 6).blk t).view.emb j) 1).val = (j 1).val := by
    show win0_6.index t (1 : Fin 2) * 128 + 1 * (j 1).val = _
    rw [e1]; omega
  show _ = G0 (V c main_v29) (V c main_v43) (V c main_v57) (V c main_v71) (V c main_v72) (V c main_v73) (((cfg0.win 6).blk t).view.emb j)
  unfold G0
  have hd : ((((cfg0.win 6).blk t).view.emb j) 0).val / 5000 = t.val := by rw [hr]; omega
  rw [hd]
  refine congrArg _ (funext fun a => Fin.ext ?_)
  match a with
  | ⟨0, _⟩ => show (j 0).val = ((((cfg0.win 6).blk t).view.emb j) 0).val % 5000; rw [hr]; omega
  | ⟨1, _⟩ => show (j 1).val = ((((cfg0.win 6).blk t).view.emb j) 1).val; rw [hc]

/-- An index of the array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v74).slice (win0_6.rect t)).set ↔ _
  rw [View.set_slice_whole, Rect.mem_set_unit]
  exact Iff.rfl

/-- Every index of the output array lies in the block of the point `row / 5000`. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := rfl
  refine ⟨⟨(i 0).val / 5000, by rw [hN]; omega⟩, flush0_6 _, ?_⟩
  rw [mem_blk]
  obtain ⟨-, -, -, -, -, -, -, -, -, -, -, -, e0, e1⟩ := idx_facts ⟨(i 0).val / 5000, by rw [hN]; omega⟩
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [e1]; omega

/-- THE OUTPUT ARRAY after the region is `G` of the six arrays as the region finds them. -/
theorem final (c : Dev nD) : (dat0 V c).arrAt 6 cfg0.N
    = G0 (V c main_v29) (V c main_v43) (V c main_v57) (V c main_v71) (V c main_v72) (V c main_v73) :=
  (dat0 V c).arrAt_eq_of_cover 6 _ (fun t _ => flushed_eq V c t) cover

end

end Cert.KernelIdeal.Blocks0

end
-- ==== Proof.Blocks1.lean ====
/-
  Region 1 of the idealized kernel program, from blocks to the whole array.

  The region's grid has ten points. At point `t` the pipeline stages rows `5000·t … 5000·t + 4999` of each of the
  four feature arrays (all 128 columns), the whole weight matrix and the whole bias row, runs the body on them,
  and writes the body's 5000×128 result back to the same rows of the output array. So the output array, once all
  ten points have written, holds at row `i` the body's result at row `i mod 5000` of the row block `i / 5000`:
  one function `G` of the six arrays as the region finds them. The ten blocks are disjoint and cover the array.
-/
import proofs.«181505_j16286515986691_2_alg».proof.Proof.Gen.KernelIdeal.Frame
import Idealize.ShloMosaic.Lib.Pipeline.Value
import Idealize.ShloMosaic.Lib.ValueIdx
import proofs.«181505_j16286515986691_2_alg».proof.Proof.BlockFun

set_option maxRecDepth 16384

noncomputable section

namespace Cert.KernelIdeal.Blocks1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.BlockFun

theorem hz : (![0, 0] : Fin 2 → Nat) = fun _ => 0 := funext fun a => by fin_cases a <;> rfl

/-- The printed index maps, decided over the grid: the four feature windows and the output window sit at block row
    `t`, block column 0; the weight and bias windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section
variable (V : (c : Dev nD) → (b : Ref sig .tc) → Buf (Elt Ideal) ((c : Thread nD τ).loc b))

/-- A feature window's block at point `t` is the row block `t` of its array. -/
theorem iblk_0 (c : Dev nD) (t : Fin cfg1.N) : iblk1 V c 0 t = rowBlock (V c main_v75) t.val := by
  funext y
  show V c main_v75 (((cfg1.win 0).blk t).view.emb y) = V c main_v75 _
  obtain ⟨e0, e1, -⟩ := idx_facts t
  have ht : t.val < 10 := t.isLt
  refine congrArg _ (funext fun a => Fin.ext ?_)
  match a with
  | ⟨0, _⟩ =>
    show win1_0.index t (0 : Fin 2) * 5000 + 1 * (y 0).val = (t.val * 5000 + (y 0).val) % 50000
    have hy : (y 0).val < 5000 := (y 0).isLt
    rw [e0]; omega
  | ⟨1, _⟩ =>
    show win1_0.index t (1 : Fin 2) * 128 + 1 * (y 1).val = (y 1).val
    rw [e1]; omega

theorem iblk_1 (c : Dev nD) (t : Fin cfg1.N) : iblk1 V c 1 t = rowBlock (V c main_v89) t.val := by
  funext y
  show V c main_v89 (((cfg1.win 1).blk t).view.emb y) = V c main_v89 _
  obtain ⟨-, -, e0, e1, -⟩ := idx_facts t
  have ht : t.val < 10 := t.isLt
  refine congrArg _ (funext fun a => Fin.ext ?_)
  match a with
  | ⟨0, _⟩ =>
    show win1_1.index t (0 : Fin 2) * 5000 + 1 * (y 0).val = (t.val * 5000 + (y 0).val) % 50000
    have hy : (y 0).val < 5000 := (y 0).isLt
    rw [e0]; omega
  | ⟨1, _⟩ =>
    show win1_1.index t (1 : Fin 2) * 128 + 1 * (y 1).val = (y 1).val
    rw [e1]; omega

theorem iblk_2 (c : Dev nD) (t : Fin cfg1.N) : iblk1 V c 2 t = rowBlock (V c main_v103) t.val := by
  funext y
  show V c main_v103 (((cfg1.win 2).blk t).view.emb y) = V c main_v103 _
  obtain ⟨-, -, -, -, e0, e1, -⟩ := idx_facts t
  have ht : t.val < 10 := t.isLt
  refine congrArg _ (funext fun a => Fin.ext ?_)
  match a with
  | ⟨0, _⟩ =>
    show win1_2.index t (0 : Fin 2) * 5000 + 1 * (y 0).val = (t.val * 5000 + (y 0).val) % 50000
    have hy : (y 0).val < 5000 := (y 0).isLt
    rw [e0]; omega
  | ⟨1, _⟩ =>
    show win1_2.index t (1 : Fin 2) * 128 + 1 * (y 1).val = (y 1).val
    rw [e1]; omega

theorem iblk_3 (c : Dev nD) (t : Fin cfg1.N) : iblk1 V c 3 t = rowBlock (V c main_v117) t.val := by
  funext y
  show V c main_v117 (((cfg1.win 3).blk t).view.emb y) = V c main_v117 _
  obtain ⟨-, -, -, -, -, -, e0, e1, -⟩ := idx_facts t
  have ht : t.val < 10 := t.isLt
  refine congrArg _ (funext fun a => Fin.ext ?_)
  match a with
  | ⟨0, _⟩ =>
    show win1_3.index t (0 : Fin 2) * 5000 + 1 * (y 0).val = (t.val * 5000 + (y 0).val) % 50000
    have hy : (y 0).val < 5000 := (y 0).isLt
    rw [e0]; omega
  | ⟨1, _⟩ =>
    show win1_3.index t (1 : Fin 2) * 128 + 1 * (y 1).val = (y 1).val
    rw [e1]; omega

/-- The weight window's block is the whole weight array, at every point. -/
theorem iblk_4 (c : Dev nD) (t : Fin cfg1.N) : iblk1 V c 4 t = V c main_v124 := by
  funext y
  show V c main_v124 (((cfg1.win 4).blk t).view.emb y) = V c main_v124 y
  obtain ⟨-, -, -, -, -, -, -, -, e0, e1, -⟩ := idx_facts t
  refine congrArg _ (funext fun a => Fin.ext ?_)
  match a with
  | ⟨0, _⟩ =>
    show win1_4.index t (0 : Fin 2) * 512 + 1 * (y 0).val = (y 0).val
    rw [e0]; omega
  | ⟨1, _⟩ =>
    show win1_4.index t (1 : Fin 2) * 128 + 1 * (y 1).val = (y 1).val
    rw [e1]; omega

/-- The bias window's block is the whole bias row, at every point. -/
theorem iblk_5 (c : Dev nD) (t : Fin cfg1.N) : iblk1 V c 5 t = V c main_v125 := by
  funext y
  show V c main_v125 (((cfg1.win 5).blk t).view.emb y) = V c main_v125 y
  obtain ⟨-, -, -, -, -, -, -, -, -, -, e0, e1, -⟩ := idx_facts t
  refine congrArg _ (funext fun a => Fin.ext ?_)
  match a with
  | ⟨0, _⟩ =>
    show win1_5.index t (0 : Fin 2) * 1 + 1 * (y 0).val = (y 0).val
    rw [e0]; omega
  | ⟨1, _⟩ =>
    show win1_5.index t (1 : Fin 2) * 128 + 1 * (y 1).val = (y 1).val
    rw [e1]; omega

/-- WHAT POINT `t` WRITES BACK is block `t` of `G` of the six arrays as the region finds them. -/
theorem flushed_eq (c : Dev nD) (t : Fin cfg1.N) :
    (dat1 V c).flushed 6 t = ((cfg1.win 6).blk t).view.read (Elt Ideal)
      (G1 (V c main_v75) (V c main_v89) (V c main_v103) (V c main_v117) (V c main_v124) (V c main_v125)) := by
  show (cfg1.win 6).cut (grid1.coords t) ((dat1 V c).after 6 t) = _
  rw [after1_6]
  unfold out1_6
  rw [View.canon_unit_zero hz]
  simp only [View.ld_unit_zero (S := S512x128) hz, View.ld_unit_zero (S := S5000x128) hz, View.ld_unit_zero (S := S1x128) hz]
  rw [iblk_0 V c t, iblk_1 V c t, iblk_2 V c t, iblk_3 V c t, iblk_4 V c t, iblk_5 V c t]
  obtain ⟨-, -, -, -, -, -, -, -, -, -, -, -, e0, e1⟩ := idx_facts t
  have ht : t.val < 10 := t.isLt
  funext j
  have hj0 : (j 0).val < 5000 := (j 0).isLt
  have hj1 : (j 1).val < 128 := (j 1).isLt
  have hr : ((((cfg1.win 6).blk t).view.emb j) 0).val = t.val * 5000 + (j 0).val := by
    show win1_6.index t (0 : Fin 2) * 5000 + 1 * (j 0).val = _
    rw [e0]; omega
  have hc : ((((cfg1.win 6).blk t).view.emb j) 1).val = (j 1).val := by
    show win1_6.index t (1 : Fin 2) * 128 + 1 * (j 1).val = _
    rw [e1]; omega
  show _ = G1 (V c main_v75) (V c main_v89) (V c main_v103) (V c main_v117) (V c main_v124) (V c main_v125) (((cfg1.win 6).blk t).view.emb j)
  unfold G1
  have hd : ((((cfg1.win 6).blk t).view.emb j) 0).val / 5000 = t.val := by rw [hr]; omega
  rw [hd]
  refine congrArg _ (funext fun a => Fin.ext ?_)
  match a with
  | ⟨0, _⟩ => show (j 0).val = ((((cfg1.win 6).blk t).view.emb j) 0).val % 5000; rw [hr]; omega
  | ⟨1, _⟩ => show (j 1).val = ((((cfg1.win 6).blk t).view.emb j) 1).val; rw [hc]

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v126).slice (win1_6.rect t)).set ↔ _
  rw [View.set_slice_whole, Rect.mem_set_unit]
  exact Iff.rfl

/-- Every index of the output array lies in the block of the point `row / 5000`. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := rfl
  refine ⟨⟨(i 0).val / 5000, by rw [hN]; omega⟩, flush1_6 _, ?_⟩
  rw [mem_blk]
  obtain ⟨-, -, -, -, -, -, -, -, -, -, -, -, e0, e1⟩ := idx_facts ⟨(i 0).val / 5000, by rw [hN]; omega⟩
  intro a
  match a with
  | ⟨0, _⟩ =>
    show win1_6.index _ (0 : Fin 2) * 5000 ≤ (i 0).val ∧ (i 0).val < win1_6.index _ (0 : Fin 2) * 5000 + 5000
    rw [e0]; show (i 0).val / 5000 * 5000 ≤ (i 0).val ∧ (i 0).val < (i 0).val / 5000 * 5000 + 5000; omega
  | ⟨1, _⟩ =>
    show win1_6.index _ (1 : Fin 2) * 128 ≤ (i 1).val ∧ (i 1).val < win1_6.index _ (1 : Fin 2) * 128 + 128
    rw [e1]; omega

/-- THE OUTPUT ARRAY after the region is `G` of the six arrays as the region finds them. -/
theorem final (c : Dev nD) : (dat1 V c).arrAt 6 cfg1.N
    = G1 (V c main_v75) (V c main_v89) (V c main_v103) (V c main_v117) (V c main_v124) (V c main_v125) :=
  (dat1 V c).arrAt_eq_of_cover 6 _ (fun t _ => flushed_eq V c t) cover

end

end Cert.KernelIdeal.Blocks1

end
-- ==== Proof.Spec.lean ====
/-
  The dense step of one graph-convolution layer, as plain functions of indices on the extended reals.

  A layer multiplies the row-wise concatenation of four 128-wide feature arrays `[X0 | X1 | X2 | X3]` (the node
  features and their three propagated copies) by a weight matrix with 512 rows and adds a bias. Written as the sum
  of four partial products, one per 128-row slab of the weights, added left to right: `lin`. The first layer takes
  the positive part of it; the second takes the logarithm of the softmax of each row: `logSoftmax`, the entry minus
  the row's maximum minus the logarithm of the sum of the exponentials of the row's shifted entries.
-/
import Idealize.ShloMosaic.PureOps.Ideal
import Idealize.ShloMosaic.Lib.ValueIdx

noncomputable section

namespace Cert.TagLayer

open Idealize.ShloMosaic

/-- Entry `(r, j)` of `[X0 | X1 | X2 | X3] · W + b`: the four partial products over the 128-row slabs of `W`, added
    left to right, then the bias. -/
def lin {R C : ℕ} (X0 X1 X2 X3 : Fin R → Fin 128 → EReal) (W : Fin 512 → Fin C → EReal) (b : Fin C → EReal)
    (r : Fin R) (j : Fin C) : EReal :=
  (∑ k : Fin 128, X0 r k * W ⟨k.val, by have := k.isLt; omega⟩ j)
    + (∑ k : Fin 128, X1 r k * W ⟨128 + k.val, by have := k.isLt; omega⟩ j)
    + (∑ k : Fin 128, X2 r k * W ⟨256 + k.val, by have := k.isLt; omega⟩ j)
    + (∑ k : Fin 128, X3 r k * W ⟨384 + k.val, by have := k.isLt; omega⟩ j)
    + b j

/-- The maximum of a row, started from `-∞`. -/
def rowMax {C : ℕ} (a : Fin C → EReal) : EReal := (Finset.univ : Finset (Fin C)).fold max ⊥ a

/-- The logarithm of the softmax of a row, at column `j`: the entry shifted by the row's maximum, minus the logarithm
    of the sum of the exponentials of the shifted row. -/
def logSoftmax {C : ℕ} (a : Fin C → EReal) (j : Fin C) : EReal :=
  (a j - rowMax a) - Ideal.log (∑ j' : Fin C, Ideal.exp (a j' - rowMax a))

end Cert.TagLayer

end
-- ==== Proof.ReluBody.lean ====
/-
  The first layer's body at one entry of a block.

  On a block of 5000 rows the body forms four products of a 5000×128 input block with a 128-row slab of the
  512×128 weights (rows 0–127, 128–255, 256–383, 384–511), adds them left to right, adds the bias row to every
  row, and takes the maximum with 0. Read at row p, column q this is max (lin … p q) 0, where lin is the sum of
  the four partial products over k : Fin 128 plus the bias at q.

  Steps: a product of a block with a 128×128 matrix, accumulated into the zero array, is at (p, q) the sum over
  k : Fin 128 of x (p, k) · y (k, q) (the contraction has one axis, re-indexed by its one coordinate); a slab cut
  from row o of the weights reads, at (k, q), the weights at (o + k, q); a cast to the same shape is the identity;
  the bias row broadcast over the rows reads the row's entry at q; the scalar 0 broadcast reads 0 everywhere.
-/
import proofs.«181505_j16286515986691_2_alg».proof.Proof.Spec
import proofs.«181505_j16286515986691_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen Cert.TagLayer

/-- The product's left operand index keeps the output's row … -/
theorem dot_lhs_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- … and takes the contraction's coordinate as its column. -/
theorem dot_lhs_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

/-- The right operand index takes the contraction's coordinate as its row … -/
theorem dot_rhs_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

/-- … and keeps the output's column. -/
theorem dot_rhs_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block times a 128×128 matrix, accumulated into zero, at (p, q): the sum over k of x (p, k) · y (k, q). -/
theorem matmul_block_apply (x : FVec Ideal S5000x128 .bf16) (y : FVec Ideal S128x128 .bf16) (p : Fin 5000) (q : Fin 128) :
    matmul (F := Ideal) dot_S5000x128_S128x128_S5000x128_1_0_0_1_n_n none x y (constant (F := Ideal) S5000x128 .f32 0x00000000#32) (ix2 p q)
      = ∑ k : Fin 128, x (ix2 p k) * y (ix2 k q) := by
  refine (Ideal.matmul_constant_zero_apply dot_S5000x128_S128x128_S5000x128_1_0_0_1_n_n none x y (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact dot_lhs_0 _ _
      | ⟨1, _⟩ => exact (dot_lhs_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_rhs_0 _ _).trans hk
      | ⟨1, _⟩ => exact dot_rhs_1 _ _)
  rw [el, er]

/-- A block times the slab of the weights cut from row o, at (p, q): the sum over k of x (p, k) · w (o + k, q),
    the slab's row o + k named by r k. -/
theorem slab_product_apply (w : FVec Ideal S512x128 .bf16) (x : FVec Ideal S5000x128 .bf16) (o : Nat)
    (h : S512x128.Slices ![o, 0] S128x128) (r : Fin 128 → Fin 512) (hr : ∀ k : Fin 128, (r k).val = o + k.val)
    (p : Fin 5000) (q : Fin 128) :
    matmul (F := Ideal) dot_S5000x128_S128x128_S5000x128_1_0_0_1_n_n none
        (shapeCast S5000x128 x shapeCasts_S5000x128_S5000x128)
        (extractStridedSlice S128x128 ![o, 0] (shapeCast S512x128 w shapeCasts_S512x128_S512x128) h)
        (constant (F := Ideal) S5000x128 .f32 0x00000000#32) (ix2 p q)
      = ∑ k : Fin 128, x (ix2 p k) * w (ix2 (r k) q) := by
  rw [shapeCast_self, shapeCast_self]
  refine (matmul_block_apply x _ p q).trans ?_
  refine Finset.sum_congr rfl fun k _ => ?_
  exact congrArg (x (ix2 p k) * ·) (slice2_axis0_apply o w h k q (r k) (hr k))

/-- The body is the maximum, with the zero array, of the four slab products added left to right plus the
    broadcast bias row: its definition with the intermediate values substituted. -/
theorem k0_pay1_eq (w : FVec Ideal S512x128 .bf16) (x0 x1 x2 x3 : FVec Ideal S5000x128 .bf16) (b : FVec Ideal S1x128 .f32) :
    k0_pay1 (F := Ideal) w x0 x1 x2 x3 b
      = maximumf
          (addf
            (addf
              (addf
                (addf
                  (matmul (F := Ideal) dot_S5000x128_S128x128_S5000x128_1_0_0_1_n_n none
                    (shapeCast S5000x128 x0 shapeCasts_S5000x128_S5000x128)
                    (extractStridedSlice S128x128 ![0, 0] (shapeCast S512x128 w shapeCasts_S512x128_S512x128) slices_S512x128_o0_0_S128x128)
                    (constant (F := Ideal) S5000x128 .f32 0x00000000#32))
                  (matmul (F := Ideal) dot_S5000x128_S128x128_S5000x128_1_0_0_1_n_n none
                    (shapeCast S5000x128 x1 shapeCasts_S5000x128_S5000x128)
                    (extractStridedSlice S128x128 ![128, 0] (shapeCast S512x128 w shapeCasts_S512x128_S512x128) slices_S512x128_o128_0_S128x128)
                    (constant (F := Ideal) S5000x128 .f32 0x00000000#32)))
                (matmul (F := Ideal) dot_S5000x128_S128x128_S5000x128_1_0_0_1_n_n none
                  (shapeCast S5000x128 x2 shapeCasts_S5000x128_S5000x128)
                  (extractStridedSlice S128x128 ![256, 0] (shapeCast S512x128 w shapeCasts_S512x128_S512x128) slices_S512x128_o256_0_S128x128)
                  (constant (F := Ideal) S5000x128 .f32 0x00000000#32)))
              (matmul (F := Ideal) dot_S5000x128_S128x128_S5000x128_1_0_0_1_n_n none
                (shapeCast S5000x128 x3 shapeCasts_S5000x128_S5000x128)
                (extractStridedSlice S128x128 ![384, 0] (shapeCast S512x128 w shapeCasts_S512x128_S512x128) slices_S512x128_o384_0_S128x128)
                (constant (F := Ideal) S5000x128 .f32 0x00000000#32)))
            (broadcastTo S5000x128 (shapeCast S1x128 b shapeCasts_S1x128_S1x128) broadcasts_S1x128_S5000x128))
          (broadcast S5000x128 (Scalar.ofBits (F := Ideal) .f32 0x00000000#32)) := rfl

/-- The bias row, cast to its own shape and broadcast over the rows, reads at (p, q) the row's entry at q. -/
theorem bias_apply (b : FVec Ideal S1x128 .f32) (p : Fin 5000) (q : Fin 128) :
    broadcastTo S5000x128 (shapeCast S1x128 b shapeCasts_S1x128_S1x128) broadcasts_S1x128_S5000x128 (ix2 p q)
      = b (ix2 (0 : Fin 1) q) := by
  rw [shapeCast_self]
  exact broadcastTo_1b_ab_apply b broadcasts_S1x128_S5000x128 p q

/-- The first layer's body at row p, column q of a block: the positive part of the linear step. -/
theorem relu_body_apply (w : FVec Ideal S512x128 .bf16) (x0 x1 x2 x3 : FVec Ideal S5000x128 .bf16) (b : FVec Ideal S1x128 .f32)
    (p : Fin 5000) (q : Fin 128) :
    k0_pay1 (F := Ideal) w x0 x1 x2 x3 b (ix2 p q)
      = max (lin (fun r k => x0 (ix2 r k)) (fun r k => x1 (ix2 r k)) (fun r k => x2 (ix2 r k)) (fun r k => x3 (ix2 r k))
              (fun k j => w (ix2 k j)) (fun j => b (ix2 (0 : Fin 1) j)) p q) 0 := by
  have e0 := slab_product_apply w x0 0 slices_S512x128_o0_0_S128x128
    (fun k => ⟨k.val, by have := k.isLt; omega⟩) (fun k => (Nat.zero_add k.val).symm) p q
  have e1 := slab_product_apply w x1 128 slices_S512x128_o128_0_S128x128
    (fun k => ⟨128 + k.val, by have := k.isLt; omega⟩) (fun _ => rfl) p q
  have e2 := slab_product_apply w x2 256 slices_S512x128_o256_0_S128x128
    (fun k => ⟨256 + k.val, by have := k.isLt; omega⟩) (fun _ => rfl) p q
  have e3 := slab_product_apply w x3 384 slices_S512x128_o384_0_S128x128
    (fun k => ⟨384 + k.val, by have := k.isLt; omega⟩) (fun _ => rfl) p q
  have eb := bias_apply b p q
  have ez : broadcast S5000x128 (Scalar.ofBits (F := Ideal) .f32 0x00000000#32) (ix2 p q) = (0 : EReal) :=
    Ideal.ofBits_zero_f32
  rw [k0_pay1_eq]
  refine (maximumf_apply _ _ (ix2 p q)).trans ?_
  refine congrArg₂ max ?_ ez
  refine (addf_apply _ _ (ix2 p q)).trans ?_
  refine congrArg₂ (· + ·) ?_ eb
  refine (addf_apply _ _ (ix2 p q)).trans ?_
  refine congrArg₂ (· + ·) ?_ e3
  refine (addf_apply _ _ (ix2 p q)).trans ?_
  refine congrArg₂ (· + ·) ?_ e2
  refine (addf_apply _ _ (ix2 p q)).trans ?_
  exact congrArg₂ (· + ·) e0 e1

end Cert.KernelIdeal.Body

end
-- ==== Proof.SoftmaxBody.lean ====
/-
  The second layer's body at an entry.

  A block of 5000 rows goes through the linear step `[X0 | X1 | X2 | X3] · W + b` — four partial products, one per
  128-row slab of the weights, added left to right, then the bias row — giving 128 lanes per row, of which the first
  40 are real and the rest padding. The body replaces the padded lanes by -∞, takes each row's maximum over the 128
  lanes (a fold of max from -∞), subtracts it, exponentiates, sums the 128 lanes, takes the logarithm and subtracts
  again. On the extended reals max with -∞ is the identity, -∞ minus anything is -∞ and exp(-∞) = 0, so the padded
  lanes change neither the maximum nor the sum: at a real column the result is the log-softmax of the row's 40 real
  entries (`lsm_body_apply`). No finiteness of the entries is used.
-/
import proofs.«181505_j16286515986691_2_alg».proof.Proof.Spec
import proofs.«181505_j16286515986691_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen Cert.TagLayer

/-! ## Two facts about rows of extended reals padded on the right -/

/-- The maximum, started from -∞, of a row of 128 entries whose entries from column 40 on are -∞ is the maximum of its
    first 40 entries: max with -∞ is the identity. -/
theorem fold_max_pad (f : Fin 128 → EReal) (hf : ∀ j : Fin 128, 40 ≤ j.val → f j = ⊥) :
    (Finset.univ : Finset (Fin 128)).fold max ⊥ f
      = (Finset.univ : Finset (Fin 40)).fold max ⊥ (fun j => f (Fin.castLE (by norm_num : 40 ≤ 128) j)) := by
  refine le_antisymm ?_ ?_
  · refine (Finset.fold_max_le _).2 ⟨bot_le, fun x _ => ?_⟩
    by_cases hx : x.val < 40
    · exact (Finset.le_fold_max _).2 (Or.inr ⟨⟨x.val, hx⟩, Finset.mem_univ _, le_of_eq (congrArg f (Fin.ext rfl))⟩)
    · rw [hf x (Nat.le_of_not_lt hx)]; exact bot_le
  · exact (Finset.fold_max_le _).2 ⟨bot_le, fun j _ =>
      (Finset.le_fold_max _).2 (Or.inr ⟨Fin.castLE (by norm_num : 40 ≤ 128) j, Finset.mem_univ _, le_rfl⟩)⟩

/-- The sum of a row of 128 entries whose entries from column 40 on are 0 is the sum of its first 40 entries. -/
theorem sum_pad (g : Fin 128 → EReal) (hg : ∀ j : Fin 128, 40 ≤ j.val → g j = 0) :
    ∑ j : Fin 128, g j = ∑ j : Fin 40, g (Fin.castLE (by norm_num : 40 ≤ 128) j) := by
  have h2 : ∑ i : Fin 88, g (Fin.natAdd 40 i) = 0 :=
    Finset.sum_eq_zero fun i _ => hg (Fin.natAdd 40 i) (Nat.le_add_right 40 i.val)
  refine (Fin.sum_univ_add (a := 40) (b := 88) g).trans ?_
  rw [h2, add_zero]
  exact Finset.sum_congr rfl fun j _ => congrArg g (Fin.ext rfl)

/-- The log-softmax of a row of 128 entries whose entries from column 40 on are replaced by -∞, at a column below 40,
    is the log-softmax of the row's first 40 entries: the replaced entries do not change the maximum, and after the
    shift they are -∞, whose exponential is 0. -/
theorem logSoftmax_pad (a : Fin 128 → EReal) (q : Fin 40) :
    ((if (Fin.castLE (by norm_num : 40 ≤ 128) q).val < 40 then a (Fin.castLE (by norm_num : 40 ≤ 128) q) else ⊥)
        - (Finset.univ : Finset (Fin 128)).fold max ⊥ (fun j => if j.val < 40 then a j else ⊥))
      - Ideal.log (∑ k : Fin 128, Ideal.exp ((if k.val < 40 then a k else ⊥)
          - (Finset.univ : Finset (Fin 128)).fold max ⊥ (fun j => if j.val < 40 then a j else ⊥)))
      = logSoftmax (fun j : Fin 40 => a (Fin.castLE (by norm_num : 40 ≤ 128) j)) q := by
  have hM : (Finset.univ : Finset (Fin 128)).fold max ⊥ (fun j => if j.val < 40 then a j else ⊥)
      = rowMax (fun j : Fin 40 => a (Fin.castLE (by norm_num : 40 ≤ 128) j)) := by
    rw [fold_max_pad _ (fun j hj => if_neg (Nat.not_lt.2 hj))]
    unfold rowMax
    exact congrArg (fun f => Finset.fold max ⊥ f Finset.univ) (funext fun j : Fin 40 =>
      if_pos (show (Fin.castLE (by norm_num : 40 ≤ 128) j).val < 40 from j.isLt))
  rw [hM, sum_pad _ (fun j hj => by rw [if_neg (Nat.not_lt.2 hj), EReal.bot_sub, Ideal.exp_bot])]
  unfold logSoftmax
  have hq : (Fin.castLE (by norm_num : 40 ≤ 128) q).val < 40 := q.isLt
  rw [if_pos hq]
  refine congrArg (fun s => _ - Ideal.log s) (Finset.sum_congr rfl fun j _ => ?_)
  have hj : (Fin.castLE (by norm_num : 40 ≤ 128) j).val < 40 := j.isLt
  rw [if_pos hj]

/-! ## The linear step of a block, read at an entry -/

/-! The contraction of one partial product, rows of a block against a 128-row slab of the weights: which coordinates of
the two operands an output index and a contraction position name. -/

theorem lhs_row (i : S5000x128.Idx) (c : (dot_S5000x128_S128x128_S5000x128_1_0_0_1_n_n).contr.Idx) :
    ((dot_S5000x128_S128x128_S5000x128_1_0_0_1_n_n).lhsIdx i c 0).val = (i 0).val := by
  unfold DotDims.lhsIdx
  rw [dif_neg (show ¬(0 : Fin S5000x128.rank) ∈ (dot_S5000x128_S128x128_S5000x128_1_0_0_1_n_n).lhsBatch by decide),
    dif_pos (show (0 : Fin S5000x128.rank) ∈ (dot_S5000x128_S128x128_S5000x128_1_0_0_1_n_n).lhsNonContracting by decide)]
  rfl

theorem lhs_col (i : S5000x128.Idx) (c : (dot_S5000x128_S128x128_S5000x128_1_0_0_1_n_n).contr.Idx) :
    ((dot_S5000x128_S128x128_S5000x128_1_0_0_1_n_n).lhsIdx i c 1).val = (c ⟨0, by decide⟩).val :=
  (dot_S5000x128_S128x128_S5000x128_1_0_0_1_n_n).lhsIdx_val_of_single rfl i c

theorem rhs_row (i : S5000x128.Idx) (c : (dot_S5000x128_S128x128_S5000x128_1_0_0_1_n_n).contr.Idx) :
    ((dot_S5000x128_S128x128_S5000x128_1_0_0_1_n_n).rhsIdx i c 0).val = (c ⟨0, by decide⟩).val :=
  (dot_S5000x128_S128x128_S5000x128_1_0_0_1_n_n).rhsIdx_val_of_single rfl i c

theorem rhs_col (i : S5000x128.Idx) (c : (dot_S5000x128_S128x128_S5000x128_1_0_0_1_n_n).contr.Idx) :
    ((dot_S5000x128_S128x128_S5000x128_1_0_0_1_n_n).rhsIdx i c 1).val = (i 1).val := by
  unfold DotDims.rhsIdx
  rw [dif_neg (show ¬(1 : Fin S128x128.rank) ∈ (dot_S5000x128_S128x128_S5000x128_1_0_0_1_n_n).rhsBatch by decide),
    dif_pos (show (1 : Fin S128x128.rank) ∈ (dot_S5000x128_S128x128_S5000x128_1_0_0_1_n_n).rhsNonContracting by decide)]
  rfl

/-- One partial product at (p, j): the sum over the 128 columns k of the block's row p times the weights' row
    o + k, column j, where o is the slab's first row. -/
theorem slab_apply (o : Nat) (w : FVec Ideal S512x128 .bf16) (x : FVec Ideal S5000x128 .bf16)
    (hs : S512x128.Slices ![o, 0] S128x128) (p : Fin 5000) (j : Fin 128) (r : Fin 128 → Fin 512)
    (hr : ∀ k : Fin 128, (r k).val = o + k.val) :
    matmul dot_S5000x128_S128x128_S5000x128_1_0_0_1_n_n none (shapeCast S5000x128 x shapeCasts_S5000x128_S5000x128)
        (extractStridedSlice S128x128 ![o, 0] (shapeCast S512x128 w shapeCasts_S512x128_S512x128) hs)
        (constant (F := Ideal) S5000x128 .f32 0x00000000#32) (ix2 p j)
      = ∑ k : Fin 128, x (ix2 p k) * w (ix2 (r k) j) := by
  rw [shapeCast_self, shapeCast_self]
  refine (Ideal.matmul_constant_zero_apply dot_S5000x128_S128x128_S5000x128_1_0_0_1_n_n none x _ (ix2 p j)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : (dot_S5000x128_S128x128_S5000x128_1_0_0_1_n_n).lhsIdx (ix2 p j)
      ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : (dot_S5000x128_S128x128_S5000x128_1_0_0_1_n_n).rhsIdx (ix2 p j)
      ((contrEquiv1 dot_S5000x128_S128x128_S5000x128_1_0_0_1_n_n 128 rfl rfl).symm k) = ix2 k j :=
    funext fun a => Fin.ext (by
      match a with
      | ⟨0, _⟩ => exact (rhs_row _ _).trans hk
      | ⟨1, _⟩ => exact rhs_col _ _)
  rw [el, er]
  exact congrArg (fun t => x (ix2 p k) * t) (slice2_axis0_apply o w hs k j (r k) (hr k))

/-- The linear step of a block as one vector: the four partial products added left to right, then the bias row
    broadcast over the rows. -/
def accV (w : FVec Ideal S512x128 .bf16) (x0 x1 x2 x3 : FVec Ideal S5000x128 .bf16) (b : FVec Ideal S1x128 .f32) :
    FVec Ideal S5000x128 .f32 :=
  addf (addf (addf (addf
      (matmul dot_S5000x128_S128x128_S5000x128_1_0_0_1_n_n none (shapeCast S5000x128 x0 shapeCasts_S5000x128_S5000x128)
        (extractStridedSlice S128x128 ![0, 0] (shapeCast S512x128 w shapeCasts_S512x128_S512x128) slices_S512x128_o0_0_S128x128)
        (constant S5000x128 .f32 0x00000000#32))
      (matmul dot_S5000x128_S128x128_S5000x128_1_0_0_1_n_n none (shapeCast S5000x128 x1 shapeCasts_S5000x128_S5000x128)
        (extractStridedSlice S128x128 ![128, 0] (shapeCast S512x128 w shapeCasts_S512x128_S512x128) slices_S512x128_o128_0_S128x128)
        (constant S5000x128 .f32 0x00000000#32)))
      (matmul dot_S5000x128_S128x128_S5000x128_1_0_0_1_n_n none (shapeCast S5000x128 x2 shapeCasts_S5000x128_S5000x128)
        (extractStridedSlice S128x128 ![256, 0] (shapeCast S512x128 w shapeCasts_S512x128_S512x128) slices_S512x128_o256_0_S128x128)
        (constant S5000x128 .f32 0x00000000#32)))
      (matmul dot_S5000x128_S128x128_S5000x128_1_0_0_1_n_n none (shapeCast S5000x128 x3 shapeCasts_S5000x128_S5000x128)
        (extractStridedSlice S128x128 ![384, 0] (shapeCast S512x128 w shapeCasts_S512x128_S512x128) slices_S512x128_o384_0_S128x128)
        (constant S5000x128 .f32 0x00000000#32)))
    (broadcastTo S5000x128 (shapeCast S1x128 b shapeCasts_S1x128_S1x128) broadcasts_S1x128_S5000x128)

/-- The linear step at (p, j) is the specification's `lin` of the block's entries. -/
theorem accV_apply (w : FVec Ideal S512x128 .bf16) (x0 x1 x2 x3 : FVec Ideal S5000x128 .bf16) (b : FVec Ideal S1x128 .f32)
    (p : Fin 5000) (j : Fin 128) :
    accV w x0 x1 x2 x3 b (ix2 p j)
      = lin (fun r k => x0 (ix2 r k)) (fun r k => x1 (ix2 r k)) (fun r k => x2 (ix2 r k)) (fun r k => x3 (ix2 r k))
          (fun k j => w (ix2 k j)) (fun j => b (ix2 (0 : Fin 1) j)) p j := by
  unfold accV lin
  rw [addf_apply, addf_apply, addf_apply, addf_apply]
  refine congrArg₂ (· + ·) (congrArg₂ (· + ·) (congrArg₂ (· + ·) (congrArg₂ (· + ·) ?_ ?_) ?_) ?_) ?_
  · exact slab_apply 0 w x0 _ p j _ fun k => (Nat.zero_add _).symm
  · exact slab_apply 128 w x1 _ p j _ fun k => rfl
  · exact slab_apply 256 w x2 _ p j _ fun k => rfl
  · exact slab_apply 384 w x3 _ p j _ fun k => rfl
  · rw [shapeCast_self]
    exact broadcastTo_1b_ab_apply b _ p j

/-! ## The masked row, its maximum and the shifted row's log-sum-exp, read at an entry -/

/-- The fill constant of the padded lanes is -∞. -/
theorem neg_big_eq : Named.named (F := Ideal) κ "neg_big" (φ := .f32) 0xF149F2CA#32 = ⊥ :=
  IdealRules.named_const.ideal_named_scalar _ _ _ _ rfl

/-- The accumulator of a maximum is -∞. -/
theorem neg_inf_eq : FloatOps.ofBits (F := Ideal) .f32 0xFF800000#32 = ⊥ := by
  simp [Ideal.ofBits, Ideal.ieee]

/-- The signed 32-bit comparison "lane j is below 40", for the 128 lanes. -/
theorem lane_lt_40 : ∀ j : Fin 128, IntOp.cmpi .slt (BitVec.ofNat 32 j.val) 40#32 = if j.val < 40 then 1#1 else 0#1 := by
  decide

/-- The block with the lanes from 40 on replaced by the fill constant. -/
def maskV (a : FVec Ideal S5000x128 .f32) : FVec Ideal S5000x128 .f32 :=
  select (cmpi .slt (iota .tc S5000x128 32 [1] iota_S5000x128_d1_w32) (broadcast S5000x128 40#32)) a
    (broadcast S5000x128 (Named.named (F := Ideal) κ "neg_big" (φ := .f32) 0xF149F2CA#32))

/-- At (p, j) it is the block's entry if j < 40 and -∞ otherwise. -/
theorem maskV_apply (a : FVec Ideal S5000x128 .f32) (p : Fin 5000) (j : Fin 128) :
    maskV a (ix2 p j) = if j.val < 40 then a (ix2 p j) else ⊥ := by
  unfold maskV
  rw [select_apply, broadcast_apply, neg_big_eq]
  show Scalar.select (IntOp.cmpi .slt (iota .tc S5000x128 32 [1] iota_S5000x128_d1_w32 (ix2 p j)) 40#32) _ _ = _
  rw [Idealize.ShloMosaic.iota_single_apply]
  show Scalar.select (IntOp.cmpi .slt (BitVec.ofNat 32 j.val) 40#32) _ _ = _
  rw [lane_lt_40 j]
  split
  · exact select_one _ _
  · exact select_zero _ _

/-- A vector of length a viewed as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The maximum over the 128 lanes of row p, started from -∞. -/
theorem rowMaxV_apply (m : FVec Ideal S5000x128 .f32) (hφ : FKind.Formats .f32)
    (hacc : (0xFF800000#32 : BitVec 32) = FKind.maximumf.neutral .f32 hφ) (p : Fin 5000) :
    multiReduction (F := Ideal) .maximumf [1] S5000 m 0xFF800000#32 reduces_S5000x128_S5000 hφ hacc (ix1 p)
      = (Finset.univ : Finset (Fin 128)).fold max ⊥ (fun k => m (ix2 p k)) := by
  refine (Ideal.multiReduction_maximumf_single m 0xFF800000#32 reduces_S5000x128_S5000 hφ hacc (ix1 p)).trans ?_
  rw [neg_inf_eq]
  refine congrArg (fun f => Finset.fold max ⊥ f Finset.univ) (funext fun k : Fin 128 => congrArg m ?_)
  funext a
  match a with
  | ⟨0, _⟩ => rfl
  | ⟨1, _⟩ => rfl

/-- The sum over the 128 lanes of row p. -/
theorem rowSumV_apply (m : FVec Ideal S5000x128 .f32) (hφ : FKind.Formats .f32)
    (hacc : (0x00000000#32 : BitVec 32) = FKind.add.neutral .f32 hφ) (p : Fin 5000) :
    multiReduction (F := Ideal) .add [1] S5000 m 0x00000000#32 reduces_S5000x128_S5000 hφ hacc (ix1 p)
      = ∑ k : Fin 128, m (ix2 p k) := by
  refine (Ideal.multiReduction_add_single m 0x00000000#32 reduces_S5000x128_S5000 hφ hacc (ix1 p)).trans ?_
  refine Finset.sum_congr rfl fun k _ => congrArg m ?_
  funext a
  match a with
  | ⟨0, _⟩ => rfl
  | ⟨1, _⟩ => rfl

/-- A block minus its rows' maxima (each row's maximum taken over the 128 lanes, kept as a column and broadcast back). -/
def shiftV (m : FVec Ideal S5000x128 .f32) : FVec Ideal S5000x128 .f32 :=
  subf m (broadcastTo S5000x128
    (shapeCast S5000x1 (multiReduction .maximumf [1] S5000 m 0xFF800000#32 reduces_S5000x128_S5000 (.inl rfl) rfl)
      shapeCasts_S5000_S5000x1) broadcasts_S5000x1_S5000x128)

/-- At (p, j): the entry minus the maximum of row p. -/
theorem shiftV_apply (m : FVec Ideal S5000x128 .f32) (p : Fin 5000) (j : Fin 128) :
    shiftV m (ix2 p j) = m (ix2 p j) - (Finset.univ : Finset (Fin 128)).fold max ⊥ (fun k => m (ix2 p k)) := by
  unfold shiftV
  rw [subf_apply, broadcastTo_a1_ab_apply, shapeCast_a_a1_apply]
  exact congrArg (fun t => m (ix2 p j) - t) (rowMaxV_apply m _ _ p)

/-- The logarithm of each row's sum of exponentials over the 128 lanes, kept as a column and broadcast back. -/
def lseV (s : FVec Ideal S5000x128 .f32) : FVec Ideal S5000x128 .f32 :=
  broadcastTo S5000x128
    (log (shapeCast S5000x1 (multiReduction .add [1] S5000 (exp s) 0x00000000#32 reduces_S5000x128_S5000 (.inl rfl) rfl)
      shapeCasts_S5000_S5000x1)) broadcasts_S5000x1_S5000x128

/-- At (p, j): the logarithm of the sum over the lanes k of the exponential of the entry (p, k). -/
theorem lseV_apply (s : FVec Ideal S5000x128 .f32) (p : Fin 5000) (j : Fin 128) :
    lseV s (ix2 p j) = Ideal.log (∑ k : Fin 128, Ideal.exp (s (ix2 p k))) := by
  unfold lseV
  rw [broadcastTo_a1_ab_apply]
  show Ideal.log (shapeCast S5000x1 _ shapeCasts_S5000_S5000x1 (ix2 p (0 : Fin 1))) = _
  rw [shapeCast_a_a1_apply]
  exact congrArg Ideal.log (rowSumV_apply (exp s) _ _ p)

/-- The second body's two payloads are these vectors of the linear step. -/
theorem k1_pay2_eq (w : FVec Ideal S512x128 .bf16) (x0 x1 x2 x3 : FVec Ideal S5000x128 .bf16) (b : FVec Ideal S1x128 .f32) :
    k1_pay2 (F := Ideal) w x0 x1 x2 x3 b = shiftV (maskV (accV w x0 x1 x2 x3 b)) := rfl

theorem k1_pay3_eq (w : FVec Ideal S512x128 .bf16) (x0 x1 x2 x3 : FVec Ideal S5000x128 .bf16) (b : FVec Ideal S1x128 .f32) :
    k1_pay3 (F := Ideal) w x0 x1 x2 x3 b = lseV (k1_pay2 (F := Ideal) w x0 x1 x2 x3 b) := rfl

/-- The second layer's body at row p and a real column q < 40 of a block: the log-softmax of the row's 40 real
    entries of the linear step (the padded lanes, filled with -∞, change neither the maximum nor the sum). -/
theorem lsm_body_apply (w : FVec Ideal S512x128 .bf16) (x0 x1 x2 x3 : FVec Ideal S5000x128 .bf16) (b : FVec Ideal S1x128 .f32)
    (p : Fin 5000) (q : Fin 40) :
    k1_pay1 (F := Ideal) (k1_pay2 (F := Ideal) w x0 x1 x2 x3 b) (k1_pay3 (F := Ideal) w x0 x1 x2 x3 b) (ix2 p (Fin.castLE (by norm_num : 40 ≤ 128) q))
      = logSoftmax (fun j : Fin 40 =>
          lin (fun r k => x0 (ix2 r k)) (fun r k => x1 (ix2 r k)) (fun r k => x2 (ix2 r k)) (fun r k => x3 (ix2 r k))
            (fun k j => w (ix2 k j)) (fun j => b (ix2 (0 : Fin 1) j)) p (Fin.castLE (by norm_num : 40 ≤ 128) j)) q := by
  unfold k1_pay1
  rw [k1_pay3_eq, k1_pay2_eq, subf_apply, lseV_apply, shiftV_apply]
  simp only [shiftV_apply, maskV_apply]
  refine (logSoftmax_pad (fun j => accV w x0 x1 x2 x3 b (ix2 p j)) q).trans ?_
  exact congrArg (fun f => logSoftmax f q) (funext fun j => accV_apply w x0 x1 x2 x3 b p _)

end Cert.KernelIdeal.Body

end
-- ==== Proof.ArrayFun.lean ====
/-
  The two regions' output arrays at an entry.

  A region's output array holds, at row r, the body's result at row r mod 5000 of the row blocks cut at r / 5000.
  Row r mod 5000 of the block cut at r / 5000 is row r of the array, since (r / 5000) · 5000 + r mod 5000 = r; the
  linear step reads its four feature arguments only at the given row, so the linear step of the blocks at row
  r mod 5000 is the linear step of the arrays at row r. With the bodies read at an entry of a block, this gives the
  first region's output as the positive part of the linear step, and the second's, at a real column, as the
  log-softmax of the row's 40 real entries.
-/
import proofs.«181505_j16286515986691_2_alg».proof.Proof.BlockFun
import proofs.«181505_j16286515986691_2_alg».proof.Proof.ReluBody
import proofs.«181505_j16286515986691_2_alg».proof.Proof.SoftmaxBody

noncomputable section
namespace Cert.KernelIdeal.BlockFun
open Idealize.ShloMosaic Idealize.ShloMosaic.ValueIdx Cert.KernelIdeal Cert.KernelIdeal.Gen Cert.TagLayer

/-- Row p of the block cut at T is row r of the array when T · 5000 + p = r. -/
theorem rowBlock_apply (a : FVec Ideal S50000x128 .bf16) (T : ℕ) (p : Fin 5000) (k : Fin 128) (r : Fin 50000)
    (h : T * 5000 + p.val = r.val) : rowBlock a T (ix2 p k) = a (ix2 r k) := by
  have hm : (T * 5000 + p.val) % 50000 = r.val := by rw [h]; exact Nat.mod_eq_of_lt r.isLt
  unfold rowBlock
  refine congrArg a (funext fun c => ?_)
  match c with
  | ⟨0, _⟩ => exact Fin.ext hm
  | ⟨1, _⟩ => rfl

/-- The linear step reads its feature arguments at the given row only: of the blocks cut at T, at row p, it is the
    linear step of the arrays at row r = T · 5000 + p. -/
theorem lin_rowBlock {C : ℕ} (a0 a1 a2 a3 : FVec Ideal S50000x128 .bf16) (W : Fin 512 → Fin C → EReal) (bb : Fin C → EReal)
    (T : ℕ) (p : Fin 5000) (r : Fin 50000) (h : T * 5000 + p.val = r.val) (j : Fin C) :
    lin (fun r k => rowBlock a0 T (ix2 r k)) (fun r k => rowBlock a1 T (ix2 r k)) (fun r k => rowBlock a2 T (ix2 r k))
        (fun r k => rowBlock a3 T (ix2 r k)) W bb p j
      = lin (fun r k => a0 (ix2 r k)) (fun r k => a1 (ix2 r k)) (fun r k => a2 (ix2 r k)) (fun r k => a3 (ix2 r k)) W bb r j := by
  unfold lin
  refine congrArg₂ (· + ·) (congrArg₂ (· + ·) (congrArg₂ (· + ·) (congrArg₂ (· + ·) ?_ ?_) ?_) ?_) rfl
  · exact Finset.sum_congr rfl fun k _ => congrArg (fun t => t * _) (rowBlock_apply a0 T p k r h)
  · exact Finset.sum_congr rfl fun k _ => congrArg (fun t => t * _) (rowBlock_apply a1 T p k r h)
  · exact Finset.sum_congr rfl fun k _ => congrArg (fun t => t * _) (rowBlock_apply a2 T p k r h)
  · exact Finset.sum_congr rfl fun k _ => congrArg (fun t => t * _) (rowBlock_apply a3 T p k r h)

/-- The first region's output array at (r, j): the positive part of the linear step of the whole arrays' row r. -/
theorem G0_apply (a0 a1 a2 a3 : FVec Ideal S50000x128 .bf16) (w : FVec Ideal S512x128 .bf16) (b : FVec Ideal S1x128 .f32)
    (r : Fin 50000) (j : Fin 128) :
    G0 a0 a1 a2 a3 w b (ix2 r j)
      = max (lin (fun r k => a0 (ix2 r k)) (fun r k => a1 (ix2 r k)) (fun r k => a2 (ix2 r k)) (fun r k => a3 (ix2 r k))
              (fun k j => w (ix2 k j)) (fun j => b (ix2 (0 : Fin 1) j)) r j) 0 := by
  have hr : r.val / 5000 * 5000 + r.val % 5000 = r.val := Nat.div_add_mod' r.val 5000
  refine (Body.relu_body_apply w (rowBlock a0 (r.val / 5000)) (rowBlock a1 (r.val / 5000)) (rowBlock a2 (r.val / 5000))
    (rowBlock a3 (r.val / 5000)) b ⟨r.val % 5000, Nat.mod_lt _ (by norm_num)⟩ j).trans ?_
  exact congrArg (fun t => max t 0)
    (lin_rowBlock a0 a1 a2 a3 _ _ (r.val / 5000) ⟨r.val % 5000, Nat.mod_lt _ (by norm_num)⟩ r hr j)

/-- The second region's output array at row r and a real column q < 40: the log-softmax of the 40 real entries of the
    linear step of the whole arrays' row r. -/
theorem G1_apply (a0 a1 a2 a3 : FVec Ideal S50000x128 .bf16) (w : FVec Ideal S512x128 .bf16) (b : FVec Ideal S1x128 .f32)
    (r : Fin 50000) (q : Fin 40) :
    G1 a0 a1 a2 a3 w b (ix2 r (Fin.castLE (by norm_num : 40 ≤ 128) q))
      = logSoftmax (fun j : Fin 40 =>
          lin (fun r k => a0 (ix2 r k)) (fun r k => a1 (ix2 r k)) (fun r k => a2 (ix2 r k)) (fun r k => a3 (ix2 r k))
            (fun k j => w (ix2 k j)) (fun j => b (ix2 (0 : Fin 1) j)) r (Fin.castLE (by norm_num : 40 ≤ 128) j)) q := by
  have hr : r.val / 5000 * 5000 + r.val % 5000 = r.val := Nat.div_add_mod' r.val 5000
  refine (Body.lsm_body_apply w (rowBlock a0 (r.val / 5000)) (rowBlock a1 (r.val / 5000)) (rowBlock a2 (r.val / 5000))
    (rowBlock a3 (r.val / 5000)) b ⟨r.val % 5000, Nat.mod_lt _ (by norm_num)⟩ q).trans ?_
  exact congrArg (fun f => logSoftmax f q) (funext fun j =>
    lin_rowBlock a0 a1 a2 a3 _ _ (r.val / 5000) ⟨r.val % 5000, Nat.mod_lt _ (by norm_num)⟩ r hr _)

end Cert.KernelIdeal.BlockFun
end
-- ==== Proof.RefLayers.lean ====
/-
  The reference's two dense steps and its row-wise log-softmax, read at one entry.

  The product of the four feature arrays joined along the columns with a 512-row weight matrix is, at (r, j), the sum
  over c : Fin 512 of the joined array at (r, c) times the weights at (c, j); the joined array at (r, o + k), k below
  128 and o one of 0, 128, 256, 384, is the piece for that offset at (r, k); and a sum over 512 positions is the four
  sums over 128 positions at those offsets, added left to right. The bias, broadcast first to one row and then down the
  rows, reads its entry at the column. Together: the linear step lin of the kernel's side, and for the first layer its
  maximum with 0.

  The row maximum is the fold of max from -∞ over the 40 columns (the maximum of that with -∞ changes nothing); the
  row sum of the exponentials of the shifted row is the sum over the 40 columns, started from 0; both are broadcast
  back along the columns. Together: logSoftmax of the row.
-/
import proofs.«181505_j16286515986691_2_alg».proof.Proof.RefSpec
import proofs.«181505_j16286515986691_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section
namespace Cert.ReferenceIdeal.Layer
open Idealize.ShloMosaic Idealize.ShloMosaic.ValueIdx Cert.ReferenceIdeal Cert.ReferenceIdeal.Gen Cert.TagLayer

/-! ## A sum over 512 positions as four sums over 128 -/

/-- A sum over 512 positions is the four sums over the 128 positions from 0, 128, 256 and 384, added left to right. -/
theorem sum_fin_512 {M : Type} [AddCommMonoid M] (f : Fin 512 → M) :
    ∑ c : Fin 512, f c
      = (∑ k : Fin 128, f ⟨k.val, by have := k.isLt; omega⟩)
        + (∑ k : Fin 128, f ⟨128 + k.val, by have := k.isLt; omega⟩)
        + (∑ k : Fin 128, f ⟨256 + k.val, by have := k.isLt; omega⟩)
        + (∑ k : Fin 128, f ⟨384 + k.val, by have := k.isLt; omega⟩) := by
  have h1 : ∑ c : Fin 512, f c
      = (∑ c : Fin 384, f ⟨c.val, by have := c.isLt; omega⟩) + ∑ k : Fin 128, f ⟨384 + k.val, by have := k.isLt; omega⟩ :=
    Fin.sum_univ_add (a := 384) (b := 128) f
  have h2 : (∑ c : Fin 384, f ⟨c.val, by have := c.isLt; omega⟩)
      = (∑ c : Fin 256, f ⟨c.val, by have := c.isLt; omega⟩) + ∑ k : Fin 128, f ⟨256 + k.val, by have := k.isLt; omega⟩ :=
    Fin.sum_univ_add (a := 256) (b := 128) (fun c : Fin 384 => f ⟨c.val, by have := c.isLt; omega⟩)
  have h3 : (∑ c : Fin 256, f ⟨c.val, by have := c.isLt; omega⟩)
      = (∑ k : Fin 128, f ⟨k.val, by have := k.isLt; omega⟩) + ∑ k : Fin 128, f ⟨128 + k.val, by have := k.isLt; omega⟩ :=
    Fin.sum_univ_add (a := 128) (b := 128) (fun c : Fin 256 => f ⟨c.val, by have := c.isLt; omega⟩)
  rw [h1, h2, h3]

/-! ## The four arrays joined along the columns, at an entry -/

/-- The joined array at (r, c), c = o + k with o the columns of the first n pieces: piece n at (r, k). -/
theorem joined_apply (a0 a1 a2 a3 : FVec Ideal S50000x128 .f32) (n : Nat) (hn : n < 4) (x : FVec Ideal S50000x128 .f32)
    (hx : [(⟨S50000x128, a0⟩ : (s : Shape) × (s.Idx → Ideal .f32)), ⟨S50000x128, a1⟩, ⟨S50000x128, a2⟩, ⟨S50000x128, a3⟩][n]'hn = ⟨S50000x128, x⟩)
    (o : Nat)
    (ho : ((([(⟨S50000x128, a0⟩ : (s : Shape) × (s.Idx → Ideal .f32)), ⟨S50000x128, a1⟩, ⟨S50000x128, a2⟩, ⟨S50000x128, a3⟩].take n).map (·.1)).map
        fun s => if h : s.rank = S50000x512.rank then s.size ((1 : Fin S50000x512.rank).cast h.symm) else 0).sum = o)
    (r : Fin 50000) (k : Fin 128) (c : Fin 512) (hc : o + k.val = c.val) :
    concatenate S50000x512 1 [⟨S50000x128, a0⟩, ⟨S50000x128, a1⟩, ⟨S50000x128, a2⟩, ⟨S50000x128, a3⟩]
        concatenates_S50000x128_S50000x128_S50000x128_S50000x128_S50000x512_d1 (ix2 r c) = x (ix2 r k) :=
  concatenate_apply_piece (1 : Fin S50000x512.rank)
    [(⟨S50000x128, a0⟩ : (s : Shape) × (s.Idx → Ideal .f32)), ⟨S50000x128, a1⟩, ⟨S50000x128, a2⟩, ⟨S50000x128, a3⟩]
    concatenates_S50000x128_S50000x128_S50000x128_S50000x128_S50000x512_d1 (ix2 r c) n hn S50000x128 x hx rfl o ho (ix2 r k)
    (fun b hb => by
      match b with
      | ⟨0, _⟩ => rfl
      | ⟨1, _⟩ => exact absurd rfl hb)
    hc

/-! ## The host's product with one contracted axis, at an entry -/

/-- The product's left operand index keeps the output's row … -/
theorem dot128_lhs_0 (i : S50000x128.Idx) (c : dot_S50000x512_S512x128_S50000x128_1_0_0_1_n_n.contr.Idx) : (dot_S50000x512_S512x128_S50000x128_1_0_0_1_n_n.lhsIdx i c 0).val = (i 0).val := by
  unfold DotDims.lhsIdx
  rw [dif_neg (show ¬(0 : Fin S50000x512.rank) ∈ dot_S50000x512_S512x128_S50000x128_1_0_0_1_n_n.lhsBatch by decide),
    dif_pos (show (0 : Fin S50000x512.rank) ∈ dot_S50000x512_S512x128_S50000x128_1_0_0_1_n_n.lhsNonContracting by decide)]
  rfl

/-- … and takes the contraction's coordinate as its column. -/
theorem dot128_lhs_1 (i : S50000x128.Idx) (c : dot_S50000x512_S512x128_S50000x128_1_0_0_1_n_n.contr.Idx) : (dot_S50000x512_S512x128_S50000x128_1_0_0_1_n_n.lhsIdx i c 1).val = (c ⟨0, by decide⟩).val :=
  dot_S50000x512_S512x128_S50000x128_1_0_0_1_n_n.lhsIdx_val_of_single rfl i c

/-- The right operand index takes the contraction's coordinate as its row … -/
theorem dot128_rhs_0 (i : S50000x128.Idx) (c : dot_S50000x512_S512x128_S50000x128_1_0_0_1_n_n.contr.Idx) : (dot_S50000x512_S512x128_S50000x128_1_0_0_1_n_n.rhsIdx i c 0).val = (c ⟨0, by decide⟩).val :=
  dot_S50000x512_S512x128_S50000x128_1_0_0_1_n_n.rhsIdx_val_of_single rfl i c

/-- … and keeps the output's column. -/
theorem dot128_rhs_1 (i : S50000x128.Idx) (c : dot_S50000x512_S512x128_S50000x128_1_0_0_1_n_n.contr.Idx) : (dot_S50000x512_S512x128_S50000x128_1_0_0_1_n_n.rhsIdx i c 1).val = (i 1).val := by
  unfold DotDims.rhsIdx
  rw [dif_neg (show ¬(1 : Fin S512x128.rank) ∈ dot_S50000x512_S512x128_S50000x128_1_0_0_1_n_n.rhsBatch by decide),
    dif_pos (show (1 : Fin S512x128.rank) ∈ dot_S50000x512_S512x128_S50000x128_1_0_0_1_n_n.rhsNonContracting by decide)]
  rfl

/-- The host's product of a 50000×512 array with a 512×128 matrix, at (r, j): the sum over c of X (r, c) · w (c, j). -/
theorem dot128_apply (X : FVec Ideal S50000x512 .f32) (w : FVec Ideal S512x128 .f32) (r : Fin 50000) (j : Fin 128) :
    Host.dotGeneral (F := Ideal) dot_S50000x512_S512x128_S50000x128_1_0_0_1_n_n none X w (ix2 r j) = ∑ c : Fin 512, X (ix2 r c) * w (ix2 c j) := by
  simp only [Host.dotGeneral]
  rw [Ideal.dotGeneral_apply, ← Equiv.sum_comp (contrEquiv1 dot_S50000x512_S512x128_S50000x128_1_0_0_1_n_n 512 rfl rfl).symm]
  refine Finset.sum_congr rfl fun c _ => ?_
  have hc := contrEquiv1_symm_val dot_S50000x512_S512x128_S50000x128_1_0_0_1_n_n 512 rfl rfl c
  have el : dot_S50000x512_S512x128_S50000x128_1_0_0_1_n_n.lhsIdx (ix2 r j) ((contrEquiv1 dot_S50000x512_S512x128_S50000x128_1_0_0_1_n_n 512 rfl rfl).symm c) = ix2 r c :=
    funext fun a => Fin.ext (by
      match a with
      | ⟨0, _⟩ => exact dot128_lhs_0 _ _
      | ⟨1, _⟩ => exact (dot128_lhs_1 _ _).trans hc)
  have er : dot_S50000x512_S512x128_S50000x128_1_0_0_1_n_n.rhsIdx (ix2 r j) ((contrEquiv1 dot_S50000x512_S512x128_S50000x128_1_0_0_1_n_n 512 rfl rfl).symm c) = ix2 c j :=
    funext fun a => Fin.ext (by
      match a with
      | ⟨0, _⟩ => exact (dot128_rhs_0 _ _).trans hc
      | ⟨1, _⟩ => exact dot128_rhs_1 _ _)
  rw [el, er]

/-- The product's left operand index keeps the output's row … -/
theorem dot40_lhs_0 (i : S50000x40.Idx) (c : dot_S50000x512_S512x40_S50000x40_1_0_0_1_n_n.contr.Idx) : (dot_S50000x512_S512x40_S50000x40_1_0_0_1_n_n.lhsIdx i c 0).val = (i 0).val := by
  unfold DotDims.lhsIdx
  rw [dif_neg (show ¬(0 : Fin S50000x512.rank) ∈ dot_S50000x512_S512x40_S50000x40_1_0_0_1_n_n.lhsBatch by decide),
    dif_pos (show (0 : Fin S50000x512.rank) ∈ dot_S50000x512_S512x40_S50000x40_1_0_0_1_n_n.lhsNonContracting by decide)]
  rfl

/-- … and takes the contraction's coordinate as its column. -/
theorem dot40_lhs_1 (i : S50000x40.Idx) (c : dot_S50000x512_S512x40_S50000x40_1_0_0_1_n_n.contr.Idx) : (dot_S50000x512_S512x40_S50000x40_1_0_0_1_n_n.lhsIdx i c 1).val = (c ⟨0, by decide⟩).val :=
  dot_S50000x512_S512x40_S50000x40_1_0_0_1_n_n.lhsIdx_val_of_single rfl i c

/-- The right operand index takes the contraction's coordinate as its row … -/
theorem dot40_rhs_0 (i : S50000x40.Idx) (c : dot_S50000x512_S512x40_S50000x40_1_0_0_1_n_n.contr.Idx) : (dot_S50000x512_S512x40_S50000x40_1_0_0_1_n_n.rhsIdx i c 0).val = (c ⟨0, by decide⟩).val :=
  dot_S50000x512_S512x40_S50000x40_1_0_0_1_n_n.rhsIdx_val_of_single rfl i c

/-- … and keeps the output's column. -/
theorem dot40_rhs_1 (i : S50000x40.Idx) (c : dot_S50000x512_S512x40_S50000x40_1_0_0_1_n_n.contr.Idx) : (dot_S50000x512_S512x40_S50000x40_1_0_0_1_n_n.rhsIdx i c 1).val = (i 1).val := by
  unfold DotDims.rhsIdx
  rw [dif_neg (show ¬(1 : Fin S512x40.rank) ∈ dot_S50000x512_S512x40_S50000x40_1_0_0_1_n_n.rhsBatch by decide),
    dif_pos (show (1 : Fin S512x40.rank) ∈ dot_S50000x512_S512x40_S50000x40_1_0_0_1_n_n.rhsNonContracting by decide)]
  rfl

/-- The host's product of a 50000×512 array with a 512×40 matrix, at (r, j): the sum over c of X (r, c) · w (c, j). -/
theorem dot40_apply (X : FVec Ideal S50000x512 .f32) (w : FVec Ideal S512x40 .f32) (r : Fin 50000) (j : Fin 40) :
    Host.dotGeneral (F := Ideal) dot_S50000x512_S512x40_S50000x40_1_0_0_1_n_n none X w (ix2 r j) = ∑ c : Fin 512, X (ix2 r c) * w (ix2 c j) := by
  simp only [Host.dotGeneral]
  rw [Ideal.dotGeneral_apply, ← Equiv.sum_comp (contrEquiv1 dot_S50000x512_S512x40_S50000x40_1_0_0_1_n_n 512 rfl rfl).symm]
  refine Finset.sum_congr rfl fun c _ => ?_
  have hc := contrEquiv1_symm_val dot_S50000x512_S512x40_S50000x40_1_0_0_1_n_n 512 rfl rfl c
  have el : dot_S50000x512_S512x40_S50000x40_1_0_0_1_n_n.lhsIdx (ix2 r j) ((contrEquiv1 dot_S50000x512_S512x40_S50000x40_1_0_0_1_n_n 512 rfl rfl).symm c) = ix2 r c :=
    funext fun a => Fin.ext (by
      match a with
      | ⟨0, _⟩ => exact dot40_lhs_0 _ _
      | ⟨1, _⟩ => exact (dot40_lhs_1 _ _).trans hc)
  have er : dot_S50000x512_S512x40_S50000x40_1_0_0_1_n_n.rhsIdx (ix2 r j) ((contrEquiv1 dot_S50000x512_S512x40_S50000x40_1_0_0_1_n_n 512 rfl rfl).symm c) = ix2 c j :=
    funext fun a => Fin.ext (by
      match a with
      | ⟨0, _⟩ => exact (dot40_rhs_0 _ _).trans hc
      | ⟨1, _⟩ => exact dot40_rhs_1 _ _)
  rw [el, er]

/-! ## The joined arrays times the weights -/

/-- The joined arrays times a 512×128 matrix, at (r, j): the four partial products over the 128-row slabs, added left to right. -/
theorem joined_128_apply (a0 a1 a2 a3 : FVec Ideal S50000x128 .f32) (w : FVec Ideal S512x128 .f32) (r : Fin 50000) (j : Fin 128) :
    ∑ c : Fin 512, concatenate S50000x512 1 [⟨S50000x128, a0⟩, ⟨S50000x128, a1⟩, ⟨S50000x128, a2⟩, ⟨S50000x128, a3⟩]
        concatenates_S50000x128_S50000x128_S50000x128_S50000x128_S50000x512_d1 (ix2 r c) * w (ix2 c j)
      = (∑ k : Fin 128, a0 (ix2 r k) * w (ix2 ⟨k.val, by have := k.isLt; omega⟩ j))
        + (∑ k : Fin 128, a1 (ix2 r k) * w (ix2 ⟨128 + k.val, by have := k.isLt; omega⟩ j))
        + (∑ k : Fin 128, a2 (ix2 r k) * w (ix2 ⟨256 + k.val, by have := k.isLt; omega⟩ j))
        + (∑ k : Fin 128, a3 (ix2 r k) * w (ix2 ⟨384 + k.val, by have := k.isLt; omega⟩ j)) := by
  rw [sum_fin_512]
  refine congrArg₂ (· + ·) (congrArg₂ (· + ·) (congrArg₂ (· + ·) ?_ ?_) ?_) ?_
  · exact Finset.sum_congr rfl fun k _ => congrArg (· * _) (joined_apply a0 a1 a2 a3 0 (by decide) a0 rfl 0 rfl r k _ (Nat.zero_add _))
  · exact Finset.sum_congr rfl fun k _ => congrArg (· * _) (joined_apply a0 a1 a2 a3 1 (by decide) a1 rfl 128 rfl r k _ rfl)
  · exact Finset.sum_congr rfl fun k _ => congrArg (· * _) (joined_apply a0 a1 a2 a3 2 (by decide) a2 rfl 256 rfl r k _ rfl)
  · exact Finset.sum_congr rfl fun k _ => congrArg (· * _) (joined_apply a0 a1 a2 a3 3 (by decide) a3 rfl 384 rfl r k _ rfl)

/-- The joined arrays times a 512×40 matrix, at (r, j): the four partial products over the 128-row slabs, added left to right. -/
theorem joined_40_apply (a0 a1 a2 a3 : FVec Ideal S50000x128 .f32) (w : FVec Ideal S512x40 .f32) (r : Fin 50000) (j : Fin 40) :
    ∑ c : Fin 512, concatenate S50000x512 1 [⟨S50000x128, a0⟩, ⟨S50000x128, a1⟩, ⟨S50000x128, a2⟩, ⟨S50000x128, a3⟩]
        concatenates_S50000x128_S50000x128_S50000x128_S50000x128_S50000x512_d1 (ix2 r c) * w (ix2 c j)
      = (∑ k : Fin 128, a0 (ix2 r k) * w (ix2 ⟨k.val, by have := k.isLt; omega⟩ j))
        + (∑ k : Fin 128, a1 (ix2 r k) * w (ix2 ⟨128 + k.val, by have := k.isLt; omega⟩ j))
        + (∑ k : Fin 128, a2 (ix2 r k) * w (ix2 ⟨256 + k.val, by have := k.isLt; omega⟩ j))
        + (∑ k : Fin 128, a3 (ix2 r k) * w (ix2 ⟨384 + k.val, by have := k.isLt; omega⟩ j)) := by
  rw [sum_fin_512]
  refine congrArg₂ (· + ·) (congrArg₂ (· + ·) (congrArg₂ (· + ·) ?_ ?_) ?_) ?_
  · exact Finset.sum_congr rfl fun k _ => congrArg (· * _) (joined_apply a0 a1 a2 a3 0 (by decide) a0 rfl 0 rfl r k _ (Nat.zero_add _))
  · exact Finset.sum_congr rfl fun k _ => congrArg (· * _) (joined_apply a0 a1 a2 a3 1 (by decide) a1 rfl 128 rfl r k _ rfl)
  · exact Finset.sum_congr rfl fun k _ => congrArg (· * _) (joined_apply a0 a1 a2 a3 2 (by decide) a2 rfl 256 rfl r k _ rfl)
  · exact Finset.sum_congr rfl fun k _ => congrArg (· * _) (joined_apply a0 a1 a2 a3 3 (by decide) a3 rfl 384 rfl r k _ rfl)

/-! ## Broadcasts at an entry -/

/-- The bias, broadcast to one row and then down the rows, reads at (r, j) its entry at j. -/
theorem bias128_apply (b : FVec Ideal S128 .f32) (r : Fin 50000) (j : Fin 128) :
    broadcastInDim S50000x128 ![0, 1] bcast_S1x128_S50000x128_0_1 (broadcastInDim S1x128 ![1] bcast_S128_S1x128_1 b) (ix2 r j) = b (ix1 j) := by
  refine (broadcastInDim_apply _ bcast_S1x128_S50000x128_0_1 _ (ix2 r j) (ix2 (0 : Fin 1) j) (fun a => ?_)).trans
    (broadcastInDim_apply _ bcast_S128_S1x128_1 b (ix2 (0 : Fin 1) j) (ix1 j) (fun a => ?_))
  · match a with
    | ⟨0, _⟩ => show 0 = if (1 : Nat) = 1 then 0 else r.val; rw [if_pos rfl]
    | ⟨1, _⟩ => show j.val = if (128 : Nat) = 1 then 0 else j.val; rw [if_neg (by decide)]
  · match a with
    | ⟨0, _⟩ => show j.val = if (128 : Nat) = 1 then 0 else j.val; rw [if_neg (by decide)]

/-- The bias, broadcast to one row and then down the rows, reads at (r, j) its entry at j. -/
theorem bias40_apply (b : FVec Ideal S40 .f32) (r : Fin 50000) (j : Fin 40) :
    broadcastInDim S50000x40 ![0, 1] bcast_S1x40_S50000x40_0_1 (broadcastInDim S1x40 ![1] bcast_S40_S1x40_1 b) (ix2 r j) = b (ix1 j) := by
  refine (broadcastInDim_apply _ bcast_S1x40_S50000x40_0_1 _ (ix2 r j) (ix2 (0 : Fin 1) j) (fun a => ?_)).trans
    (broadcastInDim_apply _ bcast_S40_S1x40_1 b (ix2 (0 : Fin 1) j) (ix1 j) (fun a => ?_))
  · match a with
    | ⟨0, _⟩ => show 0 = if (1 : Nat) = 1 then 0 else r.val; rw [if_pos rfl]
    | ⟨1, _⟩ => show j.val = if (40 : Nat) = 1 then 0 else j.val; rw [if_neg (by decide)]
  · match a with
    | ⟨0, _⟩ => show j.val = if (40 : Nat) = 1 then 0 else j.val; rw [if_neg (by decide)]

/-- The scalar 0 broadcast to the whole array reads 0 everywhere. -/
theorem zero128_apply (r : Fin 50000) (j : Fin 128) :
    broadcastInDim S50000x128 ![] bcast_S_S50000x128 (constant (F := Ideal) S_ .f32 0x00000000#32) (ix2 r j) = (0 : EReal) :=
  (broadcastInDim_apply _ bcast_S_S50000x128 _ (ix2 r j) (fun a => a.elim0) (fun a => a.elim0)).trans Ideal.ofBits_zero_f32

/-- A column broadcast along the 40 columns reads, at (r, q), the column's entry at row r. -/
theorem cols40_apply (Y : FVec Ideal S50000x1 .f32) (r : Fin 50000) (q : Fin 40) :
    broadcastInDim S50000x40 ![0, 1] bcast_S50000x1_S50000x40_0_1 Y (ix2 r q) = Y (ix2 r (0 : Fin 1)) :=
  broadcastInDim_apply _ bcast_S50000x1_S50000x40_0_1 Y (ix2 r q) (ix2 r (0 : Fin 1)) (fun a => by
    match a with
    | ⟨0, _⟩ => show r.val = if (50000 : Nat) = 1 then 0 else r.val; rw [if_neg (by decide)]
    | ⟨1, _⟩ => show 0 = if (1 : Nat) = 1 then 0 else q.val; rw [if_pos rfl])

/-- A vector over the rows written as a column reads, at (r, 0), the vector's entry at r. -/
theorem col1_apply (m : FVec Ideal S50000 .f32) (r : Fin 50000) :
    broadcastInDim S50000x1 ![0] bcast_S50000_S50000x1_0 m (ix2 r (0 : Fin 1)) = m (ix1 r) :=
  broadcastInDim_apply _ bcast_S50000_S50000x1_0 m (ix2 r (0 : Fin 1)) (ix1 r) (fun a => by
    match a with
    | ⟨0, _⟩ => show r.val = if (50000 : Nat) = 1 then 0 else r.val; rw [if_neg (by decide)])

/-! ## The row maximum and the row sum -/

/-- The word 0xFF800000 is -∞. -/
theorem ofBits_neg_inf_f32 : Ideal.ofBits .f32 0xFF800000#32 = (⊥ : EReal) := by simp [Ideal.ofBits, Ideal.ieee]

/-- The reference's row maximum at row r: the fold of max from -∞ over the row's 40 entries. -/
theorem rowMaxRef_apply (z : FVec Ideal S50000x40 .f32) (r : Fin 50000) :
    maximumf (broadcastInDim S50000 ![] bcast_S_S50000 (constant (F := Ideal) S_ .f32 0xFF800000#32))
        (Host.reduce FloatOps.maximumf z (constant (F := Ideal) S_ .f32 0xFF800000#32) reducesTo_S50000x40_S50000_d1 h_S_) (ix1 r)
      = rowMax (fun j : Fin 40 => z (ix2 r j)) := by
  refine (maximumf_apply _ _ (ix1 r)).trans ?_
  have e1 : broadcastInDim S50000 ![] bcast_S_S50000 (constant (F := Ideal) S_ .f32 0xFF800000#32) (ix1 r) = (⊥ : EReal) :=
    (broadcastInDim_apply _ bcast_S_S50000 _ (ix1 r) (fun a => a.elim0) (fun a => a.elim0)).trans ofBits_neg_inf_f32
  have e2 : Host.reduce FloatOps.maximumf z (constant (F := Ideal) S_ .f32 0xFF800000#32) reducesTo_S50000x40_S50000_d1 h_S_ (ix1 r)
      = rowMax (fun j : Fin 40 => z (ix2 r j)) := by
    refine (Host.reduce_eq_fold_single FloatOps.maximumf z _ reducesTo_S50000x40_S50000_d1 (by decide) h_S_ (ix1 r)).trans ?_
    have hz : (z ∘ (by decide : S50000x40.Reduces [1] S50000).lift (ix1 r)) = fun j : Fin 40 => z (ix2 r j) :=
      funext fun k => congrArg z (funext fun a => Fin.ext (by match a with | ⟨0, _⟩ => rfl | ⟨1, _⟩ => rfl))
    rw [hz]
    show (Finset.univ : Finset (Fin 40)).fold max (Ideal.ofBits .f32 0xFF800000#32) (fun j : Fin 40 => z (ix2 r j)) = _
    rw [ofBits_neg_inf_f32]
    rfl
  rw [e1, e2]
  exact max_eq_right bot_le

/-- The reference's row sum from 0, at row r: the sum of the row's 40 entries. -/
theorem rowSumRef_apply (e : FVec Ideal S50000x40 .f32) (r : Fin 50000) :
    Host.reduceAdd e (constant (F := Ideal) S_ .f32 0x00000000#32) reducesTo_S50000x40_S50000_d1 h_S_ (ix1 r)
      = ∑ k : Fin 40, e (ix2 r k) := by
  simp only [Host.reduceAdd, Ideal.hostReduceAdd_def]
  rw [Ideal.hostReduceAdd_single reducesTo_S50000x40_S50000_d1 (by decide)]
  refine (congrArg (· + _) (show constant (F := Ideal) S_ .f32 0x00000000#32 (Shape.Idx.first h_S_) = (0 : EReal) from Ideal.ofBits_zero_f32)).trans ?_
  rw [zero_add]
  refine Finset.sum_congr rfl fun k _ => ?_
  exact congrArg e (funext fun a => Fin.ext (by match a with | ⟨0, _⟩ => rfl | ⟨1, _⟩ => rfl))

/-- The host's logarithm at an entry is the logarithm of the entry … -/
theorem hostLog_apply {s : Shape} (x : FVec Ideal s .f32) (i : s.Idx) : Host.log x i = Ideal.log (x i) := rfl

/-- … and its exponential the exponential of the entry. -/
theorem hostExp_apply {s : Shape} (x : FVec Ideal s .f32) (i : s.Idx) : Host.exp x i = Ideal.exp (x i) := rfl

/-! ## The three steps at an entry -/

/-- The first layer's dense step at (r, j): the positive part of the linear step. -/
theorem layer1_apply (a0 a1 a2 a3 : FVec Ideal S50000x128 .f32) (w : FVec Ideal S512x128 .f32) (b : FVec Ideal S128 .f32)
    (r : Fin 50000) (j : Fin 128) :
    layer1 a0 a1 a2 a3 w b (ix2 r j)
      = max (lin (fun r k => a0 (ix2 r k)) (fun r k => a1 (ix2 r k)) (fun r k => a2 (ix2 r k)) (fun r k => a3 (ix2 r k))
              (fun k j => w (ix2 k j)) (fun j => b (ix1 j)) r j) 0 := by
  unfold layer1 lin
  refine (maximumf_apply _ _ (ix2 r j)).trans ?_
  refine congrArg₂ max ?_ (zero128_apply r j)
  refine (addf_apply _ _ (ix2 r j)).trans ?_
  refine congrArg₂ (· + ·) ?_ (bias128_apply b r j)
  exact (dot128_apply _ w r j).trans (joined_128_apply a0 a1 a2 a3 w r j)

/-- The second layer's linear step at (r, j). -/
theorem logits2_apply (a0 a1 a2 a3 : FVec Ideal S50000x128 .f32) (w : FVec Ideal S512x40 .f32) (b : FVec Ideal S40 .f32)
    (r : Fin 50000) (j : Fin 40) :
    logits2 a0 a1 a2 a3 w b (ix2 r j)
      = lin (fun r k => a0 (ix2 r k)) (fun r k => a1 (ix2 r k)) (fun r k => a2 (ix2 r k)) (fun r k => a3 (ix2 r k))
          (fun k j => w (ix2 k j)) (fun j => b (ix1 j)) r j := by
  unfold logits2 lin
  refine (addf_apply _ _ (ix2 r j)).trans ?_
  refine congrArg₂ (· + ·) ?_ (bias40_apply b r j)
  exact (dot40_apply _ w r j).trans (joined_40_apply a0 a1 a2 a3 w r j)

/-- The reference's log-softmax at (r, q): the log-softmax of row r at column q. -/
theorem logSoftmaxRows_apply (z : FVec Ideal S50000x40 .f32) (r : Fin 50000) (q : Fin 40) :
    logSoftmaxRows z (ix2 r q) = logSoftmax (fun j : Fin 40 => z (ix2 r j)) q := by
  unfold logSoftmaxRows logSoftmax
  generalize hm : maximumf (broadcastInDim S50000 ![] bcast_S_S50000 (constant (F := Ideal) S_ .f32 0xFF800000#32))
      (Host.reduce FloatOps.maximumf z (constant (F := Ideal) S_ .f32 0xFF800000#32) reducesTo_S50000x40_S50000_d1 h_S_) = m
  have hmr : ∀ r' : Fin 50000, m (ix1 r') = rowMax (fun j : Fin 40 => z (ix2 r' j)) := fun r' => by
    rw [← hm]; exact rowMaxRef_apply z r'
  have hM : ∀ (q' : Fin 40),
      broadcastInDim S50000x40 ![0, 1] bcast_S50000x1_S50000x40_0_1 (broadcastInDim S50000x1 ![0] bcast_S50000_S50000x1_0 m) (ix2 r q')
        = rowMax (fun j : Fin 40 => z (ix2 r j)) := fun q' =>
    (cols40_apply _ r q').trans ((col1_apply m r).trans (hmr r))
  refine (subf_apply _ _ (ix2 r q)).trans ?_
  refine congrArg₂ (· - ·) ((subf_apply _ _ (ix2 r q)).trans (congrArg (z (ix2 r q) - ·) (hM q))) ?_
  refine Eq.trans (cols40_apply _ r q) ?_
  refine Eq.trans (hostLog_apply _ _) ?_
  refine congrArg Ideal.log ?_
  refine Eq.trans (col1_apply _ r) ?_
  refine Eq.trans (rowSumRef_apply _ r) ?_
  refine Finset.sum_congr rfl fun k _ => ?_
  refine Eq.trans (hostExp_apply _ _) ?_
  refine congrArg Ideal.exp ?_
  exact (subf_apply _ _ (ix2 r k)).trans (congrArg (z (ix2 r k) - ·) (hM k))

end Cert.ReferenceIdeal.Layer
end
-- ==== Proof.LayerBridge.lean ====
/-
  The kernel's two output arrays against the reference's two dense steps.

  On the extended reals a change of float format is the identity, so the bf16 copies of the arrays read as the arrays
  themselves; a bias of length 128 viewed as a 1×128 row reads, at (0, j), the bias at j. Entry by entry the first
  region's output is then the positive part of the linear step, which is the reference's first dense step. For the
  second region, a cut to the first 40 columns reads column q of the cut at column q of the array; there the output
  is the log-softmax of the row's 40 real entries of the linear step with the padded weights and bias, and the linear
  step at a column below 40 reads the weights and the bias at that column only, where the padded ones agree with the
  40-column originals: so it is the reference's log-softmax of its second linear step.
-/
import proofs.«181505_j16286515986691_2_alg».proof.Proof.ArrayFun
import proofs.«181505_j16286515986691_2_alg».proof.Proof.RefLayers
import proofs.«181505_j16286515986691_2_alg».proof.Proof.Gen.KernelIdeal
import Idealize.ShloMosaic.Lib.ValueLayout
import Idealize.ShloMosaic.Lib.Pipeline.Value

noncomputable section
namespace Cert.KernelIdeal.Bridge
open Idealize.ShloMosaic Idealize.ShloMosaic.ValueIdx Cert.KernelIdeal Cert.KernelIdeal.Gen Cert.KernelIdeal.BlockFun Cert.TagLayer

/-- A bias of length 128 viewed as a 1×128 row reads, at (0, j), the bias at j. -/
theorem biasRow_apply (b : FVec Ideal S128 .f32) (j : Fin 128) :
    shapeCast S1x128 b shapeCasts_S128_S1x128 (ix2 (0 : Fin 1) j) = b (ix1 j) :=
  shapeCast_a_1a_apply b shapeCasts_S128_S1x128 0 j

/-- The first region's output array, fed the bf16 copies of four feature arrays and of the weights and the bias as a
    1×128 row, is the reference's first dense step of those arrays. -/
theorem region0_eq_layer1 (a0 a1 a2 a3 : FVec Ideal S50000x128 .f32) (w : FVec Ideal S512x128 .f32) (b : FVec Ideal S128 .f32) :
    G0 (truncf .bf16 a0 bitsLt_bf16_f32) (truncf .bf16 a1 bitsLt_bf16_f32) (truncf .bf16 a2 bitsLt_bf16_f32)
        (truncf .bf16 a3 bitsLt_bf16_f32) (truncf .bf16 w bitsLt_bf16_f32) (shapeCast S1x128 b shapeCasts_S128_S1x128)
      = Cert.ReferenceIdeal.Layer.layer1 a0 a1 a2 a3 w b := by
  funext i
  obtain ⟨r, j, rfl⟩ : ∃ (r : Fin 50000) (j : Fin 128), i = ix2 r j := ⟨i 0, i 1, eq_ix2 i⟩
  refine (G0_apply _ _ _ _ _ _ r j).trans ?_
  refine Eq.trans ?_ (Cert.ReferenceIdeal.Layer.layer1_apply a0 a1 a2 a3 w b r j).symm
  have hbias : (fun j : Fin 128 => shapeCast S1x128 b shapeCasts_S128_S1x128 (ix2 (0 : Fin 1) j)) = fun j => b (ix1 j) :=
    funext fun j => biasRow_apply b j
  exact congrArg (fun bb : Fin 128 → EReal => max (lin (fun r k => a0 (ix2 r k)) (fun r k => a1 (ix2 r k))
    (fun r k => a2 (ix2 r k)) (fun r k => a3 (ix2 r k)) (fun k j => w (ix2 k j)) bb r j) 0) hbias

/-- The second region's output array, fed the bf16 copies of four feature arrays and weights and a bias that agree with
    the 40-column originals on the first 40 columns, and cut to its first 40 columns, is the reference's log-softmax of
    the second linear step. -/
theorem region1_eq_logSoftmax (a0 a1 a2 a3 : FVec Ideal S50000x128 .f32) (wp : FVec Ideal S512x128 .f32) (bp : FVec Ideal S128 .f32)
    (w : FVec Ideal S512x40 .f32) (b : FVec Ideal S40 .f32)
    (hw : ∀ (k : Fin 512) (j : Fin 40), wp (ix2 k (Fin.castLE (by norm_num : 40 ≤ 128) j)) = w (ix2 k j))
    (hb : ∀ j : Fin 40, bp (ix1 (Fin.castLE (by norm_num : 40 ≤ 128) j)) = b (ix1 j)) :
    extractStridedSlice S50000x40 ![0, 0]
        (G1 (truncf .bf16 a0 bitsLt_bf16_f32) (truncf .bf16 a1 bitsLt_bf16_f32) (truncf .bf16 a2 bitsLt_bf16_f32)
          (truncf .bf16 a3 bitsLt_bf16_f32) (truncf .bf16 wp bitsLt_bf16_f32) (shapeCast S1x128 bp shapeCasts_S128_S1x128))
        slices_S50000x128_S50000x40_0_0
      = Cert.ReferenceIdeal.Layer.logSoftmaxRows (Cert.ReferenceIdeal.Layer.logits2 a0 a1 a2 a3 w b) := by
  funext i
  obtain ⟨r, q, rfl⟩ : ∃ (r : Fin 50000) (q : Fin 40), i = ix2 r q := ⟨i 0, i 1, eq_ix2 i⟩
  refine (slice2_axis1_apply 0 _ slices_S50000x128_S50000x40_0_0 r q (Fin.castLE (by norm_num : 40 ≤ 128) q)
    (Nat.zero_add _).symm).trans ?_
  refine (G1_apply _ _ _ _ _ _ r q).trans ?_
  refine Eq.trans ?_ (Cert.ReferenceIdeal.Layer.logSoftmaxRows_apply _ r q).symm
  refine congrArg (fun f => logSoftmax f q) (funext fun j => ?_)
  refine Eq.trans ?_ (Cert.ReferenceIdeal.Layer.logits2_apply a0 a1 a2 a3 w b r j).symm
  unfold lin
  refine congrArg₂ (· + ·) (congrArg₂ (· + ·) (congrArg₂ (· + ·) (congrArg₂ (· + ·) ?_ ?_) ?_) ?_) ?_
  · exact Finset.sum_congr rfl fun k _ => congrArg (fun t => a0 (ix2 r k) * t) (hw _ j)
  · exact Finset.sum_congr rfl fun k _ => congrArg (fun t => a1 (ix2 r k) * t) (hw _ j)
  · exact Finset.sum_congr rfl fun k _ => congrArg (fun t => a2 (ix2 r k) * t) (hw _ j)
  · exact Finset.sum_congr rfl fun k _ => congrArg (fun t => a3 (ix2 r k) * t) (hw _ j)
  · exact (biasRow_apply bp _).trans (hb j)

end Cert.KernelIdeal.Bridge
end
-- ==== Proof.PadRead.lean ====
/-
  Zero padding by one scatter, read at an index: the 512×40 weights written into a 512×128 array of zeros at column
  start 0, and the 40-vector bias into a 128-vector of zeros at start 0, read at a column below 40, are the originals.
  The scatter is a left fold over the update's indices in row-major order; each update entry lands at its own index
  (start 0 plus its window coordinate), the landing indices are pairwise distinct, so the entry read is written exactly
  once, by the update entry with the same coordinates.
-/
import proofs.«181505_j16286515986691_2_alg».proof.Proof.Gen.KernelIdeal
import Idealize.ShloMosaic.PureOps.Ideal
import Idealize.ShloMosaic.Lib.ValueIdx

noncomputable section
namespace Cert.KernelIdeal.Pad
open Idealize.ShloMosaic Idealize.ShloMosaic.ValueIdx Cert.KernelIdeal Cert.KernelIdeal.Gen

/-- A left fold whose every step but the one at `n₀` leaves entry `i` alone does not change entry `i` over a list
    that does not contain `n₀`. -/
theorem foldl_read_miss {ι α β : Type*} (step : (ι → α) → β → (ι → α)) (i : ι) (n₀ : β)
    (miss : ∀ r n, n ≠ n₀ → step r n i = r i) :
    ∀ (l : List β) (x : ι → α), n₀ ∉ l → (l.foldl step x) i = x i := by
  intro l
  induction l with
  | nil => intro x _; rfl
  | cons a l ih =>
    intro x hn
    rw [List.foldl_cons, ih (step x a) (fun h => hn (List.mem_cons_of_mem _ h))]
    exact miss x a (fun h => hn (h ▸ List.mem_cons_self))

/-- A left fold over a list without repetitions that contains `n₀`, whose step at `n₀` sets entry `i` to `c` and whose
    every other step leaves entry `i` alone, ends with `c` at entry `i`. -/
theorem foldl_read {ι α β : Type*} (step : (ι → α) → β → (ι → α)) (i : ι) (c : α) (n₀ : β)
    (hit : ∀ r, step r n₀ i = c) (miss : ∀ r n, n ≠ n₀ → step r n i = r i) :
    ∀ (l : List β) (x : ι → α), l.Nodup → n₀ ∈ l → (l.foldl step x) i = c := by
  intro l
  induction l with
  | nil => intro x _ h; exact absurd h List.not_mem_nil
  | cons a l ih =>
    intro x hnd hmem
    rw [List.nodup_cons] at hnd
    rw [List.foldl_cons]
    rcases List.mem_cons.1 hmem with h | h
    · subst h
      rw [foldl_read_miss step i n₀ miss l _ hnd.1]
      exact hit x
    · exact ih _ hnd.2 h

/-- The start of every window read off scatter indices that are all the integer zero is `0` on every axis. -/
theorem start_zero {s si u : Shape} (d : ScatterDims s si u) (j : u.Idx) (h : S_.BroadcastsInDim si (![] : Fin 0 → Fin si.rank)) (ax : Fin s.rank) :
    d.start j (broadcastInDim si ![] h (constantI S_ 32 0#32)) ax = 0 := by
  unfold ScatterDims.start
  split
  · simp [broadcastInDim, constantI]
  · rfl

/-- The weights' window coordinate on the row axis is the update's row. -/
theorem windowW0 (j : S512x40.Idx) (h : 0 < S512x128.rank) : scatter_S512x128_S1_S512x40_01_n_1_0.window j ⟨0, h⟩ = (j 0).val := rfl
/-- The weights' window coordinate on the column axis is the update's column. -/
theorem windowW1 (j : S512x40.Idx) (h : 1 < S512x128.rank) : scatter_S512x128_S1_S512x40_01_n_1_0.window j ⟨1, h⟩ = (j 1).val := rfl

/-- Entry `(a, b)` of the weights lands at entry `(a, b)` of the padded array: start `0` plus the window coordinate,
    inside the array on both axes. -/
theorem resW (a : Fin 512) (b : Fin 40) :
    scatter_S512x128_S1_S512x40_01_n_1_0.resultIdx? (ix2 a b) (broadcastInDim S1 ![] bcast_S_S1 (constantI S_ 32 0#32))
      = some (ix2 a (Fin.castLE (by norm_num : 40 ≤ 128) b)) := by
  have ha := a.isLt
  have hb := b.isLt
  unfold ScatterDims.resultIdx?
  rw [dif_pos]
  · congr 1
    funext ax
    match ax with
    | ⟨0, _⟩ =>
      apply Fin.ext
      simp only [start_zero, windowW0]
      show (0 + ((a.val : ℕ) : ℤ)).toNat = a.val
      simp
    | ⟨1, _⟩ =>
      apply Fin.ext
      simp only [start_zero, windowW1]
      show (0 + ((b.val : ℕ) : ℤ)).toNat = b.val
      simp
  · intro ax
    match ax with
    | ⟨0, _⟩ =>
      rw [start_zero, windowW0]
      show (0 : ℤ) ≤ 0 + ((a.val : ℕ) : ℤ) ∧ (0 : ℤ) + ((a.val : ℕ) : ℤ) < ((512 : ℕ) : ℤ)
      omega
    | ⟨1, _⟩ =>
      rw [start_zero, windowW1]
      show (0 : ℤ) ≤ 0 + ((b.val : ℕ) : ℤ) ∧ (0 : ℤ) + ((b.val : ℕ) : ℤ) < ((128 : ℕ) : ℤ)
      omega

/-- The weights padded with zero columns, read at a real column, are the weights. -/
theorem padW_apply (w : FVec Ideal S512x40 .f32) (k : Fin 512) (j : Fin 40) :
    Host.scatter scatter_S512x128_S1_S512x40_01_n_1_0 (fun _ b => b)
        (broadcastInDim S512x128 ![] bcast_S_S512x128 (constant S_ .f32 0x00000000#32))
        (broadcastInDim S1 ![] bcast_S_S1 (constantI S_ 32 0#32)) w (ix2 k (Fin.castLE (by norm_num : 40 ≤ 128) j))
      = w (ix2 k j) := by
  unfold Host.scatter
  refine foldl_read _ _ _ (S512x40.rowMajor (ix2 k j)) ?_ ?_ _ _ (List.nodup_finRange _) (List.mem_finRange _)
  · intro r
    simp only [Equiv.symm_apply_apply]
    rw [resW k j]
    exact if_pos rfl
  · intro r n hn
    obtain ⟨a, b, hab⟩ : ∃ a b, S512x40.rowMajor.symm n = ix2 a b := ⟨_, _, eq_ix2 _⟩
    rw [hab]
    rw [resW a b]
    refine if_neg ?_
    intro h
    apply hn
    have h0 : k = a := congrFun h 0
    have h1 : Fin.castLE (by norm_num : 40 ≤ 128) j = Fin.castLE (by norm_num : 40 ≤ 128) b := congrFun h 1
    have h1' : j = b := Fin.ext (by simpa using congrArg Fin.val h1)
    rw [h0, h1', ← hab, Equiv.apply_symm_apply]

/-- The bias's window coordinate on its one axis is the update's coordinate. -/
theorem windowB0 (j : S40.Idx) (h : 0 < S128.rank) : scatter_S128_S1_S40_0_n_0_0.window j ⟨0, h⟩ = (j 0).val := rfl

/-- Entry `b` of the bias lands at entry `b` of the padded vector. -/
theorem resB (b : Fin 40) :
    scatter_S128_S1_S40_0_n_0_0.resultIdx? (ix1 b) (broadcastInDim S1 ![] bcast_S_S1 (constantI S_ 32 0#32))
      = some (ix1 (Fin.castLE (by norm_num : 40 ≤ 128) b)) := by
  have hb := b.isLt
  unfold ScatterDims.resultIdx?
  rw [dif_pos]
  · congr 1
    funext ax
    match ax with
    | ⟨0, _⟩ =>
      apply Fin.ext
      simp only [start_zero, windowB0]
      show (0 + ((b.val : ℕ) : ℤ)).toNat = b.val
      simp
  · intro ax
    match ax with
    | ⟨0, _⟩ =>
      rw [start_zero, windowB0]
      show (0 : ℤ) ≤ 0 + ((b.val : ℕ) : ℤ) ∧ (0 : ℤ) + ((b.val : ℕ) : ℤ) < ((128 : ℕ) : ℤ)
      omega

/-- The bias padded with zeros, read at a real column, is the bias. -/
theorem padB_apply (b : FVec Ideal S40 .f32) (j : Fin 40) :
    Host.scatter scatter_S128_S1_S40_0_n_0_0 (fun _ b => b)
        (broadcastInDim S128 ![] bcast_S_S128 (constant S_ .f32 0x00000000#32))
        (broadcastInDim S1 ![] bcast_S_S1 (constantI S_ 32 0#32)) b (ix1 (Fin.castLE (by norm_num : 40 ≤ 128) j))
      = b (ix1 j) := by
  unfold Host.scatter
  refine foldl_read _ _ _ (S40.rowMajor (ix1 j)) ?_ ?_ _ _ (List.nodup_finRange _) (List.mem_finRange _)
  · intro r
    simp only [Equiv.symm_apply_apply]
    rw [resB j]
    exact if_pos rfl
  · intro r n hn
    obtain ⟨a, ha⟩ : ∃ a, S40.rowMajor.symm n = ix1 a := ⟨_, eq_ix1 _⟩
    rw [ha]
    rw [resB a]
    refine if_neg ?_
    intro h
    apply hn
    have h0 : Fin.castLE (by norm_num : 40 ≤ 128) j = Fin.castLE (by norm_num : 40 ≤ 128) a := congrFun h 0
    have h0' : j = a := Fin.ext (by simpa using congrArg Fin.val h0)
    rw [h0', ← ha, Equiv.apply_symm_apply]

end Cert.KernelIdeal.Pad
end
-- ==== Proof.HostB.lean ====
/-
  The kernel program from its first region to its result, read.

  After the first region the output array holds the first dense step of the node features and their three
  propagated copies: the reference's hidden features. The host then propagates the hidden features three times with
  the same edge weights, pads the second layer's weights and bias with zeros to 128 columns, and makes the narrow
  copies; the second region leaves the log-softmax of the padded logits, whose first 40 columns the last host
  operation cuts out. Each buffer read on the way is named by the shared host chain's functions of the
  argument arrays, and the result is the network's output function of them.
-/
import proofs.«181505_j16286515986691_2_alg».proof.Proof.HostA
import proofs.«181505_j16286515986691_2_alg».proof.Proof.Blocks0
import proofs.«181505_j16286515986691_2_alg».proof.Proof.Blocks1
import proofs.«181505_j16286515986691_2_alg».proof.Proof.LayerBridge
import proofs.«181505_j16286515986691_2_alg».proof.Proof.PadRead

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen Cert.KernelIdeal.BlockFun
open Cert.LibFoldStretch (ofBuf_toBuf toBuf_ofBuf)

variable (m : (ℓ : Loc nD τ sig) → Buf (Elt Ideal) ℓ) (ρ : Dev nD → PrngReg)

/-- The second layer's weights with zero columns appended up to 128. -/
abbrev padW (w : FVec Ideal S512x40 .f32) : FVec Ideal S512x128 .f32 :=
  Host.scatter scatter_S512x128_S1_S512x40_01_n_1_0 (fun _ b => b)
    (broadcastInDim S512x128 ![] bcast_S_S512x128 (constant S_ .f32 0x00000000#32))
    (broadcastInDim S1 ![] bcast_S_S1 (constantI S_ 32 0#32)) w

/-- The second layer's bias with zeros appended up to 128. -/
abbrev padB (b : FVec Ideal S40 .f32) : FVec Ideal S128 .f32 :=
  Host.scatter scatter_S128_S1_S40_0_n_0_0 (fun _ b => b)
    (broadcastInDim S128 ![] bcast_S_S128 (constant S_ .f32 0x00000000#32))
    (broadcastInDim S1 ![] bcast_S_S1 (constantI S_ 32 0#32)) b

/-! ## After the first region -/

theorem W4_v1 (c : Dev nD) : W4 (F := Ideal) m ρ c (Proc.devRef .tc main_v1) = Cert.ReferenceIdeal.Layer.src (X1 m c) :=
  (W4_of_ne m ρ c main_v1 (by decide)).trans (W3_v1 m ρ c)
theorem W4_v3 (c : Dev nD) : W4 (F := Ideal) m ρ c (Proc.devRef .tc main_v3) = Cert.ReferenceIdeal.Layer.dst (X1 m c) :=
  (W4_of_ne m ρ c main_v3 (by decide)).trans (W3_v3 m ρ c)
theorem W4_v28 (c : Dev nD) : W4 (F := Ideal) m ρ c (Proc.devRef .tc main_v28) = Cert.ReferenceIdeal.Layer.nrm (X1 m c) :=
  (W4_of_ne m ρ c main_v28 (by decide)).trans (W3_v28 m ρ c)
theorem W4_arg4 (c : Dev nD) : W4 (F := Ideal) m ρ c (Proc.devRef .tc main_arg4) = X4 m c :=
  (W4_of_ne m ρ c main_arg4 (by decide)).trans (W3_arg4 m ρ c)
theorem W4_arg5 (c : Dev nD) : W4 (F := Ideal) m ρ c (Proc.devRef .tc main_arg5) = X5 m c :=
  (W4_of_ne m ρ c main_arg5 (by decide)).trans (W3_arg5 m ρ c)

set_option maxHeartbeats 4000000 in
/-- The first region's output array is the reference's hidden features. -/
theorem W4_v74 (c : Dev nD) : W4 (F := Ideal) m ρ c (Proc.devRef .tc main_v74) = (Cert.ReferenceIdeal.Layer.hidden (X0 m c) (X1 m c) (X2 m c) (X3 m c)) := by
  refine (W4_arr (F := Ideal) m ρ c 6).trans ((Blocks0.final (V3 (F := Ideal) m ρ) c).trans ?_)
  have e0 : V3 (F := Ideal) m ρ c main_v29 = _ := W3_v29 m ρ c
  have e1 : V3 (F := Ideal) m ρ c main_v43 = _ := W3_v43 m ρ c
  have e2 : V3 (F := Ideal) m ρ c main_v57 = _ := W3_v57 m ρ c
  have e3 : V3 (F := Ideal) m ρ c main_v71 = _ := W3_v71 m ρ c
  have e4 : V3 (F := Ideal) m ρ c main_v72 = _ := W3_v72 m ρ c
  have e5 : V3 (F := Ideal) m ρ c main_v73 = _ := W3_v73 m ρ c
  rw [e0, e1, e2, e3, e4, e5]
  refine (Bridge.region0_eq_layer1 _ _ _ _ _ _).trans ?_
  rfl

/-! ## The host operations between the regions -/

set_option maxHeartbeats 4000000 in
theorem W5_v75 (c : Dev nD) : W5 (F := Ideal) m ρ c (Proc.devRef .tc main_v75) = truncf (F := Ideal) (s := S50000x128) (φ := .f32) .bf16 (Cert.ReferenceIdeal.Layer.hidden (X0 m c) (X1 m c) (X2 m c) (X3 m c)) bitsLt_bf16_f32 := by
  show StableHlo.after hostOps1 (W4 (F := Ideal) m ρ c) (Proc.devRef .tc main_v75) = _
  after_results_simp
  rw [W4_v74 m ρ c]

set_option maxHeartbeats 16000000 in
theorem W5_v89 (c : Dev nD) : W5 (F := Ideal) m ρ c (Proc.devRef .tc main_v89) = truncf (F := Ideal) (s := S50000x128) (φ := .f32) .bf16 (Cert.ReferenceIdeal.Layer.hop (X1 m c) (Cert.ReferenceIdeal.Layer.hidden (X0 m c) (X1 m c) (X2 m c) (X3 m c))) bitsLt_bf16_f32 := by
  show StableHlo.after hostOps1 (W4 (F := Ideal) m ρ c) (Proc.devRef .tc main_v89) = _
  after_results_simp
  rw [W4_v74 m ρ c, W4_v1 m ρ c, W4_v3 m ρ c, W4_v28 m ρ c]
  rfl

set_option maxHeartbeats 16000000 in
theorem W5_v103 (c : Dev nD) : W5 (F := Ideal) m ρ c (Proc.devRef .tc main_v103) = truncf (F := Ideal) (s := S50000x128) (φ := .f32) .bf16 (Cert.ReferenceIdeal.Layer.hop (X1 m c) (Cert.ReferenceIdeal.Layer.hop (X1 m c) (Cert.ReferenceIdeal.Layer.hidden (X0 m c) (X1 m c) (X2 m c) (X3 m c)))) bitsLt_bf16_f32 := by
  show StableHlo.after hostOps1 (W4 (F := Ideal) m ρ c) (Proc.devRef .tc main_v103) = _
  after_results_simp
  rw [W4_v74 m ρ c, W4_v1 m ρ c, W4_v3 m ρ c, W4_v28 m ρ c]
  rfl

set_option maxHeartbeats 16000000 in
theorem W5_v117 (c : Dev nD) : W5 (F := Ideal) m ρ c (Proc.devRef .tc main_v117) = truncf (F := Ideal) (s := S50000x128) (φ := .f32) .bf16 (Cert.ReferenceIdeal.Layer.hop (X1 m c) (Cert.ReferenceIdeal.Layer.hop (X1 m c) (Cert.ReferenceIdeal.Layer.hop (X1 m c) (Cert.ReferenceIdeal.Layer.hidden (X0 m c) (X1 m c) (X2 m c) (X3 m c))))) bitsLt_bf16_f32 := by
  show StableHlo.after hostOps1 (W4 (F := Ideal) m ρ c) (Proc.devRef .tc main_v117) = _
  after_results_simp
  rw [W4_v74 m ρ c, W4_v1 m ρ c, W4_v3 m ρ c, W4_v28 m ρ c]
  rfl

set_option maxHeartbeats 4000000 in
theorem W5_v124 (c : Dev nD) : W5 (F := Ideal) m ρ c (Proc.devRef .tc main_v124) = truncf (F := Ideal) (s := S512x128) (φ := .f32) .bf16 (padW (X4 m c)) bitsLt_bf16_f32 := by
  show StableHlo.after hostOps1 (W4 (F := Ideal) m ρ c) (Proc.devRef .tc main_v124) = _
  after_results_simp
  rw [W4_arg4 m ρ c]

set_option maxHeartbeats 4000000 in
theorem W5_v125 (c : Dev nD) : W5 (F := Ideal) m ρ c (Proc.devRef .tc main_v125)
    = shapeCast S1x128 (padB (X5 m c)) shapeCasts_S128_S1x128 := by
  show StableHlo.after hostOps1 (W4 (F := Ideal) m ρ c) (Proc.devRef .tc main_v125) = _
  after_results_simp
  rw [W4_arg5 m ρ c]
  rfl

/-! ## The second region and the last host operation -/

set_option maxHeartbeats 4000000 in
/-- The second region's output array. -/
theorem W6_v126 (c : Dev nD) : W6 (F := Ideal) m ρ c (Proc.devRef .tc main_v126)
    = G1 (truncf (F := Ideal) (s := S50000x128) (φ := .f32) .bf16 (Cert.ReferenceIdeal.Layer.hidden (X0 m c) (X1 m c) (X2 m c) (X3 m c)) bitsLt_bf16_f32) (truncf (F := Ideal) (s := S50000x128) (φ := .f32) .bf16 (Cert.ReferenceIdeal.Layer.hop (X1 m c) (Cert.ReferenceIdeal.Layer.hidden (X0 m c) (X1 m c) (X2 m c) (X3 m c))) bitsLt_bf16_f32) (truncf (F := Ideal) (s := S50000x128) (φ := .f32) .bf16 (Cert.ReferenceIdeal.Layer.hop (X1 m c) (Cert.ReferenceIdeal.Layer.hop (X1 m c) (Cert.ReferenceIdeal.Layer.hidden (X0 m c) (X1 m c) (X2 m c) (X3 m c)))) bitsLt_bf16_f32) (truncf (F := Ideal) (s := S50000x128) (φ := .f32) .bf16 (Cert.ReferenceIdeal.Layer.hop (X1 m c) (Cert.ReferenceIdeal.Layer.hop (X1 m c) (Cert.ReferenceIdeal.Layer.hop (X1 m c) (Cert.ReferenceIdeal.Layer.hidden (X0 m c) (X1 m c) (X2 m c) (X3 m c))))) bitsLt_bf16_f32)
        (truncf (F := Ideal) (s := S512x128) (φ := .f32) .bf16 (padW (X4 m c)) bitsLt_bf16_f32) (shapeCast S1x128 (padB (X5 m c)) shapeCasts_S128_S1x128) := by
  refine (W6_arr (F := Ideal) m ρ c 6).trans ((Blocks1.final (V5 (F := Ideal) m ρ) c).trans ?_)
  have e0 : V5 (F := Ideal) m ρ c main_v75 = _ := W5_v75 m ρ c
  have e1 : V5 (F := Ideal) m ρ c main_v89 = _ := W5_v89 m ρ c
  have e2 : V5 (F := Ideal) m ρ c main_v103 = _ := W5_v103 m ρ c
  have e3 : V5 (F := Ideal) m ρ c main_v117 = _ := W5_v117 m ρ c
  have e4 : V5 (F := Ideal) m ρ c main_v124 = _ := W5_v124 m ρ c
  have e5 : V5 (F := Ideal) m ρ c main_v125 = _ := W5_v125 m ρ c
  rw [e0, e1, e2, e3, e4, e5]

set_option maxHeartbeats 4000000 in
/-- The result buffer: the first 40 columns of the second region's output. -/
theorem W7_v127 (c : Dev nD) : W7 (F := Ideal) m ρ c (Proc.devRef .tc main_v127)
    = extractStridedSlice S50000x40 ![0, 0] (W6 (F := Ideal) m ρ c (Proc.devRef .tc main_v126)) slices_S50000x128_S50000x40_0_0 := by
  show StableHlo.after hostOps2 (W6 (F := Ideal) m ρ c) (Proc.devRef .tc main_v127) = _
  after_results_simp <;> rfl

set_option maxHeartbeats 16000000 in
/-- THE KERNEL PROGRAM'S RESULT is the network's output function of the six argument arrays. -/
theorem result_eq (c : Dev nD) : W7 (F := Ideal) m ρ c (Proc.devRef .tc main_v127)
    = Cert.ReferenceIdeal.Layer.out (X0 m c) (X1 m c) (X2 m c) (X3 m c) (X4 m c) (X5 m c) := by
  rw [W7_v127 m ρ c, W6_v126 m ρ c]
  refine (Bridge.region1_eq_logSoftmax _ _ _ _ (padW (X4 m c)) (padB (X5 m c)) (X4 m c) (X5 m c)
    (fun k j => Pad.padW_apply (X4 m c) k j) (fun j => Pad.padB_apply (X5 m c) j)).trans ?_
  rfl

end Cert.KernelIdeal.HostRead

end
-- ==== Proof.RefRun.lean ====
/-
  The idealized reference's run, read stretch by stretch.

  The reference is one straight line of host operations (the three small functions jax outlined are inlined at their
  calls). Every weakly fair execution terminates with each buffer at the fold of the operations' results over the
  launch memory. The line is cut into ten consecutive stretches; each is read for ARBITRARY earlier contents, given
  what those contents hold at the few buffers the stretch reads, and what it writes is named by the shared host
  chain's functions: the edge rows and the degree weights; the inlined `where`; the edge weights and three
  propagation steps; a concatenate; the first linear step; the inlined `relu`; three more propagation steps; a
  concatenate; the second linear step; the inlined `log_softmax`. The transports a typed reference puts around an inlined call's intermediate values cancel
  in pairs; a buffer no operation of a stretch writes keeps its contents. Composed, the result buffer holds the
  network's output function of the six argument arrays.
-/
import proofs.«181505_j16286515986691_2_alg».proof.Proof.RefRunGen
import proofs.«181505_j16286515986691_2_alg».proof.Proof.RefSpec
import proofs.«181505_j16286515986691_2_alg».proof.Proof.LibFoldStretch

set_option maxRecDepth 16384

noncomputable section

namespace Cert.ReferenceIdeal.RunP

open Cert.ReferenceIdeal Cert.ReferenceIdeal.Gen Cert.ReferenceIdeal.ValueP Cert.ReferenceIdeal.Layer
open Idealize.ShloMosaic Idealize.ShloMosaic.TcCoe Idealize.SL.Sem Idealize.ShloMosaic.StableHlo
open Cert.LibFoldStretch (ofBuf_toBuf toBuf_ofBuf after_append)

/-- The results of a literal stretch rewritten in one pass, a four-operand `nary` at its operands' own references. -/
macro "after_results_simp4" : tactic =>
  `(tactic| (simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']))

/-! ## Each stretch, for arbitrary earlier contents -/

section Stretches
variable (V : Valuation τ sig (Elt Ideal))

set_option maxHeartbeats 4000000 in
theorem A_v1 : after (opsA (F := Ideal)) V (Proc.devRef .tc main_v1) = src (V (Proc.devRef .tc main_arg1)) := by
  after_results_simp4 <;> rfl
set_option maxHeartbeats 4000000 in
theorem A_v3 : after (opsA (F := Ideal)) V (Proc.devRef .tc main_v3) = dst (V (Proc.devRef .tc main_arg1)) := by
  after_results_simp4 <;> rfl
set_option maxHeartbeats 4000000 in
theorem A_v9 : after (opsA (F := Ideal)) V (Proc.devRef .tc main_v9) = cmpf (F := Ideal) .ogt (deg (V (Proc.devRef .tc main_arg1))) (broadcastInDim S50000 ![] bcast_S_S50000 (constant (F := Ideal) S_ .f32 0x00000000#32)) := by
  after_results_simp4 <;> rfl
set_option maxHeartbeats 4000000 in
theorem A_v12 : after (opsA (F := Ideal)) V (Proc.devRef .tc main_v12) = Host.rsqrt (maximumf (deg (V (Proc.devRef .tc main_arg1))) (broadcastInDim S50000 ![] bcast_S_S50000 (constant (F := Ideal) S_ .f32 0x3F800000#32))) := by
  after_results_simp4 <;> rfl
set_option maxHeartbeats 4000000 in
theorem A_cst3 : after (opsA (F := Ideal)) V (Proc.devRef .tc main_cst_3) = constant (F := Ideal) S_ .f32 0x00000000#32 := by
  after_results_simp4 <;> rfl
set_option maxHeartbeats 16000000 in
theorem keepA_arg0 (V : Valuation τ sig (Elt Ideal)) : after (opsA (F := Ideal)) V (Proc.devRef .tc main_arg0) = V (Proc.devRef .tc main_arg0) := by
  after_results_simp4 <;> rfl
set_option maxHeartbeats 16000000 in
theorem keepA_arg2 (V : Valuation τ sig (Elt Ideal)) : after (opsA (F := Ideal)) V (Proc.devRef .tc main_arg2) = V (Proc.devRef .tc main_arg2) := by
  after_results_simp4 <;> rfl
set_option maxHeartbeats 16000000 in
theorem keepA_arg3 (V : Valuation τ sig (Elt Ideal)) : after (opsA (F := Ideal)) V (Proc.devRef .tc main_arg3) = V (Proc.devRef .tc main_arg3) := by
  after_results_simp4 <;> rfl
set_option maxHeartbeats 16000000 in
theorem keepA_arg4 (V : Valuation τ sig (Elt Ideal)) : after (opsA (F := Ideal)) V (Proc.devRef .tc main_arg4) = V (Proc.devRef .tc main_arg4) := by
  after_results_simp4 <;> rfl
set_option maxHeartbeats 16000000 in
theorem keepA_arg5 (V : Valuation τ sig (Elt Ideal)) : after (opsA (F := Ideal)) V (Proc.devRef .tc main_arg5) = V (Proc.devRef .tc main_arg5) := by
  after_results_simp4 <;> rfl

set_option maxHeartbeats 4000000 in
/-- The inlined `where`: the select of its operands. -/
theorem W_v13 : after (opsW (F := Ideal)) V (Proc.devRef .tc main_v13)
    = select (V (Proc.devRef .tc main_v9)) (V (Proc.devRef .tc main_v12)) (broadcastInDim S50000 ![] bcast_S_S50000 (V (Proc.devRef .tc main_cst_3))) := by
  after_results_simp4
  simp only [ofBuf_toBuf, toBuf_ofBuf]
  generalize V (Proc.devRef .tc main_v9) = a
  generalize V (Proc.devRef .tc main_v12) = b
  generalize V (Proc.devRef .tc main_cst_3) = z
  rfl
set_option maxHeartbeats 16000000 in
theorem keepW_v1 (V : Valuation τ sig (Elt Ideal)) : after (opsW (F := Ideal)) V (Proc.devRef .tc main_v1) = V (Proc.devRef .tc main_v1) := by
  after_results_simp4 <;> rfl
set_option maxHeartbeats 16000000 in
theorem keepW_v3 (V : Valuation τ sig (Elt Ideal)) : after (opsW (F := Ideal)) V (Proc.devRef .tc main_v3) = V (Proc.devRef .tc main_v3) := by
  after_results_simp4 <;> rfl
set_option maxHeartbeats 16000000 in
theorem keepW_arg0 (V : Valuation τ sig (Elt Ideal)) : after (opsW (F := Ideal)) V (Proc.devRef .tc main_arg0) = V (Proc.devRef .tc main_arg0) := by
  after_results_simp4 <;> rfl
set_option maxHeartbeats 16000000 in
theorem keepW_arg2 (V : Valuation τ sig (Elt Ideal)) : after (opsW (F := Ideal)) V (Proc.devRef .tc main_arg2) = V (Proc.devRef .tc main_arg2) := by
  after_results_simp4 <;> rfl
set_option maxHeartbeats 16000000 in
theorem keepW_arg3 (V : Valuation τ sig (Elt Ideal)) : after (opsW (F := Ideal)) V (Proc.devRef .tc main_arg3) = V (Proc.devRef .tc main_arg3) := by
  after_results_simp4 <;> rfl
set_option maxHeartbeats 16000000 in
theorem keepW_arg4 (V : Valuation τ sig (Elt Ideal)) : after (opsW (F := Ideal)) V (Proc.devRef .tc main_arg4) = V (Proc.devRef .tc main_arg4) := by
  after_results_simp4 <;> rfl
set_option maxHeartbeats 16000000 in
theorem keepW_arg5 (V : Valuation τ sig (Elt Ideal)) : after (opsW (F := Ideal)) V (Proc.devRef .tc main_arg5) = V (Proc.devRef .tc main_arg5) := by
  after_results_simp4 <;> rfl

section
variable (e : IVec S2x800000 32) (x : FVec Ideal S50000x128 .f32)
  (h1 : V (Proc.devRef .tc main_v1) = src e) (h3 : V (Proc.devRef .tc main_v3) = dst e) (h13 : V (Proc.devRef .tc main_v13) = dis e) (h0 : V (Proc.devRef .tc main_arg0) = x)
include h1 h3 h13
set_option maxHeartbeats 16000000 in
/-- The edge weights. -/
theorem B_v28 : after (opsB (F := Ideal)) V (Proc.devRef .tc main_v28) = nrm e := by
  after_results_simp4
  rw [h1, h3, h13]
  rfl
include h0
set_option maxHeartbeats 16000000 in
/-- The once-propagated features. -/
theorem B_v41 : after (opsB (F := Ideal)) V (Proc.devRef .tc main_v41) = hop e x := by
  after_results_simp4
  rw [h1, h3, h13, h0]
  rfl
set_option maxHeartbeats 32000000 in
/-- The twice-propagated features. -/
theorem B_v54 : after (opsB (F := Ideal)) V (Proc.devRef .tc main_v54) = hop e (hop e x) := by
  after_results_simp4
  rw [h1, h3, h13, h0]
  rfl
set_option maxHeartbeats 64000000 in
/-- The thrice-propagated features. -/
theorem B_v67 : after (opsB (F := Ideal)) V (Proc.devRef .tc main_v67) = hop e (hop e (hop e x)) := by
  after_results_simp4
  rw [h1, h3, h13, h0]
  rfl
end
set_option maxHeartbeats 16000000 in
theorem keepB_v1 (V : Valuation τ sig (Elt Ideal)) : after (opsB (F := Ideal)) V (Proc.devRef .tc main_v1) = V (Proc.devRef .tc main_v1) := by
  after_results_simp4 <;> rfl
set_option maxHeartbeats 16000000 in
theorem keepB_v3 (V : Valuation τ sig (Elt Ideal)) : after (opsB (F := Ideal)) V (Proc.devRef .tc main_v3) = V (Proc.devRef .tc main_v3) := by
  after_results_simp4 <;> rfl
set_option maxHeartbeats 16000000 in
theorem keepB_arg0 (V : Valuation τ sig (Elt Ideal)) : after (opsB (F := Ideal)) V (Proc.devRef .tc main_arg0) = V (Proc.devRef .tc main_arg0) := by
  after_results_simp4 <;> rfl
set_option maxHeartbeats 16000000 in
theorem keepB_arg2 (V : Valuation τ sig (Elt Ideal)) : after (opsB (F := Ideal)) V (Proc.devRef .tc main_arg2) = V (Proc.devRef .tc main_arg2) := by
  after_results_simp4 <;> rfl
set_option maxHeartbeats 16000000 in
theorem keepB_arg3 (V : Valuation τ sig (Elt Ideal)) : after (opsB (F := Ideal)) V (Proc.devRef .tc main_arg3) = V (Proc.devRef .tc main_arg3) := by
  after_results_simp4 <;> rfl
set_option maxHeartbeats 16000000 in
theorem keepB_arg4 (V : Valuation τ sig (Elt Ideal)) : after (opsB (F := Ideal)) V (Proc.devRef .tc main_arg4) = V (Proc.devRef .tc main_arg4) := by
  after_results_simp4 <;> rfl
set_option maxHeartbeats 16000000 in
theorem keepB_arg5 (V : Valuation τ sig (Elt Ideal)) : after (opsB (F := Ideal)) V (Proc.devRef .tc main_arg5) = V (Proc.devRef .tc main_arg5) := by
  after_results_simp4 <;> rfl

set_option maxHeartbeats 4000000 in
/-- The first concatenate: the four arrays joined along the columns. -/
theorem C1_v68 : after (opsC1 (F := Ideal)) V (Proc.devRef .tc main_v68)
    = (concatenate S50000x512 1 [⟨S50000x128, (V (Proc.devRef .tc main_arg0))⟩, ⟨S50000x128, (V (Proc.devRef .tc main_v41))⟩, ⟨S50000x128, (V (Proc.devRef .tc main_v54))⟩, ⟨S50000x128, (V (Proc.devRef .tc main_v67))⟩] concatenates_S50000x128_S50000x128_S50000x128_S50000x128_S50000x512_d1) := by
  simp only [after_cons, after_nil]
  rw [nary4_result]
  rfl
set_option maxHeartbeats 16000000 in
theorem keepC1_v1 (V : Valuation τ sig (Elt Ideal)) : after (opsC1 (F := Ideal)) V (Proc.devRef .tc main_v1) = V (Proc.devRef .tc main_v1) := by
  after_results_simp4 <;> rfl
set_option maxHeartbeats 16000000 in
theorem keepC1_v3 (V : Valuation τ sig (Elt Ideal)) : after (opsC1 (F := Ideal)) V (Proc.devRef .tc main_v3) = V (Proc.devRef .tc main_v3) := by
  after_results_simp4 <;> rfl
set_option maxHeartbeats 16000000 in
theorem keepC1_v28 (V : Valuation τ sig (Elt Ideal)) : after (opsC1 (F := Ideal)) V (Proc.devRef .tc main_v28) = V (Proc.devRef .tc main_v28) := by
  after_results_simp4 <;> rfl
set_option maxHeartbeats 16000000 in
theorem keepC1_arg2 (V : Valuation τ sig (Elt Ideal)) : after (opsC1 (F := Ideal)) V (Proc.devRef .tc main_arg2) = V (Proc.devRef .tc main_arg2) := by
  after_results_simp4 <;> rfl
set_option maxHeartbeats 16000000 in
theorem keepC1_arg3 (V : Valuation τ sig (Elt Ideal)) : after (opsC1 (F := Ideal)) V (Proc.devRef .tc main_arg3) = V (Proc.devRef .tc main_arg3) := by
  after_results_simp4 <;> rfl
set_option maxHeartbeats 16000000 in
theorem keepC1_arg4 (V : Valuation τ sig (Elt Ideal)) : after (opsC1 (F := Ideal)) V (Proc.devRef .tc main_arg4) = V (Proc.devRef .tc main_arg4) := by
  after_results_simp4 <;> rfl
set_option maxHeartbeats 16000000 in
theorem keepC1_arg5 (V : Valuation τ sig (Elt Ideal)) : after (opsC1 (F := Ideal)) V (Proc.devRef .tc main_arg5) = V (Proc.devRef .tc main_arg5) := by
  after_results_simp4 <;> rfl

set_option maxHeartbeats 4000000 in
/-- The first layer's linear step. -/
theorem D_v72 : after (opsD (F := Ideal)) V (Proc.devRef .tc main_v72)
    = addf (F := Ideal) (Host.dotGeneral (φ₁ := .f32) (φ₂ := .f32) dot_S50000x512_S512x128_S50000x128_1_0_0_1_n_n none (V (Proc.devRef .tc main_v68)) (V (Proc.devRef .tc main_arg2)))
        (broadcastInDim S50000x128 ![0, 1] bcast_S1x128_S50000x128_0_1 (broadcastInDim S1x128 ![1] bcast_S128_S1x128_1 (V (Proc.devRef .tc main_arg3)))) := by
  after_results_simp4 <;> rfl
set_option maxHeartbeats 16000000 in
theorem keepD_v1 (V : Valuation τ sig (Elt Ideal)) : after (opsD (F := Ideal)) V (Proc.devRef .tc main_v1) = V (Proc.devRef .tc main_v1) := by
  after_results_simp4 <;> rfl
set_option maxHeartbeats 16000000 in
theorem keepD_v3 (V : Valuation τ sig (Elt Ideal)) : after (opsD (F := Ideal)) V (Proc.devRef .tc main_v3) = V (Proc.devRef .tc main_v3) := by
  after_results_simp4 <;> rfl
set_option maxHeartbeats 16000000 in
theorem keepD_v28 (V : Valuation τ sig (Elt Ideal)) : after (opsD (F := Ideal)) V (Proc.devRef .tc main_v28) = V (Proc.devRef .tc main_v28) := by
  after_results_simp4 <;> rfl
set_option maxHeartbeats 16000000 in
theorem keepD_arg4 (V : Valuation τ sig (Elt Ideal)) : after (opsD (F := Ideal)) V (Proc.devRef .tc main_arg4) = V (Proc.devRef .tc main_arg4) := by
  after_results_simp4 <;> rfl
set_option maxHeartbeats 16000000 in
theorem keepD_arg5 (V : Valuation τ sig (Elt Ideal)) : after (opsD (F := Ideal)) V (Proc.devRef .tc main_arg5) = V (Proc.devRef .tc main_arg5) := by
  after_results_simp4 <;> rfl

set_option maxHeartbeats 4000000 in
/-- The inlined `relu`: the maximum with zero. -/
theorem R_v73 : after (opsR (F := Ideal)) V (Proc.devRef .tc main_v73)
    = maximumf (V (Proc.devRef .tc main_v72)) (broadcastInDim S50000x128 ![] bcast_S_S50000x128 (constant (F := Ideal) S_ .f32 0x00000000#32)) := by
  after_results_simp4
  simp only [ofBuf_toBuf, toBuf_ofBuf]
  generalize V (Proc.devRef .tc main_v72) = z
  rfl
set_option maxHeartbeats 16000000 in
theorem keepR_v1 (V : Valuation τ sig (Elt Ideal)) : after (opsR (F := Ideal)) V (Proc.devRef .tc main_v1) = V (Proc.devRef .tc main_v1) := by
  after_results_simp4 <;> rfl
set_option maxHeartbeats 16000000 in
theorem keepR_v3 (V : Valuation τ sig (Elt Ideal)) : after (opsR (F := Ideal)) V (Proc.devRef .tc main_v3) = V (Proc.devRef .tc main_v3) := by
  after_results_simp4 <;> rfl
set_option maxHeartbeats 16000000 in
theorem keepR_v28 (V : Valuation τ sig (Elt Ideal)) : after (opsR (F := Ideal)) V (Proc.devRef .tc main_v28) = V (Proc.devRef .tc main_v28) := by
  after_results_simp4 <;> rfl
set_option maxHeartbeats 16000000 in
theorem keepR_arg4 (V : Valuation τ sig (Elt Ideal)) : after (opsR (F := Ideal)) V (Proc.devRef .tc main_arg4) = V (Proc.devRef .tc main_arg4) := by
  after_results_simp4 <;> rfl
set_option maxHeartbeats 16000000 in
theorem keepR_arg5 (V : Valuation τ sig (Elt Ideal)) : after (opsR (F := Ideal)) V (Proc.devRef .tc main_arg5) = V (Proc.devRef .tc main_arg5) := by
  after_results_simp4 <;> rfl

section
variable (e : IVec S2x800000 32) (H : FVec Ideal S50000x128 .f32)
  (h73 : V (Proc.devRef .tc main_v73) = H) (h1 : V (Proc.devRef .tc main_v1) = src e) (h3 : V (Proc.devRef .tc main_v3) = dst e) (h28 : V (Proc.devRef .tc main_v28) = nrm e)
include h73 h1 h3 h28
set_option maxHeartbeats 16000000 in
theorem G_v86 : after (opsG (F := Ideal)) V (Proc.devRef .tc main_v86) = hop e H := by
  after_results_simp4
  rw [h73, h1, h3, h28]
  rfl
set_option maxHeartbeats 32000000 in
theorem G_v99 : after (opsG (F := Ideal)) V (Proc.devRef .tc main_v99) = hop e (hop e H) := by
  after_results_simp4
  rw [h73, h1, h3, h28]
  rfl
set_option maxHeartbeats 64000000 in
theorem G_v112 : after (opsG (F := Ideal)) V (Proc.devRef .tc main_v112) = hop e (hop e (hop e H)) := by
  after_results_simp4
  rw [h73, h1, h3, h28]
  rfl
end
set_option maxHeartbeats 16000000 in
theorem keepG_v73 (V : Valuation τ sig (Elt Ideal)) : after (opsG (F := Ideal)) V (Proc.devRef .tc main_v73) = V (Proc.devRef .tc main_v73) := by
  after_results_simp4 <;> rfl
set_option maxHeartbeats 16000000 in
theorem keepG_arg4 (V : Valuation τ sig (Elt Ideal)) : after (opsG (F := Ideal)) V (Proc.devRef .tc main_arg4) = V (Proc.devRef .tc main_arg4) := by
  after_results_simp4 <;> rfl
set_option maxHeartbeats 16000000 in
theorem keepG_arg5 (V : Valuation τ sig (Elt Ideal)) : after (opsG (F := Ideal)) V (Proc.devRef .tc main_arg5) = V (Proc.devRef .tc main_arg5) := by
  after_results_simp4 <;> rfl

set_option maxHeartbeats 4000000 in
/-- The second concatenate. -/
theorem C2_v113 : after (opsC2 (F := Ideal)) V (Proc.devRef .tc main_v113)
    = (concatenate S50000x512 1 [⟨S50000x128, (V (Proc.devRef .tc main_v73))⟩, ⟨S50000x128, (V (Proc.devRef .tc main_v86))⟩, ⟨S50000x128, (V (Proc.devRef .tc main_v99))⟩, ⟨S50000x128, (V (Proc.devRef .tc main_v112))⟩] concatenates_S50000x128_S50000x128_S50000x128_S50000x128_S50000x512_d1) := by
  simp only [after_cons, after_nil]
  rw [nary4_result]
  rfl
set_option maxHeartbeats 16000000 in
theorem keepC2_arg4 (V : Valuation τ sig (Elt Ideal)) : after (opsC2 (F := Ideal)) V (Proc.devRef .tc main_arg4) = V (Proc.devRef .tc main_arg4) := by
  after_results_simp4 <;> rfl
set_option maxHeartbeats 16000000 in
theorem keepC2_arg5 (V : Valuation τ sig (Elt Ideal)) : after (opsC2 (F := Ideal)) V (Proc.devRef .tc main_arg5) = V (Proc.devRef .tc main_arg5) := by
  after_results_simp4 <;> rfl

set_option maxHeartbeats 4000000 in
/-- The second layer's linear step. -/
theorem J_v117 : after (opsJ (F := Ideal)) V (Proc.devRef .tc main_v117)
    = addf (F := Ideal) (Host.dotGeneral (φ₁ := .f32) (φ₂ := .f32) dot_S50000x512_S512x40_S50000x40_1_0_0_1_n_n none (V (Proc.devRef .tc main_v113)) (V (Proc.devRef .tc main_arg4)))
        (broadcastInDim S50000x40 ![0, 1] bcast_S1x40_S50000x40_0_1 (broadcastInDim S1x40 ![1] bcast_S40_S1x40_1 (V (Proc.devRef .tc main_arg5)))) := by
  after_results_simp4 <;> rfl

set_option maxHeartbeats 16000000 in
/-- The inlined `log_softmax`. -/
theorem S_v118 : after (opsS (F := Ideal)) V (Proc.devRef .tc main_v118) = logSoftmaxRows (V (Proc.devRef .tc main_v117)) := by
  after_results_simp4
  simp only [ofBuf_toBuf, toBuf_ofBuf]
  generalize V (Proc.devRef .tc main_v117) = z
  rfl

end Stretches

/-! ## The stretches composed from the launch memory -/

section Composed
variable (m : (ℓ : Loc nD τ sig) → Buf (Elt Ideal) ℓ) (c : Dev nD)

abbrev VA : Valuation τ sig (Elt Ideal) := after (opsA (F := Ideal)) (launchContents m c)
abbrev VW : Valuation τ sig (Elt Ideal) := after (opsW (F := Ideal)) (VA m c)
abbrev VB : Valuation τ sig (Elt Ideal) := after (opsB (F := Ideal)) (VW m c)
abbrev VC : Valuation τ sig (Elt Ideal) := after (opsC1 (F := Ideal)) (VB m c)
abbrev VD : Valuation τ sig (Elt Ideal) := after (opsD (F := Ideal)) (VC m c)
abbrev VR : Valuation τ sig (Elt Ideal) := after (opsR (F := Ideal)) (VD m c)
abbrev VG : Valuation τ sig (Elt Ideal) := after (opsG (F := Ideal)) (VR m c)
abbrev VK : Valuation τ sig (Elt Ideal) := after (opsC2 (F := Ideal)) (VG m c)
abbrev VJ : Valuation τ sig (Elt Ideal) := after (opsJ (F := Ideal)) (VK m c)

theorem VW_v1 : VW m c (Proc.devRef .tc main_v1) = src (m ((c.tc : Thread nD τ).loc main_arg1)) := (keepW_v1 _).trans (A_v1 _)
theorem VW_v3 : VW m c (Proc.devRef .tc main_v3) = dst (m ((c.tc : Thread nD τ).loc main_arg1)) := (keepW_v3 _).trans (A_v3 _)
theorem VW_v13 : VW m c (Proc.devRef .tc main_v13) = dis (m ((c.tc : Thread nD τ).loc main_arg1)) := by
  refine (W_v13 _).trans ?_
  rw [show VA m c (Proc.devRef .tc main_v9) = _ from A_v9 _, show VA m c (Proc.devRef .tc main_v12) = _ from A_v12 _,
    show VA m c (Proc.devRef .tc main_cst_3) = _ from A_cst3 _]
  rfl
theorem VW_arg0 : VW m c (Proc.devRef .tc main_arg0) = (m ((c.tc : Thread nD τ).loc main_arg0)) := (keepW_arg0 _).trans (keepA_arg0 _)
theorem VW_arg2 : VW m c (Proc.devRef .tc main_arg2) = (m ((c.tc : Thread nD τ).loc main_arg2)) := (keepW_arg2 _).trans (keepA_arg2 _)
theorem VW_arg3 : VW m c (Proc.devRef .tc main_arg3) = (m ((c.tc : Thread nD τ).loc main_arg3)) := (keepW_arg3 _).trans (keepA_arg3 _)
theorem VW_arg4 : VW m c (Proc.devRef .tc main_arg4) = (m ((c.tc : Thread nD τ).loc main_arg4)) := (keepW_arg4 _).trans (keepA_arg4 _)
theorem VW_arg5 : VW m c (Proc.devRef .tc main_arg5) = (m ((c.tc : Thread nD τ).loc main_arg5)) := (keepW_arg5 _).trans (keepA_arg5 _)

theorem VB_v1 : VB m c (Proc.devRef .tc main_v1) = src (m ((c.tc : Thread nD τ).loc main_arg1)) := (keepB_v1 _).trans (VW_v1 m c)
theorem VB_v3 : VB m c (Proc.devRef .tc main_v3) = dst (m ((c.tc : Thread nD τ).loc main_arg1)) := (keepB_v3 _).trans (VW_v3 m c)
theorem VB_arg0 : VB m c (Proc.devRef .tc main_arg0) = (m ((c.tc : Thread nD τ).loc main_arg0)) := (keepB_arg0 _).trans (VW_arg0 m c)
theorem VB_arg2 : VB m c (Proc.devRef .tc main_arg2) = (m ((c.tc : Thread nD τ).loc main_arg2)) := (keepB_arg2 _).trans (VW_arg2 m c)
theorem VB_arg3 : VB m c (Proc.devRef .tc main_arg3) = (m ((c.tc : Thread nD τ).loc main_arg3)) := (keepB_arg3 _).trans (VW_arg3 m c)
theorem VB_arg4 : VB m c (Proc.devRef .tc main_arg4) = (m ((c.tc : Thread nD τ).loc main_arg4)) := (keepB_arg4 _).trans (VW_arg4 m c)
theorem VB_arg5 : VB m c (Proc.devRef .tc main_arg5) = (m ((c.tc : Thread nD τ).loc main_arg5)) := (keepB_arg5 _).trans (VW_arg5 m c)
theorem VB_v28 : VB m c (Proc.devRef .tc main_v28) = nrm (m ((c.tc : Thread nD τ).loc main_arg1)) := B_v28 _ _ (VW_v1 m c) (VW_v3 m c) (VW_v13 m c)
theorem VB_v41 : VB m c (Proc.devRef .tc main_v41) = hop (m ((c.tc : Thread nD τ).loc main_arg1)) (m ((c.tc : Thread nD τ).loc main_arg0)) := B_v41 _ _ _ (VW_v1 m c) (VW_v3 m c) (VW_v13 m c) (VW_arg0 m c)
theorem VB_v54 : VB m c (Proc.devRef .tc main_v54) = hop (m ((c.tc : Thread nD τ).loc main_arg1)) (hop (m ((c.tc : Thread nD τ).loc main_arg1)) (m ((c.tc : Thread nD τ).loc main_arg0))) := B_v54 _ _ _ (VW_v1 m c) (VW_v3 m c) (VW_v13 m c) (VW_arg0 m c)
theorem VB_v67 : VB m c (Proc.devRef .tc main_v67) = hop (m ((c.tc : Thread nD τ).loc main_arg1)) (hop (m ((c.tc : Thread nD τ).loc main_arg1)) (hop (m ((c.tc : Thread nD τ).loc main_arg1)) (m ((c.tc : Thread nD τ).loc main_arg0)))) := B_v67 _ _ _ (VW_v1 m c) (VW_v3 m c) (VW_v13 m c) (VW_arg0 m c)

theorem VC_v1 : VC m c (Proc.devRef .tc main_v1) = src (m ((c.tc : Thread nD τ).loc main_arg1)) := (keepC1_v1 _).trans (VB_v1 m c)
theorem VC_v3 : VC m c (Proc.devRef .tc main_v3) = dst (m ((c.tc : Thread nD τ).loc main_arg1)) := (keepC1_v3 _).trans (VB_v3 m c)
theorem VC_v28 : VC m c (Proc.devRef .tc main_v28) = nrm (m ((c.tc : Thread nD τ).loc main_arg1)) := (keepC1_v28 _).trans (VB_v28 m c)
theorem VC_arg2 : VC m c (Proc.devRef .tc main_arg2) = (m ((c.tc : Thread nD τ).loc main_arg2)) := (keepC1_arg2 _).trans (VB_arg2 m c)
theorem VC_arg3 : VC m c (Proc.devRef .tc main_arg3) = (m ((c.tc : Thread nD τ).loc main_arg3)) := (keepC1_arg3 _).trans (VB_arg3 m c)
theorem VC_arg4 : VC m c (Proc.devRef .tc main_arg4) = (m ((c.tc : Thread nD τ).loc main_arg4)) := (keepC1_arg4 _).trans (VB_arg4 m c)
theorem VC_arg5 : VC m c (Proc.devRef .tc main_arg5) = (m ((c.tc : Thread nD τ).loc main_arg5)) := (keepC1_arg5 _).trans (VB_arg5 m c)
theorem VC_v68 : VC m c (Proc.devRef .tc main_v68) = (concatenate S50000x512 1 [⟨S50000x128, (m ((c.tc : Thread nD τ).loc main_arg0))⟩, ⟨S50000x128, (hop (m ((c.tc : Thread nD τ).loc main_arg1)) (m ((c.tc : Thread nD τ).loc main_arg0)))⟩, ⟨S50000x128, (hop (m ((c.tc : Thread nD τ).loc main_arg1)) (hop (m ((c.tc : Thread nD τ).loc main_arg1)) (m ((c.tc : Thread nD τ).loc main_arg0))))⟩, ⟨S50000x128, (hop (m ((c.tc : Thread nD τ).loc main_arg1)) (hop (m ((c.tc : Thread nD τ).loc main_arg1)) (hop (m ((c.tc : Thread nD τ).loc main_arg1)) (m ((c.tc : Thread nD τ).loc main_arg0)))))⟩] concatenates_S50000x128_S50000x128_S50000x128_S50000x128_S50000x512_d1) := by
  refine (C1_v68 _).trans ?_
  rw [VB_arg0 m c, VB_v41 m c, VB_v54 m c, VB_v67 m c]

theorem VD_v1 : VD m c (Proc.devRef .tc main_v1) = src (m ((c.tc : Thread nD τ).loc main_arg1)) := (keepD_v1 _).trans (VC_v1 m c)
theorem VD_v3 : VD m c (Proc.devRef .tc main_v3) = dst (m ((c.tc : Thread nD τ).loc main_arg1)) := (keepD_v3 _).trans (VC_v3 m c)
theorem VD_v28 : VD m c (Proc.devRef .tc main_v28) = nrm (m ((c.tc : Thread nD τ).loc main_arg1)) := (keepD_v28 _).trans (VC_v28 m c)
theorem VD_arg4 : VD m c (Proc.devRef .tc main_arg4) = (m ((c.tc : Thread nD τ).loc main_arg4)) := (keepD_arg4 _).trans (VC_arg4 m c)
theorem VD_arg5 : VD m c (Proc.devRef .tc main_arg5) = (m ((c.tc : Thread nD τ).loc main_arg5)) := (keepD_arg5 _).trans (VC_arg5 m c)

theorem VR_v1 : VR m c (Proc.devRef .tc main_v1) = src (m ((c.tc : Thread nD τ).loc main_arg1)) := (keepR_v1 _).trans (VD_v1 m c)
theorem VR_v3 : VR m c (Proc.devRef .tc main_v3) = dst (m ((c.tc : Thread nD τ).loc main_arg1)) := (keepR_v3 _).trans (VD_v3 m c)
theorem VR_v28 : VR m c (Proc.devRef .tc main_v28) = nrm (m ((c.tc : Thread nD τ).loc main_arg1)) := (keepR_v28 _).trans (VD_v28 m c)
theorem VR_arg4 : VR m c (Proc.devRef .tc main_arg4) = (m ((c.tc : Thread nD τ).loc main_arg4)) := (keepR_arg4 _).trans (VD_arg4 m c)
theorem VR_arg5 : VR m c (Proc.devRef .tc main_arg5) = (m ((c.tc : Thread nD τ).loc main_arg5)) := (keepR_arg5 _).trans (VD_arg5 m c)
/-- The hidden features. -/
theorem VR_v73 : VR m c (Proc.devRef .tc main_v73) = (hidden (m ((c.tc : Thread nD τ).loc main_arg0)) (m ((c.tc : Thread nD τ).loc main_arg1)) (m ((c.tc : Thread nD τ).loc main_arg2)) (m ((c.tc : Thread nD τ).loc main_arg3))) := by
  refine (R_v73 _).trans ?_
  rw [show VD m c (Proc.devRef .tc main_v72) = _ from D_v72 _, VC_v68 m c, VC_arg2 m c, VC_arg3 m c]
  rfl

theorem VG_v73 : VG m c (Proc.devRef .tc main_v73) = (hidden (m ((c.tc : Thread nD τ).loc main_arg0)) (m ((c.tc : Thread nD τ).loc main_arg1)) (m ((c.tc : Thread nD τ).loc main_arg2)) (m ((c.tc : Thread nD τ).loc main_arg3))) := (keepG_v73 _).trans (VR_v73 m c)
theorem VG_arg4 : VG m c (Proc.devRef .tc main_arg4) = (m ((c.tc : Thread nD τ).loc main_arg4)) := (keepG_arg4 _).trans (VR_arg4 m c)
theorem VG_arg5 : VG m c (Proc.devRef .tc main_arg5) = (m ((c.tc : Thread nD τ).loc main_arg5)) := (keepG_arg5 _).trans (VR_arg5 m c)
theorem VG_v86 : VG m c (Proc.devRef .tc main_v86) = (hop (m ((c.tc : Thread nD τ).loc main_arg1)) (hidden (m ((c.tc : Thread nD τ).loc main_arg0)) (m ((c.tc : Thread nD τ).loc main_arg1)) (m ((c.tc : Thread nD τ).loc main_arg2)) (m ((c.tc : Thread nD τ).loc main_arg3)))) := G_v86 _ _ _ (VR_v73 m c) (VR_v1 m c) (VR_v3 m c) (VR_v28 m c)
theorem VG_v99 : VG m c (Proc.devRef .tc main_v99) = (hop (m ((c.tc : Thread nD τ).loc main_arg1)) (hop (m ((c.tc : Thread nD τ).loc main_arg1)) (hidden (m ((c.tc : Thread nD τ).loc main_arg0)) (m ((c.tc : Thread nD τ).loc main_arg1)) (m ((c.tc : Thread nD τ).loc main_arg2)) (m ((c.tc : Thread nD τ).loc main_arg3))))) := G_v99 _ _ _ (VR_v73 m c) (VR_v1 m c) (VR_v3 m c) (VR_v28 m c)
theorem VG_v112 : VG m c (Proc.devRef .tc main_v112) = (hop (m ((c.tc : Thread nD τ).loc main_arg1)) (hop (m ((c.tc : Thread nD τ).loc main_arg1)) (hop (m ((c.tc : Thread nD τ).loc main_arg1)) (hidden (m ((c.tc : Thread nD τ).loc main_arg0)) (m ((c.tc : Thread nD τ).loc main_arg1)) (m ((c.tc : Thread nD τ).loc main_arg2)) (m ((c.tc : Thread nD τ).loc main_arg3)))))) := G_v112 _ _ _ (VR_v73 m c) (VR_v1 m c) (VR_v3 m c) (VR_v28 m c)

theorem VK_arg4 : VK m c (Proc.devRef .tc main_arg4) = (m ((c.tc : Thread nD τ).loc main_arg4)) := (keepC2_arg4 _).trans (VG_arg4 m c)
theorem VK_arg5 : VK m c (Proc.devRef .tc main_arg5) = (m ((c.tc : Thread nD τ).loc main_arg5)) := (keepC2_arg5 _).trans (VG_arg5 m c)
theorem VK_v113 : VK m c (Proc.devRef .tc main_v113) = (concatenate S50000x512 1 [⟨S50000x128, (hidden (m ((c.tc : Thread nD τ).loc main_arg0)) (m ((c.tc : Thread nD τ).loc main_arg1)) (m ((c.tc : Thread nD τ).loc main_arg2)) (m ((c.tc : Thread nD τ).loc main_arg3)))⟩, ⟨S50000x128, (hop (m ((c.tc : Thread nD τ).loc main_arg1)) (hidden (m ((c.tc : Thread nD τ).loc main_arg0)) (m ((c.tc : Thread nD τ).loc main_arg1)) (m ((c.tc : Thread nD τ).loc main_arg2)) (m ((c.tc : Thread nD τ).loc main_arg3))))⟩, ⟨S50000x128, (hop (m ((c.tc : Thread nD τ).loc main_arg1)) (hop (m ((c.tc : Thread nD τ).loc main_arg1)) (hidden (m ((c.tc : Thread nD τ).loc main_arg0)) (m ((c.tc : Thread nD τ).loc main_arg1)) (m ((c.tc : Thread nD τ).loc main_arg2)) (m ((c.tc : Thread nD τ).loc main_arg3)))))⟩, ⟨S50000x128, (hop (m ((c.tc : Thread nD τ).loc main_arg1)) (hop (m ((c.tc : Thread nD τ).loc main_arg1)) (hop (m ((c.tc : Thread nD τ).loc main_arg1)) (hidden (m ((c.tc : Thread nD τ).loc main_arg0)) (m ((c.tc : Thread nD τ).loc main_arg1)) (m ((c.tc : Thread nD τ).loc main_arg2)) (m ((c.tc : Thread nD τ).loc main_arg3))))))⟩] concatenates_S50000x128_S50000x128_S50000x128_S50000x128_S50000x512_d1) := by
  refine (C2_v113 _).trans ?_
  rw [VG_v73 m c, VG_v86 m c, VG_v99 m c, VG_v112 m c]

/-- The second layer's logits. -/
theorem VJ_v117 : VJ m c (Proc.devRef .tc main_v117) = logits2 (hidden (m ((c.tc : Thread nD τ).loc main_arg0)) (m ((c.tc : Thread nD τ).loc main_arg1)) (m ((c.tc : Thread nD τ).loc main_arg2)) (m ((c.tc : Thread nD τ).loc main_arg3))) (hop (m ((c.tc : Thread nD τ).loc main_arg1)) (hidden (m ((c.tc : Thread nD τ).loc main_arg0)) (m ((c.tc : Thread nD τ).loc main_arg1)) (m ((c.tc : Thread nD τ).loc main_arg2)) (m ((c.tc : Thread nD τ).loc main_arg3)))) (hop (m ((c.tc : Thread nD τ).loc main_arg1)) (hop (m ((c.tc : Thread nD τ).loc main_arg1)) (hidden (m ((c.tc : Thread nD τ).loc main_arg0)) (m ((c.tc : Thread nD τ).loc main_arg1)) (m ((c.tc : Thread nD τ).loc main_arg2)) (m ((c.tc : Thread nD τ).loc main_arg3))))) (hop (m ((c.tc : Thread nD τ).loc main_arg1)) (hop (m ((c.tc : Thread nD τ).loc main_arg1)) (hop (m ((c.tc : Thread nD τ).loc main_arg1)) (hidden (m ((c.tc : Thread nD τ).loc main_arg0)) (m ((c.tc : Thread nD τ).loc main_arg1)) (m ((c.tc : Thread nD τ).loc main_arg2)) (m ((c.tc : Thread nD τ).loc main_arg3)))))) (m ((c.tc : Thread nD τ).loc main_arg4)) (m ((c.tc : Thread nD τ).loc main_arg5)) := by
  refine (J_v117 _).trans ?_
  rw [VK_v113 m c, VK_arg4 m c, VK_arg5 m c] <;> rfl

/-- THE REFERENCE'S RESULT is the network's output function of the six argument arrays. -/
theorem result : after (ops (F := Ideal)) (launchContents m c) (Proc.devRef .tc main_v118)
    = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_split]
  simp only [after_append]
  refine (S_v118 _).trans ?_
  show logSoftmaxRows (VJ m c (Proc.devRef .tc main_v117)) = _
  rw [VJ_v117 m c]
  rfl

end Composed
set_option maxHeartbeats 65600000 in
/-- On every device, from any memory with zero counters: every weakly fair execution of the reference terminates with
    the result at the network's output function of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v118) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v118).trans (result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RunP

end
-- ==== Proof.lean ====
/-
  Two graph-convolution layers (each the node features and three propagated copies of them, joined and multiplied by
  a weight matrix, plus a bias), a ReLU between them and a log-softmax after: a kernel program against its plain
  reference, as extended reals.

  Both programs compute the edge weights `deg^(-1/2)[src] · deg^(-1/2)[dst]` and the propagated features by the same
  host operations. They differ in the dense steps. The reference joins the four 128-wide arrays to 512 columns and
  multiplies once; the kernel program multiplies each array by its 128-row slab of the weights in a kernel region and
  adds the four products: one sum over 512 terms regrouped as four sums over 128, which needs only that addition on the
  extended reals is associative. In the second layer the kernel program pads the 40 output columns to 128 with zero
  weights, then overwrites the 88 padded logits of every row with a constant named `-∞`, takes the row maximum and the
  log-sum-exp over all 128 lanes, and cuts the first 40 columns out. `-∞` is neutral for the maximum, `-∞ - m = -∞`
  whatever `m` is, and its exponential is `0`, neutral for the sum: on the 40 real columns the result is the
  reference's log-softmax. No finiteness of the inputs is used anywhere. The narrower float format the kernel program
  stages its operands in is the identity here.

  The pieces: the frames of the two kernel programs are the generated ones; the reference's frame is its run with the
  result dropped; the named constant's ledger entry is its rule's statement; and for the value claim both runs end at
  the same function `out` of the six argument arrays.
-/
import proofs.«181505_j16286515986691_2_alg».proof.Defs
import proofs.«181505_j16286515986691_2_alg».proof.Proof.Gen.Kernel
import proofs.«181505_j16286515986691_2_alg».proof.Proof.Gen.Kernel.Frame
import proofs.«181505_j16286515986691_2_alg».proof.Proof.Gen.KernelIdeal
import proofs.«181505_j16286515986691_2_alg».proof.Proof.Gen.KernelIdeal.Frame
import proofs.«181505_j16286515986691_2_alg».proof.Proof.Gen.ReferenceIdeal
import proofs.«181505_j16286515986691_2_alg».proof.Proof.Gen.Pre_finite_inputs
import proofs.«181505_j16286515986691_2_alg».proof.Proof.KRun
import proofs.«181505_j16286515986691_2_alg».proof.Proof.HostB
import proofs.«181505_j16286515986691_2_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RunP.run m ρ)

/-- The ledger's one entry: the certificate's table gives the mask fill's name the value `-∞`. -/
theorem preserves : Cert.preserves_Kernel_KernelIdeal :=
  IdealRules.named_const.statement Cert.KernelIdeal.κ "neg_big" .f32 0xF149F2CA#32 ⊥ rfl

/-- Both idealized programs, from memories that agree on the arguments, end with the result at the network's output
    function of the argument arrays. -/
theorem algebraic : Cert.algebraic_KernelIdeal_ReferenceIdeal := by
  intro m ρ m' ρ' _ hagree
  refine ⟨fun c => Cert.ReferenceIdeal.Layer.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.HostRead.result_eq m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.RunP.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
